-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S1x2048x128 : Shape := ⟨3, ![1, 2048, 128]⟩
abbrev S1x1x2048x4096 : Shape := ⟨4, ![1, 1, 2048, 4096]⟩
abbrev S1x8x2048x128 : Shape := ⟨4, ![1, 8, 2048, 128]⟩
abbrev S2048x2048 : Shape := ⟨2, ![2048, 2048]⟩
abbrev S1024x2048 : Shape := ⟨2, ![1024, 2048]⟩
abbrev S128 : Shape := ⟨1, ![128]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S1x2048x128 : S_.BroadcastsInDim S1x2048x128 (![] : Fin 0 → Fin S1x2048x128.rank)
  reducesTo_S1x2048x128_S_d0_1_2 : S1x2048x128.ReducesTo [0, 1, 2] S_
  bcast_S_S1x1x2048x4096 : S_.BroadcastsInDim S1x1x2048x4096 (![] : Fin 0 → Fin S1x1x2048x4096.rank)
  reducesTo_S1x1x2048x4096_S_d0_1_2_3 : S1x1x2048x4096.ReducesTo [0, 1, 2, 3] S_
  bcast_S_S1x8x2048x128 : S_.BroadcastsInDim S1x8x2048x128 (![] : Fin 0 → Fin S1x8x2048x128.rank)
  reducesTo_S1x8x2048x128_S_d0_1_2_3 : S1x8x2048x128.ReducesTo [0, 1, 2, 3] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S1024x2048 .f32) (main_arg8 : FVec F S1024x2048 .f32) (main_arg9 : FVec F S2048x2048 .f32) (main_arg10 : FVec F S128 .f32) (main_arg11 : FVec F S128 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S1x8x2048x128 .f32) (main_arg5 : FVec F S1x8x2048x128 .f32) (main_arg6 : FVec F S2048x2048 .f32) (main_arg7 : FVec F S1024x2048 .f32) (main_arg8 : FVec F S1024x2048 .f32) (main_arg9 : FVec F S2048x2048 .f32) (main_arg10 : FVec F S128 .f32) (main_arg11 : FVec F S128 .f32) (main_v13 : IVec S_ 1) (main_v16 : IVec S1x1x2048x4096 1) : IVec S_ 1 :=
  let main_c_5 : IVec S_ 1 := constantI S_ 1 1#1
  let main_v17 : IVec S_ 1 := (fun x v => Host.reduce IntOp.andi x v reducesTo_S1x1x2048x4096_S_d0_1_2_3 h_S_) main_v16 main_c_5
  let main_v18 : IVec S_ 1 := andi main_v13 main_v17
  let main_v19 : FVec F S1x8x2048x128 .f32 := Host.absf main_arg4
  let main_cst_6 : FVec F S_ .f32 := constant S_ .f32 0x7F800000#32
  let main_v20 : FVec F S1x8x2048x128 .f32 := broadcastInDim S1x8x2048x128 ![] bcast_S_S1x8x2048x128 main_cst_6
  let main_v21 : IVec S1x8x2048x128 1 := cmpf .olt main_v19 main_v20
  let main_c_7 : IVec S_ 1 := constantI S_ 1 1#1
  let main_v22 : IVec S_ 1 := (fun x v => Host.reduce IntOp.andi x v reducesTo_S1x8x2048x128_S_d0_1_2_3 h_S_) main_v21 main_c_7
  let main_v23 : IVec S_ 1 := andi main_v18 main_v22
  let main_v24 : FVec F S1x8x2048x128 .f32 := Host.absf main_arg5
  let main_cst_8 : FVec F S_ .f32 := constant S_ .f32 0x7F800000#32
  let main_v25 : FVec F S1x8x2048x128 .f32 := broadcastInDim S1x8x2048x128 ![] bcast_S_S1x8x2048x128 main_cst_8
  let main_v26 : IVec S1x8x2048x128 1 := cmpf .olt main_v24 main_v25
  let main_c_9 : IVec S_ 1 := constantI S_ 1 1#1
  let main_v27 : IVec S_ 1 := (fun x v => Host.reduce IntOp.andi x v reducesTo_S1x8x2048x128_S_d0_1_2_3 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x2048x2048 .f32) (main_arg1 : FVec F S1x2048x128 .f32) (main_arg2 : FVec F S1x2048x128 .f32) (main_arg3 : FVec F S1x1x2048x4096 .f32) (main_arg4 : FVec F S1x8x2048x128 .f32) (main_arg5 : FVec F S1x8x2048x128 .f32) (main_arg6 : FVec F S2048x2048 .f32) (main_arg7 : FVec F S1024x2048 .f32) (main_arg8 : FVec F S1024x2048 .f32) (main_arg9 : FVec F S2048x2048 .f32) (main_arg10 : FVec F S128 .f32) (main_arg11 : FVec F S128 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S1x2048x128 .f32 := Host.absf main_arg1
  let main_cst_0 : FVec F S_ .f32 := constant S_ .f32 0x7F800000#32
  let main_v5 : FVec F S1x2048x128 .f32 := broadcastInDim S1x2048x128 ![] bcast_S_S1x2048x128 main_cst_0
  let main_v6 : IVec S1x2048x128 1 := cmpf .olt main_v4 main_v5
  let main_c_1 : IVec S_ 1 := constantI S_ 1 1#1
  let main_v7 : IVec S_ 1 := (fun x v => Host.reduce IntOp.andi x v reducesTo_S1x2048x128_S_d0_1_2 h_S_) main_v6 main_c_1
  let main_v8 : IVec S_ 1 := andi main_v3 main_v7
  let main_v9 : FVec F S1x2048x128 .f32 := Host.absf main_arg2
  let main_cst_2 : FVec F S_ .f32 := constant S_ .f32 0x7F800000#32
  let main_v10 : FVec F S1x2048x128 .f32 := broadcastInDim S1x2048x128 ![] bcast_S_S1x2048x128 main_cst_2
  let main_v11 : IVec S1x2048x128 1 := cmpf .olt main_v9 main_v10
  let main_c_3 : IVec S_ 1 := constantI S_ 1 1#1
  let main_v12 : IVec S_ 1 := (fun x v => Host.reduce IntOp.andi x v reducesTo_S1x2048x128_S_d0_1_2 h_S_) main_v11 main_c_3
  let main_v13 : IVec S_ 1 := andi main_v8 main_v12
  let main_v14 : FVec F S1x1x2048x4096 .f32 := Host.absf main_arg3
  let main_cst_4 : FVec F S_ .f32 := constant S_ .f32 0x7F800000#32
  let main_v15 : FVec F S1x1x2048x4096 .f32 := broadcastInDim S1x1x2048x4096 ![] bcast_S_S1x1x2048x4096 main_cst_4
  let main_v16 : IVec S1x1x2048x4096 1 := cmpf .olt main_v14 main_v15
  fn_part1 (F := F) main_arg4 main_arg5 main_arg6 main_arg7 main_arg8 main_arg9 main_arg10 main_arg11 main_v13 main_v16
-- ==== Kernel.lean ====
abbrev S1x2048x2048 : Shape := ⟨3, ![1, 2048, 2048]⟩
abbrev S1x2048x128 : Shape := ⟨3, ![1, 2048, 128]⟩
abbrev S1x1x2048x4096 : Shape := ⟨4, ![1, 1, 2048, 4096]⟩
abbrev S1x8x2048x128 : Shape := ⟨4, ![1, 8, 2048, 128]⟩
abbrev S2048x2048 : Shape := ⟨2, ![2048, 2048]⟩
abbrev S1024x2048 : Shape := ⟨2, ![1024, 2048]⟩
abbrev S128 : Shape := ⟨1, ![128]⟩
abbrev S4096x2048 : Shape := ⟨2, ![4096, 2048]⟩
abbrev S2048x4096 : Shape := ⟨2, ![2048, 4096]⟩
abbrev S512x2048 : Shape := ⟨2, ![512, 2048]⟩
abbrev S512x512 : Shape := ⟨2, ![512, 512]⟩
abbrev S2048x512 : Shape := ⟨2, ![2048, 512]⟩
abbrev S2048x1024 : Shape := ⟨2, ![2048, 1024]⟩
abbrev S2048x16x128 : Shape := ⟨3, ![2048, 16, 128]⟩
abbrev S16x2048x128 : Shape := ⟨3, ![16, 2048, 128]⟩
abbrev S2048x8x128 : Shape := ⟨3, ![2048, 8, 128]⟩
abbrev S8x2048x128 : Shape := ⟨3, ![8, 2048, 128]⟩
abbrev S_ : Shape := ⟨0, ![]⟩
abbrev S16x2048 : Shape := ⟨2, ![16, 2048]⟩
abbrev S16x2048x1 : Shape := ⟨3, ![16, 2048, 1]⟩
abbrev S1x1x128 : Shape := ⟨3, ![1, 1, 128]⟩
abbrev S8x2048 : Shape := ⟨2, ![8, 2048]⟩
abbrev S8x2048x1 : Shape := ⟨3, ![8, 2048, 1]⟩
abbrev S2048x128 : Shape := ⟨2, ![2048, 128]⟩
abbrev S16x2048x64 : Shape := ⟨3, ![16, 2048, 64]⟩
abbrev S8x2048x64 : Shape := ⟨3, ![8, 2048, 64]⟩
abbrev S8x4096x128 : Shape := ⟨3, ![8, 4096, 128]⟩
abbrev S1x128x128 : Shape := ⟨3, ![1, 128, 128]⟩
abbrev S1x4096x128 : Shape := ⟨3, ![1, 4096, 128]⟩
abbrev S128x4096 : Shape := ⟨2, ![128, 4096]⟩
abbrev S128x128 : Shape := ⟨2, ![128, 128]⟩
abbrev S4096x128 : Shape := ⟨2, ![4096, 128]⟩
abbrev S128x1 : Shape := ⟨2, ![128, 1]⟩

abbrev nBuf : Space → Nat
  | .hbm => 90
  | .vmem => 22
  | .smem => 0
  | _ => 0

abbrev bufTy : (tb : Table) → Fin (tcTables nBuf tb) → BufTy
  | .hbm, ⟨0, _⟩ => ⟨S1x2048x2048, .f32⟩
  | .hbm, ⟨1, _⟩ => ⟨S1x2048x128, .f32⟩
  | .hbm, ⟨2, _⟩ => ⟨S1x2048x128, .f32⟩
  | .hbm, ⟨3, _⟩ => ⟨S1x1x2048x4096, .f32⟩
  | .hbm, ⟨4, _⟩ => ⟨S1x8x2048x128, .f32⟩
  | .hbm, ⟨5, _⟩ => ⟨S1x8x2048x128, .f32⟩
  | .hbm, ⟨6, _⟩ => ⟨S2048x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S128, .f32⟩
  | .hbm, ⟨11, _⟩ => ⟨S128, .f32⟩
  | .hbm, ⟨12, _⟩ => ⟨S2048x2048, .f32⟩
  | .hbm, ⟨13, _⟩ => ⟨S4096x2048, .f32⟩
  | .hbm, ⟨14, _⟩ => ⟨S2048x4096, .f32⟩
  | .hbm, ⟨15, _⟩ => ⟨S2048x2048, .f32⟩
  | .hbm, ⟨16, _⟩ => ⟨S2048x1024, .f32⟩
  | .hbm, ⟨17, _⟩ => ⟨S2048x1024, .f32⟩
  | .hbm, ⟨18, _⟩ => ⟨S2048x16x128, .f32⟩
  | .hbm, ⟨19, _⟩ => ⟨S16x2048x128, .f32⟩
  | .hbm, ⟨20, _⟩ => ⟨S2048x8x128, .f32⟩
  | .hbm, ⟨21, _⟩ => ⟨S8x2048x128, .f32⟩
  | .hbm, ⟨22, _⟩ => ⟨S2048x8x128, .f32⟩
  | .hbm, ⟨23, _⟩ => ⟨S8x2048x128, .f32⟩
  | .hbm, ⟨24, _⟩ => ⟨S16x2048x128, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x128, .f32⟩
  | .hbm, ⟨36, _⟩ => ⟨S16x2048x128, .f32⟩
  | .hbm, ⟨37, _⟩ => ⟨S1x1x128, .f32⟩
  | .hbm, ⟨38, _⟩ => ⟨S16x2048x128, .f32⟩
  | .hbm, ⟨39, _⟩ => ⟨S16x2048x128, .f32⟩
  | .hbm, ⟨40, _⟩ => ⟨S8x2048x128, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x128, .f32⟩
  | .hbm, ⟨52, _⟩ => ⟨S8x2048x128, .f32⟩
  | .hbm, ⟨53, _⟩ => ⟨S1x1x128, .f32⟩
  | .hbm, ⟨54, _⟩ => ⟨S8x2048x128, .f32⟩
  | .hbm, ⟨55, _⟩ => ⟨S8x2048x128, .f32⟩
  | .hbm, ⟨56, _⟩ => ⟨S2048x128, .f32⟩
  | .hbm, ⟨57, _⟩ => ⟨S1x2048x128, .f32⟩
  | .hbm, ⟨58, _⟩ => ⟨S2048x128, .f32⟩
  | .hbm, ⟨59, _⟩ => ⟨S1x2048x128, .f32⟩
  | .hbm, ⟨60, _⟩ => ⟨S16x2048x128, .f32⟩
  | .hbm, ⟨61, _⟩ => ⟨S16x2048x128, .f32⟩
  | .hbm, ⟨62, _⟩ => ⟨S16x2048x64, .f32⟩
  | .hbm, ⟨63, _⟩ => ⟨S16x2048x64, .f32⟩
  | .hbm, ⟨64, _⟩ => ⟨S16x2048x64, .f32⟩
  | .hbm, ⟨65, _⟩ => ⟨S16x2048x128, .f32⟩
  | .hbm, ⟨66, _⟩ => ⟨S16x2048x128, .f32⟩
  | .hbm, ⟨67, _⟩ => ⟨S16x2048x128, .f32⟩
  | .hbm, ⟨68, _⟩ => ⟨S16x2048x128, .f32⟩
  | .hbm, ⟨69, _⟩ => ⟨S8x2048x128, .f32⟩
  | .hbm, ⟨70, _⟩ => ⟨S8x2048x128, .f32⟩
  | .hbm, ⟨71, _⟩ => ⟨S8x2048x64, .f32⟩
  | .hbm, ⟨72, _⟩ => ⟨S8x2048x64, .f32⟩
  | .hbm, ⟨73, _⟩ => ⟨S8x2048x64, .f32⟩
  | .hbm, ⟨74, _⟩ => ⟨S8x2048x128, .f32⟩
  | .hbm, ⟨75, _⟩ => ⟨S8x2048x128, .f32⟩
  | .hbm, ⟨76, _⟩ => ⟨S8x2048x128, .f32⟩
  | .hbm, ⟨77, _⟩ => ⟨S8x2048x128, .f32⟩
  | .hbm, ⟨78, _⟩ => ⟨S8x2048x128, .f32⟩
  | .hbm, ⟨79, _⟩ => ⟨S8x2048x128, .f32⟩
  | .hbm, ⟨80, _⟩ => ⟨S8x4096x128, .f32⟩
  | .hbm, ⟨81, _⟩ => ⟨S8x4096x128, .f32⟩
  | .hbm, ⟨82, _⟩ => ⟨S2048x4096, .f32⟩
  | .hbm, ⟨83, _⟩ => ⟨S16x2048x128, .f32⟩
  | .hbm, ⟨84, _⟩ => ⟨S2048x16x128, .f32⟩
  | .hbm, ⟨85, _⟩ => ⟨S2048x2048, .f32⟩
  | .hbm, ⟨86, _⟩ => ⟨S2048x2048, .f32⟩
  | .hbm, ⟨87, _⟩ => ⟨S1x2048x2048, .f32⟩
  | .hbm, ⟨88, _⟩ => ⟨S1x8x2048x128, .f32⟩
  | .hbm, ⟨89, _⟩ => ⟨S1x8x2048x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | .local _ .vmem, ⟨6, _⟩ => ⟨S1x128x128, .f32⟩
  | .local _ .vmem, ⟨7, _⟩ => ⟨S1x128x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S128x4096, .f32⟩
  | .local _ .vmem, ⟨13, _⟩ => ⟨S128x4096, .f32⟩
  | .local _ .vmem, ⟨14, _⟩ => ⟨S1x128x128, .f32⟩
  | .local _ .vmem, ⟨15, _⟩ => ⟨S1x128x128, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x512, .f32⟩
  | .local _ .vmem, ⟨21, _⟩ => ⟨S512x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S1x2048x2048_S2048x2048 : S1x2048x2048.ShapeCasts S2048x2048
  concatenates_S2048x2048_S1024x2048_S1024x2048_S4096x2048_d0 : Shape.Concatenates [S2048x2048, S1024x2048, S1024x2048] S4096x2048 0
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  transposes_S512x2048_p1_0_S2048x512 : S512x2048.Transposes [1, 0] S2048x512
  inb_S512x512_S512x512_0_0 : ∀ a, (![0, 0] : Fin 2 → Nat) a + S512x512.size a ≤ S512x512.size a
  h_S512x512 : 0 < S512x512.numel
  slices_S2048x4096_S2048x2048_0_0 : S2048x4096.Slices ![0, 0] S2048x2048
  slices_S2048x4096_S2048x1024_0_2048 : S2048x4096.Slices ![0, 2048] S2048x1024
  slices_S2048x4096_S2048x1024_0_3072 : S2048x4096.Slices ![0, 3072] S2048x1024
  shapeCasts_S2048x2048_S2048x16x128 : S2048x2048.ShapeCasts S2048x16x128
  transposes_S2048x16x128_S16x2048x128_1_0_2 : S2048x16x128.Transposes [1, 0, 2] S16x2048x128
  shapeCasts_S2048x1024_S2048x8x128 : S2048x1024.ShapeCasts S2048x8x128
  transposes_S2048x8x128_S8x2048x128_1_0_2 : S2048x8x128.Transposes [1, 0, 2] S8x2048x128
  reducesTo_S16x2048x128_S16x2048_d2 : S16x2048x128.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x128_0_1_2 : S16x2048x1.BroadcastsInDim S16x2048x128 (![0, 1, 2] : Fin 3 → Fin S16x2048x128.rank)
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  reducesTo_S8x2048x128_S8x2048_d2 : S8x2048x128.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x128_0_1_2 : S8x2048x1.BroadcastsInDim S8x2048x128 (![0, 1, 2] : Fin 3 → Fin S8x2048x128.rank)
  bcast_S1x1x128_S8x2048x128_0_1_2 : S1x1x128.BroadcastsInDim S8x2048x128 (![0, 1, 2] : Fin 3 → Fin S8x2048x128.rank)
  shapeCasts_S1x2048x128_S2048x128 : S1x2048x128.ShapeCasts S2048x128
  bcast_S2048x128_S1x2048x128_1_2 : S2048x128.BroadcastsInDim S1x2048x128 (![1, 2] : Fin 2 → Fin S1x2048x128.rank)
  bcast_S1x2048x128_S16x2048x128_0_1_2 : S1x2048x128.BroadcastsInDim S16x2048x128 (![0, 1, 2] : Fin 3 → Fin S16x2048x128.rank)
  slices_S16x2048x128_S16x2048x64_0_0_0 : S16x2048x128.Slices ![0, 0, 0] S16x2048x64
  slices_S16x2048x128_S16x2048x64_0_0_64 : S16x2048x128.Slices ![0, 0, 64] S16x2048x64
  concatenates_S16x2048x64_S16x2048x64_S16x2048x128_d2 : Shape.Concatenates [S16x2048x64, S16x2048x64] S16x2048x128 2
  bcast_S1x2048x128_S8x2048x128_0_1_2 : S1x2048x128.BroadcastsInDim S8x2048x128 (![0, 1, 2] : Fin 3 → Fin S8x2048x128.rank)
  slices_S8x2048x128_S8x2048x64_0_0_0 : S8x2048x128.Slices ![0, 0, 0] S8x2048x64
  slices_S8x2048x128_S8x2048x64_0_0_64 : S8x2048x128.Slices ![0, 0, 64] S8x2048x64
  concatenates_S8x2048x64_S8x2048x64_S8x2048x128_d2 : Shape.Concatenates [S8x2048x64, S8x2048x64] S8x2048x128 2
  shapeCasts_S1x8x2048x128_S8x2048x128 : S1x8x2048x128.ShapeCasts S8x2048x128
  concatenates_S8x2048x128_S8x2048x128_S8x4096x128_d1 : Shape.Concatenates [S8x2048x128, S8x2048x128] S8x4096x128 1
  shapeCasts_S1x1x2048x4096_S2048x4096 : S1x1x2048x4096.ShapeCasts S2048x4096
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  transposes_S4096x128_p1_0_S128x4096 : S4096x128.Transposes [1, 0] S128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  broadcasts_S128x1_S128x4096 : S128x1.Broadcasts S128x4096
  shapeCasts_S128x128_S1x128x128 : S128x128.ShapeCasts S1x128x128
  transposes_S16x2048x128_S2048x16x128_1_0_2 : S16x2048x128.Transposes [1, 0, 2] S2048x16x128
  shapeCasts_S2048x16x128_S2048x2048 : S2048x16x128.ShapeCasts S2048x2048
  bcast_S2048x2048_S1x2048x2048_1_2 : S2048x2048.BroadcastsInDim S1x2048x2048 (![1, 2] : Fin 2 → Fin S1x2048x2048.rank)
  bcast_S8x2048x128_S1x8x2048x128_1_2_3 : S8x2048x128.BroadcastsInDim S1x8x2048x128 (![1, 2, 3] : Fin 3 → Fin S1x8x2048x128.rank)
  dot_S512x2048_S2048x512_S512x512_1_0_0_1_n_n_wf : DotDims.WF S512x2048 S2048x512 S512x512 [1] [0] [0] [1] [] []
  dot_S128x128_S128x4096_S128x4096_1_0_0_1_n_n_wf : DotDims.WF S128x128 S128x4096 S128x4096 [1] [0] [0] [1] [] []
  dot_S128x4096_S4096x128_S128x128_1_0_0_1_n_n_wf : DotDims.WF S128x4096 S4096x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x4096.size a
  hwx0_2 : ∀ i : grid0.Coords, EltTy.bits .f32 = 32 ∨ (Rect.block (s := S2048x4096) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S16x2048x128.size a
  hwx1_0 : ∀ i : grid1.Coords, EltTy.bits .f32 = 32 ∨ (Rect.block (s := S16x2048x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S8x4096x128.size a
  hwx1_1 : ∀ i : grid1.Coords, EltTy.bits .f32 = 32 ∨ (Rect.block (s := S8x4096x128) S1x4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S8x4096x128.size a
  hwx1_2 : ∀ i : grid1.Coords, EltTy.bits .f32 = 32 ∨ (Rect.block (s := S8x4096x128) S1x4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S2048x4096.size a
  hwx1_3 : ∀ i : grid1.Coords, EltTy.bits .f32 = 32 ∨ (Rect.block (s := S2048x4096) S128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x128.size a ≤ S16x2048x128.size a
  hwx1_4 : ∀ i : grid1.Coords, EltTy.bits .f32 = 32 ∨ (Rect.block (s := S16x2048x128) S1x128x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S2048x2048.size a
  hwx2_0 : ∀ i : grid2.Coords, EltTy.bits .f32 = 32 ∨ (Rect.block (s := S2048x2048) S512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .f32 = 32 ∨ (Rect.block (s := S2048x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S2048x2048.size a
  hwx2_2 : ∀ i : grid2.Coords, EltTy.bits .f32 = 32 ∨ (Rect.block (s := S2048x2048) S512x512.size (cc2_transform_2 i) (hinb2_2 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x128x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v67) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x2048x2048 : Shape := ⟨3, ![1, 2048, 2048]⟩
abbrev S1x2048x128 : Shape := ⟨3, ![1, 2048, 128]⟩
abbrev S1x1x2048x4096 : Shape := ⟨4, ![1, 1, 2048, 4096]⟩
abbrev S1x8x2048x128 : Shape := ⟨4, ![1, 8, 2048, 128]⟩
abbrev S2048x2048 : Shape := ⟨2, ![2048, 2048]⟩
abbrev S1024x2048 : Shape := ⟨2, ![1024, 2048]⟩
abbrev S128 : Shape := ⟨1, ![128]⟩
abbrev S1x2048x16x128 : Shape := ⟨4, ![1, 2048, 16, 128]⟩
abbrev S1x16x2048x128 : Shape := ⟨4, ![1, 16, 2048, 128]⟩
abbrev S1x2048x1024 : Shape := ⟨3, ![1, 2048, 1024]⟩
abbrev S1x2048x8x128 : Shape := ⟨4, ![1, 2048, 8, 128]⟩
abbrev S_ : Shape := ⟨0, ![]⟩
abbrev S1x16x2048 : Shape := ⟨3, ![1, 16, 2048]⟩
abbrev S1x16x2048x1 : Shape := ⟨4, ![1, 16, 2048, 1]⟩
abbrev S1x1x1x128 : Shape := ⟨4, ![1, 1, 1, 128]⟩
abbrev S1x8x2048 : Shape := ⟨3, ![1, 8, 2048]⟩
abbrev S1x8x2048x1 : Shape := ⟨4, ![1, 8, 2048, 1]⟩
abbrev S1x1x2048x128 : Shape := ⟨4, ![1, 1, 2048, 128]⟩
abbrev S1x16x2048x64 : Shape := ⟨4, ![1, 16, 2048, 64]⟩
abbrev S1x8x2048x64 : Shape := ⟨4, ![1, 8, 2048, 64]⟩
abbrev S1x8x4096x128 : Shape := ⟨4, ![1, 8, 4096, 128]⟩
abbrev S1x8x1x4096x128 : Shape := ⟨5, ![1, 8, 1, 4096, 128]⟩
abbrev S1x8x2x4096x128 : Shape := ⟨5, ![1, 8, 2, 4096, 128]⟩
abbrev S1x16x4096x128 : Shape := ⟨4, ![1, 16, 4096, 128]⟩
abbrev S1x16x2048x4096 : Shape := ⟨4, ![1, 16, 2048, 4096]⟩

abbrev nBuf : Space → Nat
  | .hbm => 107
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x128, .f32⟩
  | .hbm, ⟨2, _⟩ => ⟨S1x2048x128, .f32⟩
  | .hbm, ⟨3, _⟩ => ⟨S1x1x2048x4096, .f32⟩
  | .hbm, ⟨4, _⟩ => ⟨S1x8x2048x128, .f32⟩
  | .hbm, ⟨5, _⟩ => ⟨S1x8x2048x128, .f32⟩
  | .hbm, ⟨6, _⟩ => ⟨S2048x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S128, .f32⟩
  | .hbm, ⟨11, _⟩ => ⟨S128, .f32⟩
  | .hbm, ⟨12, _⟩ => ⟨S1x2048x2048, .f32⟩
  | .hbm, ⟨13, _⟩ => ⟨S1x2048x16x128, .f32⟩
  | .hbm, ⟨14, _⟩ => ⟨S1x16x2048x128, .f32⟩
  | .hbm, ⟨15, _⟩ => ⟨S1x2048x1024, .f32⟩
  | .hbm, ⟨16, _⟩ => ⟨S1x2048x8x128, .f32⟩
  | .hbm, ⟨17, _⟩ => ⟨S1x8x2048x128, .f32⟩
  | .hbm, ⟨18, _⟩ => ⟨S1x2048x1024, .f32⟩
  | .hbm, ⟨19, _⟩ => ⟨S1x2048x8x128, .f32⟩
  | .hbm, ⟨20, _⟩ => ⟨S1x8x2048x128, .f32⟩
  | .hbm, ⟨21, _⟩ => ⟨S1x16x2048x128, .f32⟩
  | .hbm, ⟨22, _⟩ => ⟨S_, .f32⟩
  | .hbm, ⟨23, _⟩ => ⟨S1x16x2048, .f32⟩
  | .hbm, ⟨24, _⟩ => ⟨S1x16x2048x1, .f32⟩
  | .hbm, ⟨25, _⟩ => ⟨S_, .f32⟩
  | .hbm, ⟨26, _⟩ => ⟨S1x16x2048x1, .f32⟩
  | .hbm, ⟨27, _⟩ => ⟨S1x16x2048x1, .f32⟩
  | .hbm, ⟨28, _⟩ => ⟨S_, .f32⟩
  | .hbm, ⟨29, _⟩ => ⟨S1x16x2048x1, .f32⟩
  | .hbm, ⟨30, _⟩ => ⟨S1x16x2048x1, .f32⟩
  | .hbm, ⟨31, _⟩ => ⟨S1x16x2048x1, .f32⟩
  | .hbm, ⟨32, _⟩ => ⟨S1x16x2048x128, .f32⟩
  | .hbm, ⟨33, _⟩ => ⟨S1x16x2048x128, .f32⟩
  | .hbm, ⟨34, _⟩ => ⟨S1x1x1x128, .f32⟩
  | .hbm, ⟨35, _⟩ => ⟨S1x16x2048x128, .f32⟩
  | .hbm, ⟨36, _⟩ => ⟨S1x16x2048x128, .f32⟩
  | .hbm, ⟨37, _⟩ => ⟨S1x8x2048x128, .f32⟩
  | .hbm, ⟨38, _⟩ => ⟨S_, .f32⟩
  | .hbm, ⟨39, _⟩ => ⟨S1x8x2048, .f32⟩
  | .hbm, ⟨40, _⟩ => ⟨S1x8x2048x1, .f32⟩
  | .hbm, ⟨41, _⟩ => ⟨S_, .f32⟩
  | .hbm, ⟨42, _⟩ => ⟨S1x8x2048x1, .f32⟩
  | .hbm, ⟨43, _⟩ => ⟨S1x8x2048x1, .f32⟩
  | .hbm, ⟨44, _⟩ => ⟨S_, .f32⟩
  | .hbm, ⟨45, _⟩ => ⟨S1x8x2048x1, .f32⟩
  | .hbm, ⟨46, _⟩ => ⟨S1x8x2048x1, .f32⟩
  | .hbm, ⟨47, _⟩ => ⟨S1x8x2048x1, .f32⟩
  | .hbm, ⟨48, _⟩ => ⟨S1x8x2048x128, .f32⟩
  | .hbm, ⟨49, _⟩ => ⟨S1x8x2048x128, .f32⟩
  | .hbm, ⟨50, _⟩ => ⟨S1x1x1x128, .f32⟩
  | .hbm, ⟨51, _⟩ => ⟨S1x8x2048x128, .f32⟩
  | .hbm, ⟨52, _⟩ => ⟨S1x8x2048x128, .f32⟩
  | .hbm, ⟨53, _⟩ => ⟨S1x1x2048x128, .f32⟩
  | .hbm, ⟨54, _⟩ => ⟨S1x1x2048x128, .f32⟩
  | .hbm, ⟨55, _⟩ => ⟨S1x16x2048x128, .f32⟩
  | .hbm, ⟨56, _⟩ => ⟨S1x16x2048x128, .f32⟩
  | .hbm, ⟨57, _⟩ => ⟨S1x16x2048x64, .f32⟩
  | .hbm, ⟨58, _⟩ => ⟨S1x16x2048x64, .f32⟩
  | .hbm, ⟨59, _⟩ => ⟨S1x16x2048x64, .f32⟩
  | .hbm, ⟨60, _⟩ => ⟨S1x16x2048x128, .f32⟩
  | .hbm, ⟨61, _⟩ => ⟨S1x16x2048x128, .f32⟩
  | .hbm, ⟨62, _⟩ => ⟨S1x16x2048x128, .f32⟩
  | .hbm, ⟨63, _⟩ => ⟨S1x16x2048x128, .f32⟩
  | .hbm, ⟨64, _⟩ => ⟨S1x8x2048x128, .f32⟩
  | .hbm, ⟨65, _⟩ => ⟨S1x8x2048x128, .f32⟩
  | .hbm, ⟨66, _⟩ => ⟨S1x8x2048x64, .f32⟩
  | .hbm, ⟨67, _⟩ => ⟨S1x8x2048x64, .f32⟩
  | .hbm, ⟨68, _⟩ => ⟨S1x8x2048x64, .f32⟩
  | .hbm, ⟨69, _⟩ => ⟨S1x8x2048x128, .f32⟩
  | .hbm, ⟨70, _⟩ => ⟨S1x8x2048x128, .f32⟩
  | .hbm, ⟨71, _⟩ => ⟨S1x8x2048x128, .f32⟩
  | .hbm, ⟨72, _⟩ => ⟨S1x8x2048x128, .f32⟩
  | .hbm, ⟨73, _⟩ => ⟨S1x8x4096x128, .f32⟩
  | .hbm, ⟨74, _⟩ => ⟨S1x8x4096x128, .f32⟩
  | .hbm, ⟨75, _⟩ => ⟨S1x8x2048x128, .f32⟩
  | .hbm, ⟨76, _⟩ => ⟨S1x8x2048x128, .f32⟩
  | .hbm, ⟨77, _⟩ => ⟨S1x8x1x4096x128, .f32⟩
  | .hbm, ⟨78, _⟩ => ⟨S1x8x2x4096x128, .f32⟩
  | .hbm, ⟨79, _⟩ => ⟨S1x16x4096x128, .f32⟩
  | .hbm, ⟨80, _⟩ => ⟨S1x8x1x4096x128, .f32⟩
  | .hbm, ⟨81, _⟩ => ⟨S1x8x2x4096x128, .f32⟩
  | .hbm, ⟨82, _⟩ => ⟨S1x16x4096x128, .f32⟩
  | .hbm, ⟨83, _⟩ => ⟨S1x16x2048x4096, .f32⟩
  | .hbm, ⟨84, _⟩ => ⟨S_, .f32⟩
  | .hbm, ⟨85, _⟩ => ⟨S1x16x2048x4096, .f32⟩
  | .hbm, ⟨86, _⟩ => ⟨S1x16x2048x4096, .f32⟩
  | .hbm, ⟨87, _⟩ => ⟨S1x16x2048x4096, .f32⟩
  | .hbm, ⟨88, _⟩ => ⟨S1x16x2048x4096, .f32⟩
  | .hbm, ⟨89, _⟩ => ⟨S_, .f32⟩
  | .hbm, ⟨90, _⟩ => ⟨S1x16x2048, .f32⟩
  | .hbm, ⟨91, _⟩ => ⟨S_, .f32⟩
  | .hbm, ⟨92, _⟩ => ⟨S1x16x2048, .f32⟩
  | .hbm, ⟨93, _⟩ => ⟨S1x16x2048, .f32⟩
  | .hbm, ⟨94, _⟩ => ⟨S1x16x2048x1, .f32⟩
  | .hbm, ⟨95, _⟩ => ⟨S1x16x2048x4096, .f32⟩
  | .hbm, ⟨96, _⟩ => ⟨S1x16x2048x4096, .f32⟩
  | .hbm, ⟨97, _⟩ => ⟨S1x16x2048x4096, .f32⟩
  | .hbm, ⟨98, _⟩ => ⟨S_, .f32⟩
  | .hbm, ⟨99, _⟩ => ⟨S1x16x2048, .f32⟩
  | .hbm, ⟨100, _⟩ => ⟨S1x16x2048x1, .f32⟩
  | .hbm, ⟨101, _⟩ => ⟨S1x16x2048x4096, .f32⟩
  | .hbm, ⟨102, _⟩ => ⟨S1x16x2048x4096, .f32⟩
  | .hbm, ⟨103, _⟩ => ⟨S1x16x2048x128, .f32⟩
  | .hbm, ⟨104, _⟩ => ⟨S1x2048x16x128, .f32⟩
  | .hbm, ⟨105, _⟩ => ⟨S1x2048x2048, .f32⟩
  | .hbm, ⟨106, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_5 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_6 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_8 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]

class Facts₀ : Prop where
  shapeCasts_S1x2048x2048_S1x2048x16x128 : S1x2048x2048.ShapeCasts S1x2048x16x128
  transposes_S1x2048x16x128_S1x16x2048x128_0_2_1_3 : S1x2048x16x128.Transposes [0, 2, 1, 3] S1x16x2048x128
  shapeCasts_S1x2048x1024_S1x2048x8x128 : S1x2048x1024.ShapeCasts S1x2048x8x128
  transposes_S1x2048x8x128_S1x8x2048x128_0_2_1_3 : S1x2048x8x128.Transposes [0, 2, 1, 3] S1x8x2048x128
  reducesTo_S1x16x2048x128_S1x16x2048_d3 : S1x16x2048x128.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S_S1x16x2048x1 : S_.BroadcastsInDim S1x16x2048x1 (![] : Fin 0 → Fin S1x16x2048x1.rank)
  bcast_S1x16x2048x1_S1x16x2048x128_0_1_2_3 : S1x16x2048x1.BroadcastsInDim S1x16x2048x128 (![0, 1, 2, 3] : Fin 4 → Fin S1x16x2048x128.rank)
  bcast_S128_S1x1x1x128_3 : S128.BroadcastsInDim S1x1x1x128 (![3] : Fin 1 → Fin S1x1x1x128.rank)
  bcast_S1x1x1x128_S1x16x2048x128_0_1_2_3 : S1x1x1x128.BroadcastsInDim S1x16x2048x128 (![0, 1, 2, 3] : Fin 4 → Fin S1x16x2048x128.rank)
  reducesTo_S1x8x2048x128_S1x8x2048_d3 : S1x8x2048x128.ReducesTo [3] S1x8x2048
  bcast_S1x8x2048_S1x8x2048x1_0_1_2 : S1x8x2048.BroadcastsInDim S1x8x2048x1 (![0, 1, 2] : Fin 3 → Fin S1x8x2048x1.rank)
  bcast_S_S1x8x2048x1 : S_.BroadcastsInDim S1x8x2048x1 (![] : Fin 0 → Fin S1x8x2048x1.rank)
  bcast_S1x8x2048x1_S1x8x2048x128_0_1_2_3 : S1x8x2048x1.BroadcastsInDim S1x8x2048x128 (![0, 1, 2, 3] : Fin 4 → Fin S1x8x2048x128.rank)
  bcast_S1x1x1x128_S1x8x2048x128_0_1_2_3 : S1x1x1x128.BroadcastsInDim S1x8x2048x128 (![0, 1, 2, 3] : Fin 4 → Fin S1x8x2048x128.rank)
  bcast_S1x2048x128_S1x1x2048x128_0_2_3 : S1x2048x128.BroadcastsInDim S1x1x2048x128 (![0, 2, 3] : Fin 3 → Fin S1x1x2048x128.rank)
  bcast_S1x1x2048x128_S1x16x2048x128_0_1_2_3 : S1x1x2048x128.BroadcastsInDim S1x16x2048x128 (![0, 1, 2, 3] : Fin 4 → Fin S1x16x2048x128.rank)
  slices_S1x16x2048x128_S1x16x2048x64_0_0_0_0 : S1x16x2048x128.Slices ![0, 0, 0, 0] S1x16x2048x64
  slices_S1x16x2048x128_S1x16x2048x64_0_0_0_64 : S1x16x2048x128.Slices ![0, 0, 0, 64] S1x16x2048x64
  concatenates_S1x16x2048x64_S1x16x2048x64_S1x16x2048x128_d3 : Shape.Concatenates [S1x16x2048x64, S1x16x2048x64] S1x16x2048x128 3
  bcast_S1x1x2048x128_S1x8x2048x128_0_1_2_3 : S1x1x2048x128.BroadcastsInDim S1x8x2048x128 (![0, 1, 2, 3] : Fin 4 → Fin S1x8x2048x128.rank)
  slices_S1x8x2048x128_S1x8x2048x64_0_0_0_0 : S1x8x2048x128.Slices ![0, 0, 0, 0] S1x8x2048x64
  slices_S1x8x2048x128_S1x8x2048x64_0_0_0_64 : S1x8x2048x128.Slices ![0, 0, 0, 64] S1x8x2048x64
  concatenates_S1x8x2048x64_S1x8x2048x64_S1x8x2048x128_d3 : Shape.Concatenates [S1x8x2048x64, S1x8x2048x64] S1x8x2048x128 3
  concatenates_S1x8x2048x128_S1x8x2048x128_S1x8x4096x128_d2 : Shape.Concatenates [S1x8x2048x128, S1x8x2048x128] S1x8x4096x128 2
  slices_S1x8x4096x128_S1x8x2048x128_0_0_2048_0 : S1x8x4096x128.Slices ![0, 0, 2048, 0] S1x8x2048x128
  bcast_S1x8x4096x128_S1x8x1x4096x128_0_1_3_4 : S1x8x4096x128.BroadcastsInDim S1x8x1x4096x128 (![0, 1, 3, 4] : Fin 4 → Fin S1x8x1x4096x128.rank)
  bcast_S1x8x1x4096x128_S1x8x2x4096x128_0_1_2_3_4 : S1x8x1x4096x128.BroadcastsInDim S1x8x2x4096x128 (![0, 1, 2, 3, 4] : Fin 5 → Fin S1x8x2x4096x128.rank)
  shapeCasts_S1x8x2x4096x128_S1x16x4096x128 : S1x8x2x4096x128.ShapeCasts S1x16x4096x128
  bcast_S_S1x16x2048x4096 : S_.BroadcastsInDim S1x16x2048x4096 (![] : Fin 0 → Fin S1x16x2048x4096.rank)
  bcast_S1x1x2048x4096_S1x16x2048x4096_0_1_2_3 : S1x1x2048x4096.BroadcastsInDim S1x16x2048x4096 (![0, 1, 2, 3] : Fin 4 → Fin S1x16x2048x4096.rank)
  reducesTo_S1x16x2048x4096_S1x16x2048_d3 : S1x16x2048x4096.ReducesTo [3] S1x16x2048
  bcast_S_S1x16x2048 : S_.BroadcastsInDim S1x16x2048 (![] : Fin 0 → Fin S1x16x2048.rank)
  bcast_S1x16x2048x1_S1x16x2048x4096_0_1_2_3 : S1x16x2048x1.BroadcastsInDim S1x16x2048x4096 (![0, 1, 2, 3] : Fin 4 → Fin S1x16x2048x4096.rank)
  transposes_S1x16x2048x128_S1x2048x16x128_0_2_1_3 : S1x16x2048x128.Transposes [0, 2, 1, 3] S1x2048x16x128
  shapeCasts_S1x2048x16x128_S1x2048x2048 : S1x2048x16x128.ShapeCasts S1x2048x2048
  dot_S1x2048x2048_S2048x2048_S1x2048x2048_2_1_01_0_n_n_wf : DotDims.WF S1x2048x2048 S2048x2048 S1x2048x2048 [2] [1] [0, 1] [0] [] []
  dot_S1x2048x2048_S1024x2048_S1x2048x1024_2_1_01_0_n_n_wf : DotDims.WF S1x2048x2048 S1024x2048 S1x2048x1024 [2] [1] [0, 1] [0] [] []
  dot_S1x16x2048x128_S1x16x4096x128_S1x16x2048x4096_3_3_2_2_01_01_wf : DotDims.WF S1x16x2048x128 S1x16x4096x128 S1x16x2048x4096 [3] [3] [2] [2] [0, 1] [0, 1]
  dot_S1x16x2048x4096_S1x16x4096x128_S1x16x2048x128_3_2_2_3_01_01_wf : DotDims.WF S1x16x2048x4096 S1x16x4096x128 S1x16x2048x128 [3] [2] [2] [3] [0, 1] [0, 1]

variable [Facts₀]

def dot_S1x2048x2048_S2048x2048_S1x2048x2048_2_1_01_0_n_n : DotDims S1x2048x2048 S2048x2048 S1x2048x2048 where
  lhsContracting := [2]
  rhsContracting := [1]
  lhsNonContracting := [0, 1]
  rhsNonContracting := [0]
  lhsBatch := []
  rhsBatch := []
  wf := dot_S1x2048x2048_S2048x2048_S1x2048x2048_2_1_01_0_n_n_wf
def dot_S1x2048x2048_S1024x2048_S1x2048x1024_2_1_01_0_n_n : DotDims S1x2048x2048 S1024x2048 S1x2048x1024 where
  lhsContracting := [2]
  rhsContracting := [1]
  lhsNonContracting := [0, 1]
  rhsNonContracting := [0]
  lhsBatch := []
  rhsBatch := []
  wf := dot_S1x2048x2048_S1024x2048_S1x2048x1024_2_1_01_0_n_n_wf
def dot_S1x16x2048x128_S1x16x4096x128_S1x16x2048x4096_3_3_2_2_01_01 : DotDims S1x16x2048x128 S1x16x4096x128 S1x16x2048x4096 where
  lhsContracting := [3]
  rhsContracting := [3]
  lhsNonContracting := [2]
  rhsNonContracting := [2]
  lhsBatch := [0, 1]
  rhsBatch := [0, 1]
  wf := dot_S1x16x2048x128_S1x16x4096x128_S1x16x2048x4096_3_3_2_2_01_01_wf
def dot_S1x16x2048x4096_S1x16x4096x128_S1x16x2048x128_3_2_2_3_01_01 : DotDims S1x16x2048x4096 S1x16x4096x128 S1x16x2048x128 where
  lhsContracting := [3]
  rhsContracting := [2]
  lhsNonContracting := [2]
  rhsNonContracting := [3]
  lhsBatch := [0, 1]
  rhsBatch := [0, 1]
  wf := dot_S1x16x2048x4096_S1x16x4096x128_S1x16x2048x128_3_2_2_3_01_01_wf

class Facts : Prop extends Facts₀ where

variable [Facts]
-- ==== Proof.IdealRegion0.lean ====
/-
  Region 0 of the program: the fused q/k/v projection: one 512-row block of the hidden states against one 512-row block of the stacked weights.
  Stated at a parameter `V`, the contents of the core's buffers when the region is entered. A window's block at a grid
  point is its array read through the block's view; every input window's staging buffer holds that block when the body
  runs, whether the pipeline fetched it at that point or kept it from the point before (the block index did not move);
  the body loads its input blocks whole, computes one value from them and stores it over the whole output block, so after
  the body the output's staging buffer holds that value of the input blocks. This is the per-point obligation the
  pipeline's launch theorem asks for.
-/
import proofs.«120073_j44152263803384_1_alg».proof.Proof.Gen.KernelIdeal.Launch
import proofs.«120073_j44152263803384_1_alg».proof.Proof.Gen.KernelIdeal.Skeleton
import proofs.«120073_j44152263803384_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or kept. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S512x2048 := Rect.unit (s := S512x2048) ![0, 0] S512x2048.size inb_S512x2048_S512x2048_0_0
abbrev r0_1 : Rect S512x2048 := Rect.unit (s := S512x2048) ![0, 0] S512x2048.size inb_S512x2048_S512x2048_0_0
abbrev r0_2 : Rect S512x512 := Rect.unit (s := S512x512) ![0, 0] S512x512.size inb_S512x512_S512x512_0_0

/-- The output block after the body, as a function of the input blocks: the one store's value over the whole block. -/
def out0_2 (x0 : Vec F S512x2048 .f32) (x1 : Vec F S512x2048 .f32) : Vec F S512x512 .f32 :=
  View.canon [⟨r0_2, k0_pay1 (View.ld x0 r0_0) (View.ld x1 r0_1)⟩]

/-- The store's rectangle is the whole block, so it covers every index of it. -/
theorem cover0_2 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

set_option maxHeartbeats 4000000 in
/-- The body on whole staging buffers: from the inputs at `x` and the output at anything it runs to the inputs
    unchanged and the output at `out0_2` of them. -/
theorem sound_kernel0 (c : Dev nD) (E : Set ℕ) (i : grid0.Coords) (arg0 : Memref sig .tc .vmem S512x2048 .f32) (harg0 : arg0.IsWhole) (arg1 : Memref sig .tc .vmem S512x2048 .f32) (harg1 : arg1.IsWhole) (arg2 : Memref sig .tc .vmem S512x512 .f32) (harg2 : arg2.IsWhole)
    (x0 : Vec F S512x2048 .f32) (x1 : Vec F S512x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at `out0_2` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the pipeline's launch theorem, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.IdealRegion1.lean ====
/-
  Region 1 of the program: softmax attention of one 128-row query tile of one head against the whole key and value arrays of its group.
  Stated at a parameter `V`, the contents of the core's buffers when the region is entered. A window's block at a grid
  point is its array read through the block's view; every input window's staging buffer holds that block when the body
  runs, whether the pipeline fetched it at that point or kept it from the point before (the block index did not move);
  the body loads its input blocks whole, computes one value from them and stores it over the whole output block, so after
  the body the output's staging buffer holds that value of the input blocks. This is the per-point obligation the
  pipeline's launch theorem asks for.
-/
import proofs.«120073_j44152263803384_1_alg».proof.Proof.Gen.KernelIdeal.Launch
import proofs.«120073_j44152263803384_1_alg».proof.Proof.Gen.KernelIdeal.Skeleton
import proofs.«120073_j44152263803384_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or kept. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or kept. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S1x128x128 := Rect.unit (s := S1x128x128) ![0, 0, 0] S1x128x128.size inb_S1x128x128_S1x128x128_0_0_0
abbrev r1_1 : Rect S1x4096x128 := Rect.unit (s := S1x4096x128) ![0, 0, 0] S1x4096x128.size inb_S1x4096x128_S1x4096x128_0_0_0
abbrev r1_2 : Rect S1x4096x128 := Rect.unit (s := S1x4096x128) ![0, 0, 0] S1x4096x128.size inb_S1x4096x128_S1x4096x128_0_0_0
abbrev r1_3 : Rect S128x4096 := Rect.unit (s := S128x4096) ![0, 0] S128x4096.size inb_S128x4096_S128x4096_0_0
abbrev r1_4 : Rect S1x128x128 := Rect.unit (s := S1x128x128) ![0, 0, 0] S1x128x128.size inb_S1x128x128_S1x128x128_0_0_0

/-- The output block after the body, as a function of the input blocks: the one store's value over the whole block. -/
def out1_4 (x0 : Vec F S1x128x128 .f32) (x1 : Vec F S1x4096x128 .f32) (x2 : Vec F S1x4096x128 .f32) (x3 : Vec F S128x4096 .f32) : Vec F S1x128x128 .f32 :=
  View.canon [⟨r1_4, k1_pay1 (View.ld x0 r1_0) (View.ld x1 r1_1) (View.ld x2 r1_2) (View.ld x3 r1_3)⟩]

/-- The store's rectangle is the whole block, so it covers every index of it. -/
theorem cover1_4 (p0 : Vec F S1x128x128 .f32) (y : S1x128x128.Idx) :
    ∃ pc ∈ ([⟨r1_4, p0⟩] : List (View.Piece (Elt F) S1x128x128 .f32)), y ∈ pc.1.set :=
  View.cover_of_tiled [⟨r1_4, p0⟩] S1x128x128.size (by rfl) y

set_option maxHeartbeats 4000000 in
/-- The body on whole staging buffers: from the inputs at `x` and the output at anything it runs to the inputs
    unchanged and the output at `out1_4` of them. -/
theorem sound_kernel1 (c : Dev nD) (E : Set ℕ) (i : grid1.Coords) (arg0 : Memref sig .tc .vmem S1x128x128 .f32) (harg0 : arg0.IsWhole) (arg1 : Memref sig .tc .vmem S1x4096x128 .f32) (harg1 : arg1.IsWhole) (arg2 : Memref sig .tc .vmem S1x4096x128 .f32) (harg2 : arg2.IsWhole) (arg3 : Memref sig .tc .vmem S128x4096 .f32) (harg3 : arg3.IsWhole) (arg4 : Memref sig .tc .vmem S1x128x128 .f32) (harg4 : arg4.IsWhole)
    (x0 : Vec F S1x128x128 .f32) (x1 : Vec F S1x4096x128 .f32) (x2 : Vec F S1x4096x128 .f32) (x3 : Vec F S128x4096 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__attn_kernel i arg0 harg0 arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core `c`: the arrays as the region finds them; after the body at point `t` each
    input's buffer at its block and the output's at `out1_4` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The per-point obligation of the pipeline's launch theorem, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.IdealRegion2.lean ====
/-
  Region 2 of the program: the output projection: one 512-row block of the attention output against one 512-row block of the output weights.
  Stated at a parameter `V`, the contents of the core's buffers when the region is entered. A window's block at a grid
  point is its array read through the block's view; every input window's staging buffer holds that block when the body
  runs, whether the pipeline fetched it at that point or kept it from the point before (the block index did not move);
  the body loads its input blocks whole, computes one value from them and stores it over the whole output block, so after
  the body the output's staging buffer holds that value of the input blocks. This is the per-point obligation the
  pipeline's launch theorem asks for.
-/
import proofs.«120073_j44152263803384_1_alg».proof.Proof.Gen.KernelIdeal.Launch
import proofs.«120073_j44152263803384_1_alg».proof.Proof.Gen.KernelIdeal.Skeleton
import proofs.«120073_j44152263803384_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or kept. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or kept. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S512x2048 := Rect.unit (s := S512x2048) ![0, 0] S512x2048.size inb_S512x2048_S512x2048_0_0
abbrev r2_1 : Rect S512x2048 := Rect.unit (s := S512x2048) ![0, 0] S512x2048.size inb_S512x2048_S512x2048_0_0
abbrev r2_2 : Rect S512x512 := Rect.unit (s := S512x512) ![0, 0] S512x512.size inb_S512x512_S512x512_0_0

/-- The output block after the body, as a function of the input blocks: the one store's value over the whole block. -/
def out2_2 (x0 : Vec F S512x2048 .f32) (x1 : Vec F S512x2048 .f32) : Vec F S512x512 .f32 :=
  View.canon [⟨r2_2, k2_pay1 (View.ld x0 r2_0) (View.ld x1 r2_1)⟩]

/-- The store's rectangle is the whole block, so it covers every index of it. -/
theorem cover2_2 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

set_option maxHeartbeats 4000000 in
/-- The body on whole staging buffers: from the inputs at `x` and the output at anything it runs to the inputs
    unchanged and the output at `out2_2` of them. -/
theorem sound_kernel2 (c : Dev nD) (E : Set ℕ) (i : grid2.Coords) (arg0 : Memref sig .tc .vmem S512x2048 .f32) (harg0 : arg0.IsWhole) (arg1 : Memref sig .tc .vmem S512x2048 .f32) (harg1 : arg1.IsWhole) (arg2 : Memref sig .tc .vmem S512x512 .f32) (harg2 : arg2.IsWhole)
    (x0 : Vec F S512x2048 .f32) (x1 : Vec F S512x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input's buffer at its block and the output's at `out2_2` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the pipeline's launch theorem, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regions

end
-- ==== Proof.IdealRun.lean ====
/-
  The program's run from launch to return. @main is seven segments: two host operations, the fused projection
  region, sixty-eight host operations, the attention region, two host operations, the output projection region, three
  host operations. Between segments each core holds every unscoped buffer at a known valuation: the launch memory, then
  each host stretch applied to it, then — after a region — that region's window arrays at what its write-backs leave
  (the inputs as entered, the output the fold of the per-point blocks) and every other buffer as entered. Each region's
  arrays are split out of the unscoped buffers at its entry and put back at its exit; the generator register goes into
  the region's invariant and comes back; nothing is owed between cores. The launch theorem for a list of segments then
  gives: every weakly fair execution terminates, nothing faults, and the final memory holds every unscoped buffer at the
  last valuation. No host operation writes an argument and no region writes one (the output weights are an input window
  of the last region), so each argument ends as launched.
-/
import proofs.«120073_j44152263803384_1_alg».proof.Proof.IdealRegion0
import proofs.«120073_j44152263803384_1_alg».proof.Proof.IdealRegion1
import proofs.«120073_j44152263803384_1_alg».proof.Proof.IdealRegion2

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the last host stretch: the final contents. -/
abbrev W7 : Dev nD → Valuation τ sig (Elt F) := fun c => StableHlo.after hostOps3 (W6 m ρ c)

/-! ## What the host stretches write -/

theorem hostOps0_fresh : (hostOps0 : List (HloOp τ sig (Elt F))).Forall fun op => op.fresh = ∅ := by
  simp only [List.Forall]; repeat' constructor
/-- The references host stretch 0 writes. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)

set_option maxHeartbeats 4000000 in
theorem hostOps1_fresh : (hostOps1 : List (HloOp τ sig (Elt F))).Forall fun op => op.fresh = ∅ := by
  simp only [List.Forall]; repeat' constructor
/-- The references host stretch 1 writes. -/
abbrev hostOps1_W : List (Ref sig .tc) := [main_v3, main_v4, main_v5, main_v6, main_v7, main_v8, main_v9, main_v10, main_v11, main_v12, main_cst, main_v13, main_v14, main_cst_0, main_v15, main_v16, main_cst_1, main_v17, main_v18, main_v19, main_v20, main_v21, main_v22, main_v23, main_v24, main_v25, main_cst_2, main_v26, main_v27, main_cst_3, main_v28, main_v29, main_cst_4, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)

theorem hostOps2_fresh : (hostOps2 : List (HloOp τ sig (Elt F))).Forall fun op => op.fresh = ∅ := by
  simp only [List.Forall]; repeat' constructor
/-- The references host stretch 2 writes. -/
abbrev hostOps2_W : List (Ref sig .tc) := [main_v66, main_v67]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)

theorem hostOps3_fresh : (hostOps3 : List (HloOp τ sig (Elt F))).Forall fun op => op.fresh = ∅ := by
  simp only [List.Forall]; repeat' constructor
/-- The references host stretch 3 writes. -/
abbrev hostOps3_W : List (Ref sig .tc) := [main_v69, main_v70, main_v71]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-! ## Each argument ends as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := (W6_arr m ρ c 1).trans (((dat2 (V5 m ρ) c).arrAt_in 1 rfl _).trans (A_eq2 (V5 m ρ) c 1))
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and the final
    memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩)
    (run_all m ρ)

end Cert.KernelIdeal.Regions

end
-- ==== Proof.BitsRegion0.lean ====
/-
  Region 0 of the program: the fused q/k/v projection: one 512-row block of the hidden states against one 512-row block of the stacked weights.
  Stated at a parameter `V`, the contents of the core's buffers when the region is entered. A window's block at a grid
  point is its array read through the block's view; every input window's staging buffer holds that block when the body
  runs, whether the pipeline fetched it at that point or kept it from the point before (the block index did not move);
  the body loads its input blocks whole, computes one value from them and stores it over the whole output block, so after
  the body the output's staging buffer holds that value of the input blocks. This is the per-point obligation the
  pipeline's launch theorem asks for.
-/
import proofs.«120073_j44152263803384_1_alg».proof.Proof.Gen.Kernel.Launch
import proofs.«120073_j44152263803384_1_alg».proof.Proof.Gen.Kernel.Skeleton
import proofs.«120073_j44152263803384_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or kept. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S512x2048 := Rect.unit (s := S512x2048) ![0, 0] S512x2048.size inb_S512x2048_S512x2048_0_0
abbrev r0_1 : Rect S512x2048 := Rect.unit (s := S512x2048) ![0, 0] S512x2048.size inb_S512x2048_S512x2048_0_0
abbrev r0_2 : Rect S512x512 := Rect.unit (s := S512x512) ![0, 0] S512x512.size inb_S512x512_S512x512_0_0

/-- The output block after the body, as a function of the input blocks: the one store's value over the whole block. -/
def out0_2 (x0 : Vec F S512x2048 .f32) (x1 : Vec F S512x2048 .f32) : Vec F S512x512 .f32 :=
  View.canon [⟨r0_2, k0_pay1 (View.ld x0 r0_0) (View.ld x1 r0_1)⟩]

/-- The store's rectangle is the whole block, so it covers every index of it. -/
theorem cover0_2 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

set_option maxHeartbeats 4000000 in
/-- The body on whole staging buffers: from the inputs at `x` and the output at anything it runs to the inputs
    unchanged and the output at `out0_2` of them. -/
theorem sound_kernel0 (c : Dev nD) (E : Set ℕ) (i : grid0.Coords) (arg0 : Memref sig .tc .vmem S512x2048 .f32) (harg0 : arg0.IsWhole) (arg1 : Memref sig .tc .vmem S512x2048 .f32) (harg1 : arg1.IsWhole) (arg2 : Memref sig .tc .vmem S512x512 .f32) (harg2 : arg2.IsWhole)
    (x0 : Vec F S512x2048 .f32) (x1 : Vec F S512x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at `out0_2` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the pipeline's launch theorem, at every point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.BitsRegion1.lean ====
/-
  Region 1 of the program: softmax attention of one 128-row query tile of one head against the whole key and value arrays of its group.
  Stated at a parameter `V`, the contents of the core's buffers when the region is entered. A window's block at a grid
  point is its array read through the block's view; every input window's staging buffer holds that block when the body
  runs, whether the pipeline fetched it at that point or kept it from the point before (the block index did not move);
  the body loads its input blocks whole, computes one value from them and stores it over the whole output block, so after
  the body the output's staging buffer holds that value of the input blocks. This is the per-point obligation the
  pipeline's launch theorem asks for.
-/
import proofs.«120073_j44152263803384_1_alg».proof.Proof.Gen.Kernel.Launch
import proofs.«120073_j44152263803384_1_alg».proof.Proof.Gen.Kernel.Skeleton
import proofs.«120073_j44152263803384_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or kept. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or kept. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S1x128x128 := Rect.unit (s := S1x128x128) ![0, 0, 0] S1x128x128.size inb_S1x128x128_S1x128x128_0_0_0
abbrev r1_1 : Rect S1x4096x128 := Rect.unit (s := S1x4096x128) ![0, 0, 0] S1x4096x128.size inb_S1x4096x128_S1x4096x128_0_0_0
abbrev r1_2 : Rect S1x4096x128 := Rect.unit (s := S1x4096x128) ![0, 0, 0] S1x4096x128.size inb_S1x4096x128_S1x4096x128_0_0_0
abbrev r1_3 : Rect S128x4096 := Rect.unit (s := S128x4096) ![0, 0] S128x4096.size inb_S128x4096_S128x4096_0_0
abbrev r1_4 : Rect S1x128x128 := Rect.unit (s := S1x128x128) ![0, 0, 0] S1x128x128.size inb_S1x128x128_S1x128x128_0_0_0

/-- The output block after the body, as a function of the input blocks: the one store's value over the whole block. -/
def out1_4 (x0 : Vec F S1x128x128 .f32) (x1 : Vec F S1x4096x128 .f32) (x2 : Vec F S1x4096x128 .f32) (x3 : Vec F S128x4096 .f32) : Vec F S1x128x128 .f32 :=
  View.canon [⟨r1_4, k1_pay1 (View.ld x0 r1_0) (View.ld x1 r1_1) (View.ld x2 r1_2) (View.ld x3 r1_3)⟩]

/-- The store's rectangle is the whole block, so it covers every index of it. -/
theorem cover1_4 (p0 : Vec F S1x128x128 .f32) (y : S1x128x128.Idx) :
    ∃ pc ∈ ([⟨r1_4, p0⟩] : List (View.Piece (Elt F) S1x128x128 .f32)), y ∈ pc.1.set :=
  View.cover_of_tiled [⟨r1_4, p0⟩] S1x128x128.size (by rfl) y

set_option maxHeartbeats 4000000 in
/-- The body on whole staging buffers: from the inputs at `x` and the output at anything it runs to the inputs
    unchanged and the output at `out1_4` of them. -/
theorem sound_kernel1 (c : Dev nD) (E : Set ℕ) (i : grid1.Coords) (arg0 : Memref sig .tc .vmem S1x128x128 .f32) (harg0 : arg0.IsWhole) (arg1 : Memref sig .tc .vmem S1x4096x128 .f32) (harg1 : arg1.IsWhole) (arg2 : Memref sig .tc .vmem S1x4096x128 .f32) (harg2 : arg2.IsWhole) (arg3 : Memref sig .tc .vmem S128x4096 .f32) (harg3 : arg3.IsWhole) (arg4 : Memref sig .tc .vmem S1x128x128 .f32) (harg4 : arg4.IsWhole)
    (x0 : Vec F S1x128x128 .f32) (x1 : Vec F S1x4096x128 .f32) (x2 : Vec F S1x4096x128 .f32) (x3 : Vec F S128x4096 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__attn_kernel i arg0 harg0 arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core `c`: the arrays as the region finds them; after the body at point `t` each
    input's buffer at its block and the output's at `out1_4` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The per-point obligation of the pipeline's launch theorem, at every point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.BitsRegion2.lean ====
/-
  Region 2 of the program: the output projection: one 512-row block of the attention output against one 512-row block of the output weights.
  Stated at a parameter `V`, the contents of the core's buffers when the region is entered. A window's block at a grid
  point is its array read through the block's view; every input window's staging buffer holds that block when the body
  runs, whether the pipeline fetched it at that point or kept it from the point before (the block index did not move);
  the body loads its input blocks whole, computes one value from them and stores it over the whole output block, so after
  the body the output's staging buffer holds that value of the input blocks. This is the per-point obligation the
  pipeline's launch theorem asks for.
-/
import proofs.«120073_j44152263803384_1_alg».proof.Proof.Gen.Kernel.Launch
import proofs.«120073_j44152263803384_1_alg».proof.Proof.Gen.Kernel.Skeleton
import proofs.«120073_j44152263803384_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or kept. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or kept. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S512x2048 := Rect.unit (s := S512x2048) ![0, 0] S512x2048.size inb_S512x2048_S512x2048_0_0
abbrev r2_1 : Rect S512x2048 := Rect.unit (s := S512x2048) ![0, 0] S512x2048.size inb_S512x2048_S512x2048_0_0
abbrev r2_2 : Rect S512x512 := Rect.unit (s := S512x512) ![0, 0] S512x512.size inb_S512x512_S512x512_0_0

/-- The output block after the body, as a function of the input blocks: the one store's value over the whole block. -/
def out2_2 (x0 : Vec F S512x2048 .f32) (x1 : Vec F S512x2048 .f32) : Vec F S512x512 .f32 :=
  View.canon [⟨r2_2, k2_pay1 (View.ld x0 r2_0) (View.ld x1 r2_1)⟩]

/-- The store's rectangle is the whole block, so it covers every index of it. -/
theorem cover2_2 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

set_option maxHeartbeats 4000000 in
/-- The body on whole staging buffers: from the inputs at `x` and the output at anything it runs to the inputs
    unchanged and the output at `out2_2` of them. -/
theorem sound_kernel2 (c : Dev nD) (E : Set ℕ) (i : grid2.Coords) (arg0 : Memref sig .tc .vmem S512x2048 .f32) (harg0 : arg0.IsWhole) (arg1 : Memref sig .tc .vmem S512x2048 .f32) (harg1 : arg1.IsWhole) (arg2 : Memref sig .tc .vmem S512x512 .f32) (harg2 : arg2.IsWhole)
    (x0 : Vec F S512x2048 .f32) (x1 : Vec F S512x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input's buffer at its block and the output's at `out2_2` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the pipeline's launch theorem, at every point. -/
theorem body_obligation2 (c : Dev nD) : BodyObligation (dat2 (F := F) V c) (defs₀ (F := F)) Variants.none () Set.univ := fun t => by
  rw [bigSep_W2, bigSep_W2]
  exact sound_body2 V c t

end Cert.Kernel.Regions

end
-- ==== Proof.BitsRun.lean ====
/-
  The program's run from launch to return. @main is seven segments: two host operations, the fused projection
  region, sixty-eight host operations, the attention region, two host operations, the output projection region, three
  host operations. Between segments each core holds every unscoped buffer at a known valuation: the launch memory, then
  each host stretch applied to it, then — after a region — that region's window arrays at what its write-backs leave
  (the inputs as entered, the output the fold of the per-point blocks) and every other buffer as entered. Each region's
  arrays are split out of the unscoped buffers at its entry and put back at its exit; the generator register goes into
  the region's invariant and comes back; nothing is owed between cores. The launch theorem for a list of segments then
  gives: every weakly fair execution terminates, nothing faults, and the final memory holds every unscoped buffer at the
  last valuation. No host operation writes an argument and no region writes one (the output weights are an input window
  of the last region), so each argument ends as launched.
-/
import proofs.«120073_j44152263803384_1_alg».proof.Proof.BitsRegion0
import proofs.«120073_j44152263803384_1_alg».proof.Proof.BitsRegion1
import proofs.«120073_j44152263803384_1_alg».proof.Proof.BitsRegion2

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the last host stretch: the final contents. -/
abbrev W7 : Dev nD → Valuation τ sig (Elt F) := fun c => StableHlo.after hostOps3 (W6 m ρ c)

/-! ## What the host stretches write -/

theorem hostOps0_fresh : (hostOps0 : List (HloOp τ sig (Elt F))).Forall fun op => op.fresh = ∅ := by
  simp only [List.Forall]; repeat' constructor
/-- The references host stretch 0 writes. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)

set_option maxHeartbeats 4000000 in
theorem hostOps1_fresh : (hostOps1 : List (HloOp τ sig (Elt F))).Forall fun op => op.fresh = ∅ := by
  simp only [List.Forall]; repeat' constructor
/-- The references host stretch 1 writes. -/
abbrev hostOps1_W : List (Ref sig .tc) := [main_v3, main_v4, main_v5, main_v6, main_v7, main_v8, main_v9, main_v10, main_v11, main_v12, main_cst, main_v13, main_v14, main_cst_0, main_v15, main_v16, main_cst_1, main_v17, main_v18, main_v19, main_v20, main_v21, main_v22, main_v23, main_v24, main_v25, main_cst_2, main_v26, main_v27, main_cst_3, main_v28, main_v29, main_cst_4, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)

theorem hostOps2_fresh : (hostOps2 : List (HloOp τ sig (Elt F))).Forall fun op => op.fresh = ∅ := by
  simp only [List.Forall]; repeat' constructor
/-- The references host stretch 2 writes. -/
abbrev hostOps2_W : List (Ref sig .tc) := [main_v66, main_v67]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)

theorem hostOps3_fresh : (hostOps3 : List (HloOp τ sig (Elt F))).Forall fun op => op.fresh = ∅ := by
  simp only [List.Forall]; repeat' constructor
/-- The references host stretch 3 writes. -/
abbrev hostOps3_W : List (Ref sig .tc) := [main_v69, main_v70, main_v71]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)

/-! ## Each argument ends as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := (W6_arr m ρ c 1).trans (((dat2 (V5 m ρ) c).arrAt_in 1 rfl _).trans (A_eq2 (V5 m ρ) c 1))
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and the final
    memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩)
    (run_all m ρ)

end Cert.Kernel.Regions

end
-- ==== Proof.BlockLinear.lean ====
/-
  One block of a projection read at an index. The body of the first and of the third kernel loads two blocks of 512 rows
  by 2048 columns, transposes the second and multiplies: entry (r, n) of the result is the sum over the 2048 columns of
  the first block's row r against the second block's row n. The format changes on the way in are the identity on the
  extended reals, and the product accumulates into the zero word, which adds nothing.
-/
import proofs.«120073_j44152263803384_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The dimension numbers of the product: rows by the contracted columns, times the contracted rows by columns. -/
abbrev dLin : DotDims S512x2048 S2048x512 S512x512 := dot_S512x2048_S2048x512_S512x512_1_0_0_1_n_n

/-- Its one contracted axis has 2048 coordinates. -/
abbrev eLin : dLin.contr.Idx ≃ Fin 2048 := contrEquiv1 dLin 2048 rfl rfl

theorem lin_lhs0 (i : S512x512.Idx) (q : dLin.contr.Idx) : (dLin.lhsIdx i q 0).val = (i 0).val := by
  unfold DotDims.lhsIdx
  rw [dif_neg (show ¬(0 : Fin S512x2048.rank) ∈ dLin.lhsBatch by decide),
    dif_pos (show (0 : Fin S512x2048.rank) ∈ dLin.lhsNonContracting by decide)]
  rfl
theorem lin_lhs1 (i : S512x512.Idx) (q : dLin.contr.Idx) : (dLin.lhsIdx i q 1).val = (q ⟨0, by decide⟩).val :=
  dLin.lhsIdx_val_of_single rfl i q
theorem lin_rhs0 (i : S512x512.Idx) (q : dLin.contr.Idx) : (dLin.rhsIdx i q 0).val = (q ⟨0, by decide⟩).val :=
  dLin.rhsIdx_val_of_single rfl i q
theorem lin_rhs1 (i : S512x512.Idx) (q : dLin.contr.Idx) : (dLin.rhsIdx i q 1).val = (i 1).val := by
  unfold DotDims.rhsIdx
  rw [dif_neg (show ¬(1 : Fin S2048x512.rank) ∈ dLin.rhsBatch by decide),
    dif_pos (show (1 : Fin S2048x512.rank) ∈ dLin.rhsNonContracting by decide)]
  rfl

/-- The left operand is read at (row, contracted coordinate) ... -/
theorem lin_lhsIdx (r n : Fin 512) (k : Fin 2048) : dLin.lhsIdx (ix2 r n) (eLin.symm k) = ix2 r k := by
  have hk := contrEquiv1_symm_val dLin 2048 rfl rfl k
  funext a
  refine Fin.ext ?_
  match a with
  | ⟨0, _⟩ => exact lin_lhs0 _ _
  | ⟨1, _⟩ => exact (lin_lhs1 _ _).trans hk

/-- ... and the right operand at (contracted coordinate, column). -/
theorem lin_rhsIdx (r n : Fin 512) (k : Fin 2048) : dLin.rhsIdx (ix2 r n) (eLin.symm k) = ix2 k n := by
  have hk := contrEquiv1_symm_val dLin 2048 rfl rfl k
  funext a
  refine Fin.ext ?_
  match a with
  | ⟨0, _⟩ => exact (lin_rhs0 _ _).trans hk
  | ⟨1, _⟩ => exact lin_rhs1 _ _

/-- The product into the zero word, at (r, n): the sum over the contracted coordinate. -/
theorem matmul_lin_apply (l : FVec Ideal S512x2048 .bf16) (t : FVec Ideal S2048x512 .bf16) (r n : Fin 512) :
    FloatOps.matmul dLin none l t (constant (F := Ideal) S512x512 .f32 0x00000000#32) (ix2 r n)
      = ∑ k : Fin 2048, l (ix2 r k) * t (ix2 k n) := by
  refine (Ideal.matmul_constant_zero_apply dLin none l t (ix2 r n)).trans ?_
  refine (Equiv.sum_comp eLin.symm _).symm.trans ?_
  refine Finset.sum_congr rfl fun k _ => ?_
  rw [lin_lhsIdx, lin_rhsIdx]

/-- The first kernel's block at (r, n). -/
theorem linear0_apply (x0 x1 : Vec Ideal S512x2048 .f32) (r n : Fin 512) :
    k0_pay1 (F := Ideal) x0 x1 (ix2 r n) = ∑ k : Fin 2048, x0 (ix2 r k) * x1 (ix2 n k) := by
  unfold k0_pay1
  refine (matmul_lin_apply _ _ r n).trans ?_
  refine Finset.sum_congr rfl fun k _ => ?_
  refine congrArg₂ (· * ·) ?_ ?_
  · exact congrFun (shapeCast_self x0 _) _
  · exact (transpose_ix2_apply _ _ k n).trans (congrFun (shapeCast_self x1 _) _)

/-- The third kernel's block at (r, n). -/
theorem linear2_apply (x0 x1 : Vec Ideal S512x2048 .f32) (r n : Fin 512) :
    k2_pay1 (F := Ideal) x0 x1 (ix2 r n) = ∑ k : Fin 2048, x0 (ix2 r k) * x1 (ix2 n k) := by
  unfold k2_pay1
  refine (matmul_lin_apply _ _ r n).trans ?_
  refine Finset.sum_congr rfl fun k _ => ?_
  refine congrArg₂ (· * ·) ?_ ?_
  · exact congrFun (shapeCast_self x0 _) _
  · exact transpose_ix2_apply _ _ k n

end Cert.KernelIdeal.Block

end
-- ==== Proof.IdealOut0.lean ====
/-
  Region 0's output array after the run, as ONE function of its two input arrays: the hidden states against the stacked projection weights.
  Grid point (i, j) reads rows 512 i ... 512 i + 511 of the first array and rows 512 j ... 512 j + 511 of the second, and
  writes back block (i, j) of the output, whose entry (r, n) is the sum over k of row r of the first block times row n
  of the second. So every block written back is the matching block of the product of the first array with the
  transpose of the second; the blocks tile the output, so the output IS that product.
-/
import proofs.«120073_j44152263803384_1_alg».proof.Proof.IdealRegion0
import proofs.«120073_j44152263803384_1_alg».proof.Proof.BlockLinear
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem zero2 : (![0, 0] : Fin 2 → Nat) = fun _ => 0 := funext fun a => by fin_cases a <;> rfl

/-- Entry (s, n) of the product of `X` with the transpose of `Wt`: row s of `X` against row n of `Wt`. -/
def prodT {N : Nat} (X : (⟨2, ![2048, 2048]⟩ : Shape).Idx → EReal) (Wt : (⟨2, ![N, 2048]⟩ : Shape).Idx → EReal) :
    (⟨2, ![2048, N]⟩ : Shape).Idx → EReal :=
  fun i => ∑ k : Fin 2048, X (ix2 (n0 := 2048) (i 0) k) * Wt (ix2 (n0 := N) (i 1) k)

/-- The index maps over the grid: the first window follows the output's row block, the second its column block, and
    neither moves along the contracted axis. -/
theorem idx_facts0 : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 7 :=
  (by decide +kernel : ∀ t : Fin grid0.N, _)

/-- Every block of the output is some point's. -/
theorem idx_onto0 : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

set_option backward.isDefEq.respectTransparency.types false in
/-- What point `t` writes back is block `t` of the product. -/
theorem flushed0_eq (c : Dev nD) (t : Fin cfg0.N) :
    (dat0 V c).flushed 2 t = ((cfg0.win 2).blk t).view.read (Elt Ideal) (prodT (N := 4096) (V c main_v0) (V c main_v1)) := by
  show (cfg0.win 2).cut (grid0.coords t) ((dat0 V c).after 2 t) = _
  rw [after0_2]
  unfold out0_2
  rw [View.canon_unit_zero zero2]
  simp only [View.ld_unit_zero (S := S512x2048) zero2]
  obtain ⟨e0, e1, e2, e3, e4, e5⟩ := idx_facts0 t
  funext j
  obtain ⟨r, n, rfl⟩ : ∃ (r : Fin 512) (n : Fin 512), j = ix2 r n := ⟨j 0, j 1, eq_ix2 j⟩
  refine (Block.linear0_apply (iblk0 V c 0 t) (iblk0 V c 1 t) r n).trans ?_
  show _ = prodT (N := 4096) (V c main_v0) (V c main_v1) (((cfg0.win 2).blk t).view.emb (ix2 r n))
  unfold prodT
  refine Finset.sum_congr rfl fun k _ => ?_
  have h0 : ((cfg0.win 0).blk t).view.emb (ix2 r k) = ix2 (n0 := 2048) ((((cfg0.win 2).blk t).view.emb (ix2 r n)) 0) k := by
    funext a; apply Fin.ext
    match a with
    | ⟨0, _⟩ => show win0_0.index t (0 : Fin 2) * 512 + 1 * r.val = win0_2.index t (0 : Fin 2) * 512 + 1 * r.val; omega
    | ⟨1, _⟩ => show win0_0.index t (1 : Fin 2) * 2048 + 1 * k.val = k.val; omega
  have h1 : ((cfg0.win 1).blk t).view.emb (ix2 n k) = ix2 (n0 := 4096) ((((cfg0.win 2).blk t).view.emb (ix2 r n)) 1) k := by
    funext a; apply Fin.ext
    match a with
    | ⟨0, _⟩ => show win0_1.index t (0 : Fin 2) * 512 + 1 * n.val = win0_2.index t (1 : Fin 2) * 512 + 1 * n.val; omega
    | ⟨1, _⟩ => show win0_1.index t (1 : Fin 2) * 2048 + 1 * k.val = k.val; omega
  exact congrArg₂ (fun a b : EReal => a * b) (congrArg (V c main_v0) h0) (congrArg (V c main_v1) h1)

/-- An index of the output is in point `t`'s block iff each coordinate is in the block's range on its axis. -/
theorem mem_blk0 (t : Fin cfg0.N) (i : S2048x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v2).slice (win0_2.rect t)).set ↔ _
  rw [View.set_slice_whole, Rect.mem_set_unit]
  exact Iff.rfl

/-- The blocks tile the output: every index is in the block of the point at (row / 512, column / 512). -/
theorem cover0 (i : S2048x4096.Idx) : ∃ t : Fin cfg0.N, (cfg0.win 2).flush t = true ∧ i ∈ ((cfg0.win 2).blk t).view.set := by
  have hi0 : (i 0).val < 2048 := (i 0).isLt
  have hi1 : (i 1).val < 4096 := (i 1).isLt
  obtain ⟨t, ht⟩ := idx_onto0 ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The output array after the run is the product. -/
theorem final0 (c : Dev nD) : (dat0 V c).arrAt 2 cfg0.N = prodT (N := 4096) (V c main_v0) (V c main_v1) :=
  (dat0 V c).arrAt_eq_of_cover 2 _ (fun t _ => flushed0_eq V c t) (cover0)

end Cert.KernelIdeal.Regions

end
-- ==== Proof.Spec.lean ====
/-
  The mathematics both programs compute, on the extended reals, as index-by-index functions of the twelve argument
  arrays read at coordinates. One attention layer with grouped queries over a key/value cache:

    q, k, v      the three projections of the hidden states, a row of a weight matrix against a row of the states;
    rms          each 128-vector scaled by the reciprocal square root of its mean square plus a small constant, times
                 a learned weight per lane;
    rot          the rotary embedding: x * cos + (the half-rotated x) * sin, the rotation sending lane d to minus lane
                 d + 64 in the lower half and to lane d - 64 in the upper half;
    kAll, vAll   the cache (positions 0 ... 2047) followed by the new keys and values (positions 2048 ... 4095);
    score        query head h against the keys of its group h / 2, scaled, plus the mask;
    prob         the softmax of a row of scores: the exponential of the score less the row's maximum, over the row sum;
    ctx          the probabilities against the values;
    out          the context, heads laid side by side, against the output weights.

  The constants are kept as the words both programs print; nothing here evaluates them.
-/
import Idealize.ShloMosaic.PureOps.Ideal

noncomputable section

namespace Cert.Spec

open Idealize.ShloMosaic

/-- The printed words: zero, 128, the small constant under the root, the score scale, minus infinity. -/
def zeroW : EReal := Ideal.ofBits .f32 0x00000000#32
def lanesW : EReal := Ideal.ofBits .f32 0x43000000#32
def epsW : EReal := Ideal.ofBits .f32 0x358637BD#32
def scaleW : EReal := Ideal.ofBits .f32 0x3DB504F3#32
def negInfW : EReal := Ideal.ofBits .f32 0xFF800000#32

/-- Lane `d` of head (or group) `h` is feature `h * 128 + d` of a projection. -/
def feat {H : Nat} (h : Fin H) (d : Fin 128) : Fin (H * 128) :=
  ⟨h.val * 128 + d.val, by have := h.isLt; have := d.isLt; nlinarith⟩

/-- A projection: row `n` of the weights against row `s` of the hidden states. -/
def proj {N : Nat} (hs : Fin 2048 → Fin 2048 → EReal) (w : Fin N → Fin 2048 → EReal) (s : Fin 2048) (n : Fin N) : EReal :=
  ∑ k : Fin 2048, hs s k * w n k

/-- The root-mean-square normalisation of one 128-vector, with a weight per lane. -/
def rms (x : Fin 128 → EReal) (w : Fin 128 → EReal) (d : Fin 128) : EReal :=
  (x d * Ideal.rsqrt (Ideal.div (zeroW + ∑ e : Fin 128, x e * x e) lanesW + epsW)) * w d

/-- The half rotation of a 128-vector: minus the upper half, then the lower half. -/
def rotHalf (x : Fin 128 → EReal) (d : Fin 128) : EReal :=
  if h : d.val < 64 then -(x ⟨d.val + 64, by omega⟩) else x ⟨d.val - 64, by have := d.isLt; omega⟩

/-- The rotary embedding of one 128-vector at one position. -/
def rot (x cs sn : Fin 128 → EReal) (d : Fin 128) : EReal :=
  x d * cs d + rotHalf x d * sn d

section Layer

variable (hs : Fin 2048 → Fin 2048 → EReal) (cs sn : Fin 2048 → Fin 128 → EReal) (mask : Fin 2048 → Fin 4096 → EReal)
  (pk pv : Fin 8 → Fin 2048 → Fin 128 → EReal) (wq : Fin (16 * 128) → Fin 2048 → EReal) (wk wv : Fin (8 * 128) → Fin 2048 → EReal)
  (wo : Fin 2048 → Fin 2048 → EReal) (qw kw : Fin 128 → EReal)

/-- The new queries, keys and values: projected, (queries and keys) normalised and rotated. -/
def q (h : Fin 16) (s : Fin 2048) (d : Fin 128) : EReal :=
  rot (rms (fun e => proj hs wq s (feat h e)) qw) (cs s) (sn s) d
def k (g : Fin 8) (s : Fin 2048) (d : Fin 128) : EReal :=
  rot (rms (fun e => proj hs wk s (feat g e)) kw) (cs s) (sn s) d
def v (g : Fin 8) (s : Fin 2048) (d : Fin 128) : EReal :=
  proj hs wv s (feat g d)

/-- The cache followed by the new entries. -/
def kAll (g : Fin 8) (j : Fin 4096) (d : Fin 128) : EReal :=
  if h : j.val < 2048 then pk g ⟨j.val, h⟩ d else k hs cs sn wk kw g ⟨j.val - 2048, by have := j.isLt; omega⟩ d
def vAll (g : Fin 8) (j : Fin 4096) (d : Fin 128) : EReal :=
  if h : j.val < 2048 then pv g ⟨j.val, h⟩ d else v hs wv g ⟨j.val - 2048, by have := j.isLt; omega⟩ d

/-- Head `h` reads the keys and values of group `h / 2`. -/
def grp (h : Fin 16) : Fin 8 := ⟨h.val / 2, by have := h.isLt; omega⟩

def score (h : Fin 16) (s : Fin 2048) (j : Fin 4096) : EReal :=
  (∑ d : Fin 128, q hs cs sn wq qw h s d * kAll hs cs sn pk wk kw (grp h) j d) * scaleW + mask s j

/-- The row maximum, as both programs take it: the maximum of minus infinity and the maximum over the row. -/
def rowMax (h : Fin 16) (s : Fin 2048) : EReal :=
  max negInfW (Finset.univ.sup' Finset.univ_nonempty fun j : Fin 4096 => score hs cs sn mask pk wq wk qw kw h s j)

def expo (h : Fin 16) (s : Fin 2048) (j : Fin 4096) : EReal :=
  Ideal.exp (score hs cs sn mask pk wq wk qw kw h s j - rowMax hs cs sn mask pk wq wk qw kw h s)

def prob (h : Fin 16) (s : Fin 2048) (j : Fin 4096) : EReal :=
  Ideal.div (expo hs cs sn mask pk wq wk qw kw h s j) (zeroW + ∑ i : Fin 4096, expo hs cs sn mask pk wq wk qw kw h s i)

def ctx (h : Fin 16) (s : Fin 2048) (d : Fin 128) : EReal :=
  ∑ j : Fin 4096, prob hs cs sn mask pk wq wk qw kw h s j * vAll hs pv wv (grp h) j d

/-- The layer's first result: the context, heads side by side, against the output weights. -/
def out (s : Fin 2048) (n : Fin 2048) : EReal :=
  ∑ c : Fin 2048, ctx hs cs sn mask pk pv wq wk wv qw kw ⟨c.val / 128, by have := c.isLt; omega⟩ s ⟨c.val % 128, Nat.mod_lt _ (by decide)⟩ * wo n c

end Layer

end Cert.Spec

end
-- ==== Proof.SpecRow.lean ====
/-
  Attention of ONE query row, as a function of that row, the keys, the values and the row's mask: the scores of the row
  against every key, scaled, plus the mask; their softmax (exponential of the score less the row's maximum, over the row
  sum); the weighted sum of the values. The layer's context is this at the row of head h and position s, with the keys and
  values of the head's group.
-/
import proofs.«120073_j44152263803384_1_alg».proof.Proof.Spec

noncomputable section

namespace Cert.Spec

open Idealize.ShloMosaic

section Row

variable (qf : Fin 128 → EReal) (kf vf : Fin 4096 → Fin 128 → EReal) (mf : Fin 4096 → EReal)

def rowScore (j : Fin 4096) : EReal := (∑ e : Fin 128, qf e * kf j e) * scaleW + mf j
def rowTop : EReal := max negInfW (Finset.univ.sup' Finset.univ_nonempty fun j : Fin 4096 => rowScore qf kf mf j)
def rowExp (j : Fin 4096) : EReal := Ideal.exp (rowScore qf kf mf j - rowTop qf kf mf)
def rowProb (j : Fin 4096) : EReal := Ideal.div (rowExp qf kf mf j) (zeroW + ∑ i : Fin 4096, rowExp qf kf mf i)
def attnRow (d : Fin 128) : EReal := ∑ j : Fin 4096, rowProb qf kf mf j * vf j d

end Row

/-- The layer's context is the attention of the row of head `h` at position `s`. -/
theorem ctx_eq_attnRow (hs : Fin 2048 → Fin 2048 → EReal) (cs sn : Fin 2048 → Fin 128 → EReal) (mask : Fin 2048 → Fin 4096 → EReal)
    (pk pv : Fin 8 → Fin 2048 → Fin 128 → EReal) (wq : Fin (16 * 128) → Fin 2048 → EReal) (wk wv : Fin (8 * 128) → Fin 2048 → EReal)
    (qw kw : Fin 128 → EReal) (h : Fin 16) (s : Fin 2048) (d : Fin 128) :
    ctx hs cs sn mask pk pv wq wk wv qw kw h s d
      = attnRow (q hs cs sn wq qw h s) (kAll hs cs sn pk wk kw (grp h)) (vAll hs pv wv (grp h)) (mask s) d := rfl

end Cert.Spec

end
-- ==== Proof.BlockAttn.lean ====
/-
  The attention body read at an index. The body loads a block of 128 queries, the 4096 keys and values of their group and
  the mask block. Its result at (query r, lane d) is the sum over the 4096 positions j of the softmax weight of j in row r
  times lane d of value j. The score of (r, j) is the query against the key, scaled, plus the mask; the row maximum is
  the larger of minus infinity and the maximum over the row; the weight is the exponential of the score less the row
  maximum, over the row's sum of exponentials. Every step below is a reading of one operation at an index: no law of the
  extended reals beyond 0 + x = x and max a (max a b) = max a b is used.
-/
import proofs.«120073_j44152263803384_1_alg».proof.Proof.Gen.KernelIdeal.Skeleton
import proofs.«120073_j44152263803384_1_alg».proof.Proof.SpecRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## Layout operations on a column -/

section Column
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## A fold of the maximum over a row -/

/-- Folding `max` from `b` over a nonempty finite family is the larger of `b` and the family's maximum. -/
theorem fold_max_eq_max_sup' {ι : Type} (s : Finset ι) (hs : s.Nonempty) (b : EReal) (f : ι → EReal) :
    s.fold max b f = max b (s.sup' hs f) := by
  refine le_antisymm ?_ ?_
  · exact (Finset.fold_max_le _).mpr ⟨le_max_left _ _, fun x hx => le_max_of_le_right (Finset.le_sup' f hx)⟩
  · refine max_le ((Finset.le_fold_max _).mpr (Or.inl le_rfl)) ?_
    exact (Finset.sup'_le_iff hs f).mpr fun x hx => (Finset.le_fold_max _).mpr (Or.inr ⟨x, hx, le_rfl⟩)

/-! ## The two products -/

/-- Queries by keys: 128 rows by 128 contracted lanes, times 128 contracted lanes by 4096 positions. -/
abbrev dQK : DotDims S128x128 S128x4096 S128x4096 := dot_S128x128_S128x4096_S128x4096_1_0_0_1_n_n
abbrev eQK : dQK.contr.Idx ≃ Fin 128 := contrEquiv1 dQK 128 rfl rfl

theorem qk_lhs0 (i : S128x4096.Idx) (q : dQK.contr.Idx) : (dQK.lhsIdx i q 0).val = (i 0).val := by
  unfold DotDims.lhsIdx
  rw [dif_neg (show ¬(0 : Fin S128x128.rank) ∈ dQK.lhsBatch by decide),
    dif_pos (show (0 : Fin S128x128.rank) ∈ dQK.lhsNonContracting by decide)]
  rfl
theorem qk_lhs1 (i : S128x4096.Idx) (q : dQK.contr.Idx) : (dQK.lhsIdx i q 1).val = (q ⟨0, by decide⟩).val :=
  dQK.lhsIdx_val_of_single rfl i q
theorem qk_rhs0 (i : S128x4096.Idx) (q : dQK.contr.Idx) : (dQK.rhsIdx i q 0).val = (q ⟨0, by decide⟩).val :=
  dQK.rhsIdx_val_of_single rfl i q
theorem qk_rhs1 (i : S128x4096.Idx) (q : dQK.contr.Idx) : (dQK.rhsIdx i q 1).val = (i 1).val := by
  unfold DotDims.rhsIdx
  rw [dif_neg (show ¬(1 : Fin S128x4096.rank) ∈ dQK.rhsBatch by decide),
    dif_pos (show (1 : Fin S128x4096.rank) ∈ dQK.rhsNonContracting by decide)]
  rfl
theorem qk_lhsIdx (r : Fin 128) (j : Fin 4096) (e : Fin 128) : dQK.lhsIdx (ix2 r j) (eQK.symm e) = ix2 r e := by
  have hk := contrEquiv1_symm_val dQK 128 rfl rfl e
  funext a
  refine Fin.ext ?_
  match a with
  | ⟨0, _⟩ => exact qk_lhs0 _ _
  | ⟨1, _⟩ => exact (qk_lhs1 _ _).trans hk
theorem qk_rhsIdx (r : Fin 128) (j : Fin 4096) (e : Fin 128) : dQK.rhsIdx (ix2 r j) (eQK.symm e) = ix2 e j := by
  have hk := contrEquiv1_symm_val dQK 128 rfl rfl e
  funext a
  refine Fin.ext ?_
  match a with
  | ⟨0, _⟩ => exact (qk_rhs0 _ _).trans hk
  | ⟨1, _⟩ => exact qk_rhs1 _ _

/-- The product of queries by keys into the zero word, at (r, j): the sum over the 128 lanes. -/
theorem matmul_qk_apply (l : FVec Ideal S128x128 .bf16) (t : FVec Ideal S128x4096 .bf16) (r : Fin 128) (j : Fin 4096) :
    FloatOps.matmul dQK none l t (constant (F := Ideal) S128x4096 .f32 0x00000000#32) (ix2 r j)
      = ∑ e : Fin 128, l (ix2 r e) * t (ix2 e j) := by
  refine (Ideal.matmul_constant_zero_apply dQK none l t (ix2 r j)).trans ?_
  refine (Equiv.sum_comp eQK.symm _).symm.trans ?_
  refine Finset.sum_congr rfl fun e _ => ?_
  rw [qk_lhsIdx, qk_rhsIdx]

/-- Weights by values: 128 rows by 4096 contracted positions, times 4096 contracted positions by 128 lanes. -/
abbrev dPV : DotDims S128x4096 S4096x128 S128x128 := dot_S128x4096_S4096x128_S128x128_1_0_0_1_n_n
abbrev ePV : dPV.contr.Idx ≃ Fin 4096 := contrEquiv1 dPV 4096 rfl rfl

theorem pv_lhs0 (i : S128x128.Idx) (q : dPV.contr.Idx) : (dPV.lhsIdx i q 0).val = (i 0).val := by
  unfold DotDims.lhsIdx
  rw [dif_neg (show ¬(0 : Fin S128x4096.rank) ∈ dPV.lhsBatch by decide),
    dif_pos (show (0 : Fin S128x4096.rank) ∈ dPV.lhsNonContracting by decide)]
  rfl
theorem pv_lhs1 (i : S128x128.Idx) (q : dPV.contr.Idx) : (dPV.lhsIdx i q 1).val = (q ⟨0, by decide⟩).val :=
  dPV.lhsIdx_val_of_single rfl i q
theorem pv_rhs0 (i : S128x128.Idx) (q : dPV.contr.Idx) : (dPV.rhsIdx i q 0).val = (q ⟨0, by decide⟩).val :=
  dPV.rhsIdx_val_of_single rfl i q
theorem pv_rhs1 (i : S128x128.Idx) (q : dPV.contr.Idx) : (dPV.rhsIdx i q 1).val = (i 1).val := by
  unfold DotDims.rhsIdx
  rw [dif_neg (show ¬(1 : Fin S4096x128.rank) ∈ dPV.rhsBatch by decide),
    dif_pos (show (1 : Fin S4096x128.rank) ∈ dPV.rhsNonContracting by decide)]
  rfl
theorem pv_lhsIdx (r d : Fin 128) (j : Fin 4096) : dPV.lhsIdx (ix2 r d) (ePV.symm j) = ix2 r j := by
  have hk := contrEquiv1_symm_val dPV 4096 rfl rfl j
  funext a
  refine Fin.ext ?_
  match a with
  | ⟨0, _⟩ => exact pv_lhs0 _ _
  | ⟨1, _⟩ => exact (pv_lhs1 _ _).trans hk
theorem pv_rhsIdx (r d : Fin 128) (j : Fin 4096) : dPV.rhsIdx (ix2 r d) (ePV.symm j) = ix2 j d := by
  have hk := contrEquiv1_symm_val dPV 4096 rfl rfl j
  funext a
  refine Fin.ext ?_
  match a with
  | ⟨0, _⟩ => exact (pv_rhs0 _ _).trans hk
  | ⟨1, _⟩ => exact pv_rhs1 _ _

/-- The product of weights by values into the zero word, at (r, d): the sum over the 4096 positions. -/
theorem matmul_pv_apply (l : FVec Ideal S128x4096 .bf16) (t : FVec Ideal S4096x128 .bf16) (r d : Fin 128) :
    FloatOps.matmul dPV none l t (constant (F := Ideal) S128x128 .f32 0x00000000#32) (ix2 r d)
      = ∑ j : Fin 4096, l (ix2 r j) * t (ix2 j d) := by
  refine (Ideal.matmul_constant_zero_apply dPV none l t (ix2 r d)).trans ?_
  refine (Equiv.sum_comp ePV.symm _).symm.trans ?_
  refine Finset.sum_congr rfl fun j _ => ?_
  rw [pv_lhsIdx, pv_rhsIdx]

/-! ## The reductions over a row -/

/-- Row `r` with the lane coordinate `k` put back is the index `(r, k)`. -/
theorem lift_row (h : S128x4096.Reduces [1] S128) (r : Fin 128) (k : Fin 4096) : h.lift (ix1 r) k = ix2 r k := by
  funext a
  refine Fin.ext ?_
  match a with
  | ⟨0, _⟩ => rfl
  | ⟨1, _⟩ => rfl

/-- The lane maximum taken from the word `w`: at row `r`, the fold of the maximum from `w`'s value over the row. -/
theorem rowFold_apply (s : FVec Ideal S128x4096 .f32) (w : BitVec 32) (h : S128x4096.Reduces [1] S128) (hφ : FKind.Formats .f32)
    (hacc : w = FKind.maximumf.neutral .f32 hφ) (r : Fin 128) :
    multiReduction (F := Ideal) .maximumf [1] S128 s w h hφ hacc (ix1 r)
      = (Finset.univ : Finset (Fin 4096)).fold max (Ideal.ofBits .f32 w) (fun j : Fin 4096 => s (ix2 r j)) := by
  have hf : (fun k : Fin 4096 => s (h.lift (ix1 r) k)) = fun j : Fin 4096 => s (ix2 r j) :=
    funext fun k => congrArg s (lift_row h r k)
  exact (Ideal.multiReduction_maximumf_single s w h hφ hacc (ix1 r)).trans
    (congrArg (fun f : Fin 4096 → EReal => (Finset.univ : Finset (Fin 4096)).fold max (Ideal.ofBits .f32 w) f) hf)

/-- Then the maximum against the word again: the larger of `w`'s value and the maximum over the row. -/
theorem rowMax_apply (s : FVec Ideal S128x4096 .f32) (w : BitVec 32) (h : S128x4096.Reduces [1] S128) (hφ : FKind.Formats .f32)
    (hacc : w = FKind.maximumf.neutral .f32 hφ) (r : Fin 128) :
    maximumf (broadcast S128 (Scalar.ofBits (F := Ideal) .f32 w))
        (multiReduction (F := Ideal) .maximumf [1] S128 s w h hφ hacc) (ix1 r)
      = max (Ideal.ofBits .f32 w) (Finset.univ.sup' Finset.univ_nonempty fun j : Fin 4096 => s (ix2 r j)) := by
  refine (congrArg (max (Ideal.ofBits .f32 w)) (rowFold_apply s w h hφ hacc r)).trans ?_
  rw [fold_max_eq_max_sup' Finset.univ Finset.univ_nonempty, ← max_assoc, max_self]

/-- The lane sum taken from the zero word: at row `r`, zero plus the sum over the row. -/
theorem rowSum_apply (e : FVec Ideal S128x4096 .f32) (h : S128x4096.Reduces [1] S128) (hφ : FKind.Formats .f32)
    (hacc : (0x00000000#32 : BitVec 32) = FKind.add.neutral .f32 hφ) (r : Fin 128) :
    multiReduction (F := Ideal) .add [1] S128 e 0x00000000#32 h hφ hacc (ix1 r)
      = Cert.Spec.zeroW + ∑ j : Fin 4096, e (ix2 r j) := by
  have hf : (fun k : Fin 4096 => e (h.lift (ix1 r) k)) = fun j : Fin 4096 => e (ix2 r j) :=
    funext fun k => congrArg e (lift_row h r k)
  refine (Ideal.multiReduction_add_single e _ h hφ hacc (ix1 r)).trans ?_
  rw [Cert.Spec.zeroW, Ideal.ofBits_zero_f32, zero_add]
  exact congrArg (fun f : Fin 4096 → EReal => ∑ j : Fin 4096, f j) hf

/-! ## The softmax of a block of scores -/

/-- The exponentials: each score less its row's maximum, the maximum broadcast along the row. -/
def expRows (s : FVec Ideal S128x4096 .f32) : FVec Ideal S128x4096 .f32 :=
  exp (subf s (broadcastTo S128x4096 (shapeCast S128x1
    (maximumf (broadcast S128 (Scalar.ofBits (F := Ideal) .f32 0xFF800000#32))
      (multiReduction (F := Ideal) .maximumf [1] S128 s 0xFF800000#32 reduces_S128x4096_S128 (.inl rfl) rfl))
    shapeCasts_S128_S128x1) broadcasts_S128x1_S128x4096))

theorem expRows_apply (s : FVec Ideal S128x4096 .f32) (r : Fin 128) (j : Fin 4096) :
    expRows s (ix2 r j)
      = Ideal.exp (s (ix2 r j) - max Cert.Spec.negInfW (Finset.univ.sup' Finset.univ_nonempty fun i : Fin 4096 => s (ix2 r i))) := by
  unfold expRows Cert.Spec.negInfW
  show Ideal.exp (s (ix2 r j) - broadcastTo S128x4096 _ broadcasts_S128x1_S128x4096 (ix2 r j)) = _
  refine congrArg (fun m => Ideal.exp (s (ix2 r j) - m)) ?_
  refine (broadcastTo_a1_ab_apply _ _ r j).trans ?_
  refine (shapeCast_a_a1_apply _ _ r 0).trans ?_
  exact rowMax_apply s 0xFF800000#32 _ _ _ r

/-- The weights: each exponential over its row's sum, the sum broadcast along the row. -/
def normRows (e : FVec Ideal S128x4096 .f32) : FVec Ideal S128x4096 .f32 :=
  divf e (broadcastTo S128x4096 (shapeCast S128x1
    (multiReduction (F := Ideal) .add [1] S128 e 0x00000000#32 reduces_S128x4096_S128 (.inl rfl) rfl)
    shapeCasts_S128_S128x1) broadcasts_S128x1_S128x4096)

theorem normRows_apply (e : FVec Ideal S128x4096 .f32) (r : Fin 128) (j : Fin 4096) :
    normRows e (ix2 r j) = Ideal.div (e (ix2 r j)) (Cert.Spec.zeroW + ∑ i : Fin 4096, e (ix2 r i)) := by
  unfold normRows
  show Ideal.div (e (ix2 r j)) (broadcastTo S128x4096 _ broadcasts_S128x1_S128x4096 (ix2 r j)) = _
  refine congrArg (Ideal.div (e (ix2 r j))) ?_
  refine (broadcastTo_a1_ab_apply _ _ r j).trans ?_
  refine (shapeCast_a_a1_apply _ _ r 0).trans ?_
  exact rowSum_apply e _ _ _ r

/-! ## The body's value -/

section Attn
variable (x0 : Vec Ideal S1x128x128 .f32) (x3 x6 : Vec Ideal S1x4096x128 .f32) (x13 : Vec Ideal S128x4096 .f32)

/-- The score of position `j` for query `r`: the query against the key, scaled, plus the mask. -/
def sc (r : Fin 128) (j : Fin 4096) : EReal :=
  (∑ e : Fin 128, x0 (ix3 0 r e) * x3 (ix3 0 j e)) * Cert.Spec.scaleW + x13 (ix2 r j)

/-- The row maximum: the larger of minus infinity and the maximum of the row's scores. -/
def mx (r : Fin 128) : EReal :=
  max Cert.Spec.negInfW (Finset.univ.sup' Finset.univ_nonempty fun j : Fin 4096 => sc x0 x3 x13 r j)

/-- The exponential of a score less its row's maximum. -/
def ex (r : Fin 128) (j : Fin 4096) : EReal := Ideal.exp (sc x0 x3 x13 r j - mx x0 x3 x13 r)

/-- The block of scores as the body computes it. -/
def scoreBlock : FVec Ideal S128x4096 .f32 :=
  addf (mulf
      (matmul dQK none (truncf .bf16 (shapeCast S128x128 x0 shapeCasts_S1x128x128_S128x128) bitsLt_bf16_f32)
        (transpose S128x4096 [1, 0] (truncf .bf16 (shapeCast S4096x128 x3 shapeCasts_S1x4096x128_S4096x128) bitsLt_bf16_f32)
          transposes_S4096x128_p1_0_S128x4096)
        (constant (F := Ideal) S128x4096 .f32 0x00000000#32))
      (broadcast S128x4096 (Scalar.ofBits (F := Ideal) .f32 0x3DB504F3#32)))
    (shapeCast S128x4096 x13 shapeCasts_S128x4096_S128x4096)

/-- A product with a splatted word, plus a block: at an index, the product with the word's value, plus the block there. -/
theorem scaled_plus_apply {s : Shape} (m b : FVec Ideal s .f32) (w : BitVec 32) (i : s.Idx) :
    addf (mulf m (broadcast s (Scalar.ofBits (F := Ideal) .f32 w))) b i = m i * Ideal.ofBits .f32 w + b i := rfl

theorem scoreBlock_apply (r : Fin 128) (j : Fin 4096) : scoreBlock x0 x3 x13 (ix2 r j) = sc x0 x3 x13 r j := by
  unfold scoreBlock sc Cert.Spec.scaleW
  refine (scaled_plus_apply _ _ 0x3DB504F3#32 _).trans ?_
  refine congrArg₂ (· + ·) (congrArg (· * Ideal.ofBits .f32 0x3DB504F3#32) ?_) (congrFun (shapeCast_self x13 _) _)
  refine (matmul_qk_apply _ _ r j).trans ?_
  refine Finset.sum_congr rfl fun e _ => ?_
  refine congrArg₂ (· * ·) ?_ ?_
  · exact shapeCast_1ab_ab_apply x0 _ r e
  · exact (transpose_ix2_apply _ _ e j).trans (shapeCast_1ab_ab_apply x3 _ j e)

/-- The body's value is the weights of the scores against the values, with a unit axis in front. -/
theorem k1_pay1_eq : k1_pay1 (F := Ideal) x0 x3 x6 x13
    = shapeCast S1x128x128
        (matmul dPV none (truncf .bf16 (normRows (expRows (scoreBlock x0 x3 x13))) bitsLt_bf16_f32)
          (truncf .bf16 (shapeCast S4096x128 x6 shapeCasts_S1x4096x128_S4096x128) bitsLt_bf16_f32)
          (constant (F := Ideal) S128x128 .f32 0x00000000#32))
        shapeCasts_S128x128_S1x128x128 := rfl

/-- The exponentials of the body's scores are `ex`. -/
theorem expRows_scoreBlock_apply (r : Fin 128) (j : Fin 4096) :
    expRows (scoreBlock x0 x3 x13) (ix2 r j) = ex x0 x3 x13 r j := by
  refine (expRows_apply _ r j).trans ?_
  unfold ex mx
  simp only [scoreBlock_apply]

/-- The body at (0, r, d): the softmax weights of row `r` against lane `d` of the values. -/
theorem attn_sum_apply (r d : Fin 128) :
    k1_pay1 (F := Ideal) x0 x3 x6 x13 (ix3 0 r d)
      = ∑ j : Fin 4096, Ideal.div (ex x0 x3 x13 r j) (Cert.Spec.zeroW + ∑ i : Fin 4096, ex x0 x3 x13 r i) * x6 (ix3 0 j d) := by
  refine (congrFun (k1_pay1_eq x0 x3 x6 x13) _).trans ?_
  refine (shapeCast_ab_1ab_apply _ _ 0 r d).trans ?_
  refine (matmul_pv_apply _ _ r d).trans ?_
  refine Finset.sum_congr rfl fun j _ => ?_
  refine congrArg₂ (· * ·) ?_ (shapeCast_1ab_ab_apply x6 _ j d)
  refine (normRows_apply _ r j).trans ?_
  simp only [expRows_scoreBlock_apply]

/-- THE ATTENTION BODY AT (0, r, d) is the attention of query row `r` of the block against the loaded keys, values and
    the row's mask, at lane `d`: the sum above, with the scores, the row maximum, the exponentials and the weights named
    as the one-row specification names them. -/
theorem attn_apply (r d : Fin 128) :
    k1_pay1 (F := Ideal) x0 x3 x6 x13 (ix3 0 r d)
      = Cert.Spec.attnRow (fun e => x0 (ix3 0 r e)) (fun j e => x3 (ix3 0 j e)) (fun j e => x6 (ix3 0 j e))
          (fun j => x13 (ix2 r j)) d := by
  refine (attn_sum_apply x0 x3 x6 x13 r d).trans ?_
  unfold Cert.Spec.attnRow Cert.Spec.rowProb Cert.Spec.rowExp Cert.Spec.rowTop Cert.Spec.rowScore ex mx sc
  rfl

end Attn

end Cert.KernelIdeal.Block

end
-- ==== Proof.IdealOut1.lean ====
/-
  The attention region's output array after the run, as ONE function of its four input arrays.
  Grid point (tile, head) reads rows 128 * tile ... 128 * tile + 127 of head `head` of the queries, ALL 4096 rows of the keys
  and of the values of group head / 2, and rows 128 * tile ... of the mask, and writes back the matching 128 x 128 block of
  head `head` of the output: entry (r, d) is the attention of query row r (SpecRow.lean). So each block written back is the
  block of the array whose entry (head, position, lane) is the attention of that head's query row at that position against
  its group's keys and values under that position's mask row; the blocks tile the output.
-/
import proofs.«120073_j44152263803384_1_alg».proof.Proof.IdealRegion1
import proofs.«120073_j44152263803384_1_alg».proof.Proof.IdealOut0
import proofs.«120073_j44152263803384_1_alg».proof.Proof.BlockAttn
import proofs.«120073_j44152263803384_1_alg».proof.Proof.SpecRow
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem zero3 : (![0, 0, 0] : Fin 3 → Nat) = fun _ => 0 := funext fun a => by fin_cases a <;> rfl

/-- Entry (h, s, d): the attention of head h's query row at position s against the keys and values of group h / 2. -/
def attnArr (Q : (⟨3, ![16, 2048, 128]⟩ : Shape).Idx → EReal) (Kall Vall : (⟨3, ![8, 4096, 128]⟩ : Shape).Idx → EReal)
    (M : (⟨2, ![2048, 4096]⟩ : Shape).Idx → EReal) : (⟨3, ![16, 2048, 128]⟩ : Shape).Idx → EReal :=
  fun i => Cert.Spec.attnRow (fun e => Q (ix3 (n0 := 16) (n1 := 2048) (i 0) (i 1) e))
    (fun j e => Kall (ix3 (n0 := 8) (Cert.Spec.grp (i 0)) j e)) (fun j e => Vall (ix3 (n0 := 8) (Cert.Spec.grp (i 0)) j e))
    (fun j => M (ix2 (n0 := 2048) (i 1) j)) (i 2)

theorem attnRow_congr {qf qf' : Fin 128 → EReal} {kf kf' vf vf' : Fin 4096 → Fin 128 → EReal} {mf mf' : Fin 4096 → EReal} {d d' : Fin 128}
    (hq : qf = qf') (hk : kf = kf') (hv : vf = vf') (hm : mf = mf') (hd : d = d') :
    Cert.Spec.attnRow qf kf vf mf d = Cert.Spec.attnRow qf' kf' vf' mf' d' := by
  subst hq; subst hk; subst hv; subst hm; subst hd; rfl

/-- The index maps over the grid: the queries and the mask follow the output's block, the keys and values sit at the
    block of group head / 2, and nothing moves along the lanes or along the key positions. -/
theorem idx_facts1 : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) / 2 ∧ win1_1.index t (1 : Fin 3) = 0 ∧ win1_1.index t (2 : Fin 3) = 0
    ∧ win1_2.index t (0 : Fin 3) = win1_4.index t (0 : Fin 3) / 2 ∧ win1_2.index t (1 : Fin 3) = 0 ∧ win1_2.index t (2 : Fin 3) = 0
    ∧ win1_3.index t (0 : Fin 2) = win1_4.index t (1 : Fin 3) ∧ win1_3.index t (1 : Fin 2) = 0
    ∧ win1_4.index t (0 : Fin 3) ≤ 15 ∧ win1_4.index t (1 : Fin 3) ≤ 15 ∧ win1_4.index t (2 : Fin 3) = 0 :=
  (by decide +kernel : ∀ t : Fin grid1.N, _)

/-- Every block of the output is some point's. -/
theorem idx_onto1 : ∀ (q0 : Fin 16) (q1 : Fin 16), ∃ t : Fin cfg1.N, win1_4.index t = ![q0.val, q1.val, 0] :=
  (by decide +kernel : ∀ (q0 : Fin 16) (q1 : Fin 16), ∃ t : Fin grid1.N, win1_4.index t = ![q0.val, q1.val, 0])

set_option backward.isDefEq.respectTransparency.types false in
/-- What point `t` writes back is block `t` of the attention array. -/
theorem flushed1_eq (c : Dev nD) (t : Fin cfg1.N) :
    (dat1 V c).flushed 4 t = ((cfg1.win 4).blk t).view.read (Elt Ideal) (attnArr (V c main_v50) (V c main_v62) (V c main_v63) (V c main_v64)) := by
  show (cfg1.win 4).cut (grid1.coords t) ((dat1 V c).after 4 t) = _
  rw [after1_4]
  unfold out1_4
  rw [View.canon_unit_zero zero3]
  simp only [View.ld_unit_zero (S := S1x128x128) zero3, View.ld_unit_zero (S := S1x4096x128) zero3, View.ld_unit_zero (S := S128x4096) zero2]
  obtain ⟨a0, a1, a2, b0, b1, b2, c0, c1, c2, m0, m1, o0, o1, o2⟩ := idx_facts1 t
  funext j
  obtain ⟨r, d, rfl⟩ : ∃ (r : Fin 128) (d : Fin 128), j = ix3 (0 : Fin 1) r d := by
    have hone : ∀ a : Fin 1, a = 0 := fun a => Subsingleton.elim a 0
    exact ⟨j 1, j 2, (eq_ix3 j).trans (congrArg (fun a : Fin 1 => ix3 a (j 1) (j 2)) (hone (j 0)))⟩
  refine (Block.attn_apply (iblk1 V c 0 t) (iblk1 V c 1 t) (iblk1 V c 2 t) (iblk1 V c 3 t) r d).trans ?_
  show _ = attnArr (V c main_v50) (V c main_v62) (V c main_v63) (V c main_v64) (((cfg1.win 4).blk t).view.emb (ix3 (0 : Fin 1) r d))
  unfold attnArr
  refine attnRow_congr (funext fun e => ?_) (funext fun j => funext fun e => ?_) (funext fun j => funext fun e => ?_) (funext fun j => ?_) ?_
  · refine congrArg (V c main_v50) ?_
    funext a; apply Fin.ext
    match a with
    | ⟨0, _⟩ => show win1_0.index t (0 : Fin 3) * 1 + 1 * 0 = win1_4.index t (0 : Fin 3) * 1 + 1 * 0; omega
    | ⟨1, _⟩ => show win1_0.index t (1 : Fin 3) * 128 + 1 * r.val = win1_4.index t (1 : Fin 3) * 128 + 1 * r.val; omega
    | ⟨2, _⟩ => show win1_0.index t (2 : Fin 3) * 128 + 1 * e.val = e.val; omega
  · refine congrArg (V c main_v62) ?_
    funext a; apply Fin.ext
    match a with
    | ⟨0, _⟩ => show win1_1.index t (0 : Fin 3) * 1 + 1 * 0 = (win1_4.index t (0 : Fin 3) * 1 + 1 * 0) / 2; omega
    | ⟨1, _⟩ => show win1_1.index t (1 : Fin 3) * 4096 + 1 * j.val = j.val; omega
    | ⟨2, _⟩ => show win1_1.index t (2 : Fin 3) * 128 + 1 * e.val = e.val; omega
  · refine congrArg (V c main_v63) ?_
    funext a; apply Fin.ext
    match a with
    | ⟨0, _⟩ => show win1_2.index t (0 : Fin 3) * 1 + 1 * 0 = (win1_4.index t (0 : Fin 3) * 1 + 1 * 0) / 2; omega
    | ⟨1, _⟩ => show win1_2.index t (1 : Fin 3) * 4096 + 1 * j.val = j.val; omega
    | ⟨2, _⟩ => show win1_2.index t (2 : Fin 3) * 128 + 1 * e.val = e.val; omega
  · refine congrArg (V c main_v64) ?_
    funext a; apply Fin.ext
    match a with
    | ⟨0, _⟩ => show win1_3.index t (0 : Fin 2) * 128 + 1 * r.val = win1_4.index t (1 : Fin 3) * 128 + 1 * r.val; omega
    | ⟨1, _⟩ => show win1_3.index t (1 : Fin 2) * 4096 + 1 * j.val = j.val; omega
  · apply Fin.ext
    show d.val = win1_4.index t (2 : Fin 3) * 128 + 1 * d.val
    omega

/-- An index of the output is in point `t`'s block iff each coordinate is in the block's range on its axis. -/
theorem mem_blk1 (t : Fin cfg1.N) (i : S16x2048x128.Idx) :
    i ∈ ((cfg1.win 4).blk t).view.set ↔ ∀ a : Fin 3, win1_4.index t a * S1x128x128.size a ≤ (i a).val ∧ (i a).val < win1_4.index t a * S1x128x128.size a + S1x128x128.size a := by
  show i ∈ ((View.whole main_v65).slice (win1_4.rect t)).set ↔ _
  rw [View.set_slice_whole, Rect.mem_set_unit]
  exact Iff.rfl

/-- The blocks tile the output: index (h, s, d) is in the block of the point at (h, s / 128). -/
theorem cover1 (i : S16x2048x128.Idx) : ∃ t : Fin cfg1.N, (cfg1.win 4).flush t = true ∧ i ∈ ((cfg1.win 4).blk t).view.set := by
  have hi0 : (i 0).val < 16 := (i 0).isLt
  have hi1 : (i 1).val < 2048 := (i 1).isLt
  have hi2 : (i 2).val < 128 := (i 2).isLt
  obtain ⟨t, ht⟩ := idx_onto1 ⟨(i 0).val, by omega⟩ ⟨(i 1).val / 128, by omega⟩
  have q0 : win1_4.index t (0 : Fin 3) = (i 0).val := congrFun ht 0
  have q1 : win1_4.index t (1 : Fin 3) = (i 1).val / 128 := congrFun ht 1
  have q2 : win1_4.index t (2 : Fin 3) = 0 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 128 ≤ (i 1).val ∧ (i 1).val < win1_4.index t (1 : Fin 3) * 128 + 128; omega
  | ⟨2, _⟩ => show win1_4.index t (2 : Fin 3) * 128 ≤ (i 2).val ∧ (i 2).val < win1_4.index t (2 : Fin 3) * 128 + 128; omega

/-- The output array after the run is the attention array. -/
theorem final1 (c : Dev nD) : (dat1 V c).arrAt 4 cfg1.N = attnArr (V c main_v50) (V c main_v62) (V c main_v63) (V c main_v64) :=
  (dat1 V c).arrAt_eq_of_cover 4 _ (fun t _ => flushed1_eq V c t) (cover1)

end Cert.KernelIdeal.Regions

end
-- ==== Proof.IdealOut2.lean ====
/-
  Region 2's output array after the run, as ONE function of its two input arrays: the attention output against the output weights.
  Grid point (i, j) reads rows 512 i ... 512 i + 511 of the first array and rows 512 j ... 512 j + 511 of the second, and
  writes back block (i, j) of the output, whose entry (r, n) is the sum over k of row r of the first block times row n
  of the second. So every block written back is the matching block of the product of the first array with the
  transpose of the second; the blocks tile the output, so the output IS that product.
-/
import proofs.«120073_j44152263803384_1_alg».proof.Proof.IdealRegion2
import proofs.«120073_j44152263803384_1_alg».proof.Proof.BlockLinear
import proofs.«120073_j44152263803384_1_alg».proof.Proof.IdealOut0
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The index maps over the grid: the first window follows the output's row block, the second its column block, and
    neither moves along the contracted axis. -/
theorem idx_facts2 : ∀ t : Fin cfg2.N, win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 3 ∧ win2_2.index t (1 : Fin 2) ≤ 3 :=
  (by decide +kernel : ∀ t : Fin grid2.N, _)

/-- Every block of the output is some point's. -/
theorem idx_onto2 : ∀ (q0 : Fin 4) (q1 : Fin 4), ∃ t : Fin cfg2.N, win2_2.index t = ![q0.val, q1.val] :=
  (by decide +kernel : ∀ (q0 : Fin 4) (q1 : Fin 4), ∃ t : Fin grid2.N, win2_2.index t = ![q0.val, q1.val])

set_option backward.isDefEq.respectTransparency.types false in
/-- What point `t` writes back is block `t` of the product. -/
theorem flushed2_eq (c : Dev nD) (t : Fin cfg2.N) :
    (dat2 V c).flushed 2 t = ((cfg2.win 2).blk t).view.read (Elt Ideal) (prodT (N := 2048) (V c main_v67) (V c main_arg9)) := by
  show (cfg2.win 2).cut (grid2.coords t) ((dat2 V c).after 2 t) = _
  rw [after2_2]
  unfold out2_2
  rw [View.canon_unit_zero zero2]
  simp only [View.ld_unit_zero (S := S512x2048) zero2]
  obtain ⟨e0, e1, e2, e3, e4, e5⟩ := idx_facts2 t
  funext j
  obtain ⟨r, n, rfl⟩ : ∃ (r : Fin 512) (n : Fin 512), j = ix2 r n := ⟨j 0, j 1, eq_ix2 j⟩
  refine (Block.linear2_apply (iblk2 V c 0 t) (iblk2 V c 1 t) r n).trans ?_
  show _ = prodT (N := 2048) (V c main_v67) (V c main_arg9) (((cfg2.win 2).blk t).view.emb (ix2 r n))
  unfold prodT
  refine Finset.sum_congr rfl fun k _ => ?_
  have h0 : ((cfg2.win 0).blk t).view.emb (ix2 r k) = ix2 (n0 := 2048) ((((cfg2.win 2).blk t).view.emb (ix2 r n)) 0) k := by
    funext a; apply Fin.ext
    match a with
    | ⟨0, _⟩ => show win2_0.index t (0 : Fin 2) * 512 + 1 * r.val = win2_2.index t (0 : Fin 2) * 512 + 1 * r.val; omega
    | ⟨1, _⟩ => show win2_0.index t (1 : Fin 2) * 2048 + 1 * k.val = k.val; omega
  have h1 : ((cfg2.win 1).blk t).view.emb (ix2 n k) = ix2 (n0 := 2048) ((((cfg2.win 2).blk t).view.emb (ix2 r n)) 1) k := by
    funext a; apply Fin.ext
    match a with
    | ⟨0, _⟩ => show win2_1.index t (0 : Fin 2) * 512 + 1 * n.val = win2_2.index t (1 : Fin 2) * 512 + 1 * n.val; omega
    | ⟨1, _⟩ => show win2_1.index t (1 : Fin 2) * 2048 + 1 * k.val = k.val; omega
  exact congrArg₂ (fun a b : EReal => a * b) (congrArg (V c main_v67) h0) (congrArg (V c main_arg9) h1)

/-- An index of the output is in point `t`'s block iff each coordinate is in the block's range on its axis. -/
theorem mem_blk2 (t : Fin cfg2.N) (i : S2048x2048.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v68).slice (win2_2.rect t)).set ↔ _
  rw [View.set_slice_whole, Rect.mem_set_unit]
  exact Iff.rfl

/-- The blocks tile the output: every index is in the block of the point at (row / 512, column / 512). -/
theorem cover2 (i : S2048x2048.Idx) : ∃ t : Fin cfg2.N, (cfg2.win 2).flush t = true ∧ i ∈ ((cfg2.win 2).blk t).view.set := by
  have hi0 : (i 0).val < 2048 := (i 0).isLt
  have hi1 : (i 1).val < 2048 := (i 1).isLt
  obtain ⟨t, ht⟩ := idx_onto2 ⟨(i 0).val / 512, by omega⟩ ⟨(i 1).val / 512, by omega⟩
  have q0 : win2_2.index t (0 : Fin 2) = (i 0).val / 512 := congrFun ht 0
  have q1 : win2_2.index t (1 : Fin 2) = (i 1).val / 512 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 512 ≤ (i 1).val ∧ (i 1).val < win2_2.index t (1 : Fin 2) * 512 + 512; omega

/-- The output array after the run is the product. -/
theorem final2 (c : Dev nD) : (dat2 V c).arrAt 2 cfg2.N = prodT (N := 2048) (V c main_v67) (V c main_arg9) :=
  (dat2 V c).arrAt_eq_of_cover 2 _ (fun t _ => flushed2_eq V c t) (cover2)

end Cert.KernelIdeal.Regions

end
-- ==== Proof.IdealEnds.lean ====
/-
  The short host stretches of the kernel program read at an index, for any contents `W` of the core's buffers.
  Before the first region: the hidden states lose their unit axis (entry (s, k) is entry (0, s, k)) and the three weight
  matrices are stacked (row n is a query row for n < 2048, key row n - 2048 for n < 3072, else value row n - 3072).
  Between the attention region and the output projection the heads are laid side by side: column h * 128 + d of row s is
  lane d of head h at position s. After the last region the three results get a leading unit axis.
-/
import proofs.«120073_j44152263803384_1_alg».proof.Proof.Gen.KernelIdeal.Launch
import Idealize.ShloMosaic.Lib.StableHlo.Run
import Idealize.ShloMosaic.Lib.Pipeline.Value
import Idealize.ShloMosaic.Lib.ValueIdx
set_option maxRecDepth 16384
noncomputable section
namespace Cert.KernelIdeal.Ends

open Cert.KernelIdeal Cert.KernelIdeal.Gen
open Idealize.ShloMosaic Idealize.ShloMosaic.TcCoe Idealize.ShloMosaic.ValueIdx Idealize.SL.Sem

variable (W : Valuation τ sig (Elt Ideal))

/-! ## Before the first region: the hidden states without their unit axis, and the three weight matrices stacked -/

theorem v0_eq : (StableHlo.after (hostOps0 (F := Ideal)) W (Proc.devRef .tc main_v0) : S2048x2048.Idx → EReal)
    = shapeCast S2048x2048 (W (Proc.devRef .tc main_arg0)) shapeCasts_S1x2048x2048_S2048x2048 := by
  simp only [hostOps0]; after_results; rfl

theorem v1_eq : (StableHlo.after (hostOps0 (F := Ideal)) W (Proc.devRef .tc main_v1) : S4096x2048.Idx → EReal)
    = concatenate S4096x2048 0 [⟨S2048x2048, W (Proc.devRef .tc main_arg6)⟩, ⟨S1024x2048, W (Proc.devRef .tc main_arg7)⟩,
        ⟨S1024x2048, W (Proc.devRef .tc main_arg8)⟩] concatenates_S2048x2048_S1024x2048_S1024x2048_S4096x2048_d0 := by
  simp only [hostOps0]; after_results; rfl

/-- Row s, column k of the hidden states as the first region reads them. -/
theorem v0_apply (s k : Fin 2048) :
    (StableHlo.after (hostOps0 (F := Ideal)) W (Proc.devRef .tc main_v0) : S2048x2048.Idx → EReal) (ix2 s k)
      = (W (Proc.devRef .tc main_arg0) : S1x2048x2048.Idx → EReal) (ix3 0 s k) := by
  rw [v0_eq]
  refine shapeCast_apply _ _ (ix2 s k) (ix3 0 s k) ?_
  rw [Shape.rowMajor_val_three, Shape.rowMajor_val_two]
  show (0 * 2048 + s.val) * 2048 + k.val = s.val * 2048 + k.val
  omega

/-- Row n of the stacked weights: a query row below 2048, a key row below 3072, else a value row. -/
theorem v1_apply_q (n k : Fin 2048) :
    (StableHlo.after (hostOps0 (F := Ideal)) W (Proc.devRef .tc main_v1) : S4096x2048.Idx → EReal) (ix2 (n0 := 4096) ⟨n.val, by omega⟩ k)
      = (W (Proc.devRef .tc main_arg6) : S2048x2048.Idx → EReal) (ix2 n k) := by
  rw [v1_eq]
  refine concatenate_apply_piece (t := S4096x2048) (0 : Fin 2) [⟨S2048x2048, W (Proc.devRef .tc main_arg6)⟩, ⟨S1024x2048, W (Proc.devRef .tc main_arg7)⟩, ⟨S1024x2048, W (Proc.devRef .tc main_arg8)⟩] concatenates_S2048x2048_S1024x2048_S1024x2048_S4096x2048_d0 _ 0 (by show (0 : Nat) < 3; omega) S2048x2048 _ rfl rfl 0 rfl (ix2 n k) ?_ ?_
  · intro b hb; match b with
    | ⟨0, _⟩ => exact absurd rfl hb
    | ⟨1, _⟩ => rfl
  · show 0 + n.val = n.val
    omega

theorem v1_apply_k (n : Fin 1024) (k : Fin 2048) :
    (StableHlo.after (hostOps0 (F := Ideal)) W (Proc.devRef .tc main_v1) : S4096x2048.Idx → EReal) (ix2 (n0 := 4096) ⟨2048 + n.val, by omega⟩ k)
      = (W (Proc.devRef .tc main_arg7) : S1024x2048.Idx → EReal) (ix2 n k) := by
  rw [v1_eq]
  refine concatenate_apply_piece (t := S4096x2048) (0 : Fin 2) [⟨S2048x2048, W (Proc.devRef .tc main_arg6)⟩, ⟨S1024x2048, W (Proc.devRef .tc main_arg7)⟩, ⟨S1024x2048, W (Proc.devRef .tc main_arg8)⟩] concatenates_S2048x2048_S1024x2048_S1024x2048_S4096x2048_d0 _ 1 (by show (1 : Nat) < 3; omega) S1024x2048 _ rfl rfl 2048 rfl (ix2 n k) ?_ ?_
  · intro b hb; match b with
    | ⟨0, _⟩ => exact absurd rfl hb
    | ⟨1, _⟩ => rfl
  · rfl

theorem v1_apply_v (n : Fin 1024) (k : Fin 2048) :
    (StableHlo.after (hostOps0 (F := Ideal)) W (Proc.devRef .tc main_v1) : S4096x2048.Idx → EReal) (ix2 (n0 := 4096) ⟨3072 + n.val, by omega⟩ k)
      = (W (Proc.devRef .tc main_arg8) : S1024x2048.Idx → EReal) (ix2 n k) := by
  rw [v1_eq]
  refine concatenate_apply_piece (t := S4096x2048) (0 : Fin 2) [⟨S2048x2048, W (Proc.devRef .tc main_arg6)⟩, ⟨S1024x2048, W (Proc.devRef .tc main_arg7)⟩, ⟨S1024x2048, W (Proc.devRef .tc main_arg8)⟩] concatenates_S2048x2048_S1024x2048_S1024x2048_S4096x2048_d0 _ 2 (by show (2 : Nat) < 3; omega) S1024x2048 _ rfl rfl 3072 rfl (ix2 n k) ?_ ?_
  · intro b hb; match b with
    | ⟨0, _⟩ => exact absurd rfl hb
    | ⟨1, _⟩ => rfl
  · rfl

/-! ## Between the attention region and the output projection: the heads laid side by side -/

theorem v67_eq : (StableHlo.after (hostOps2 (F := Ideal)) W (Proc.devRef .tc main_v67) : S2048x2048.Idx → EReal)
    = shapeCast S2048x2048 (transpose S2048x16x128 [1, 0, 2] (W (Proc.devRef .tc main_v65)) transposes_S16x2048x128_S2048x16x128_1_0_2) shapeCasts_S2048x16x128_S2048x2048 := by
  simp only [hostOps2]; after_results; rfl

/-- Column h * 128 + d of row s is lane d of head h at position s. -/
theorem v67_apply (s : Fin 2048) (h : Fin 16) (d : Fin 128) :
    (StableHlo.after (hostOps2 (F := Ideal)) W (Proc.devRef .tc main_v67) : S2048x2048.Idx → EReal) (ix2 (n1 := 2048) s ⟨h.val * 128 + d.val, by omega⟩)
      = (W (Proc.devRef .tc main_v65) : S16x2048x128.Idx → EReal) (ix3 h s d) := by
  rw [v67_eq]
  refine (shapeCast_apply _ _ (ix2 (n1 := 2048) s ⟨h.val * 128 + d.val, by omega⟩) (ix3 s h d) ?_).trans ?_
  · rw [Shape.rowMajor_val_three, Shape.rowMajor_val_two]
    show (s.val * 16 + h.val) * 128 + d.val = s.val * 2048 + (h.val * 128 + d.val)
    omega
  · refine transpose_apply _ _ _ (ix3 s h d) (ix3 h s d) ?_
    intro b; match b with
    | ⟨0, _⟩ => rfl
    | ⟨1, _⟩ => rfl
    | ⟨2, _⟩ => rfl

/-! ## After the last region: the three results get their unit axis back -/

theorem v69_apply (i : S1x2048x2048.Idx) :
    (StableHlo.after (hostOps3 (F := Ideal)) W (Proc.devRef .tc main_v69) : S1x2048x2048.Idx → EReal) i
      = (W (Proc.devRef .tc main_v68) : S2048x2048.Idx → EReal) (ix2 (i 1) (i 2)) := by
  have e : (StableHlo.after (hostOps3 (F := Ideal)) W (Proc.devRef .tc main_v69) : S1x2048x2048.Idx → EReal)
      = broadcastInDim S1x2048x2048 ![1, 2] bcast_S2048x2048_S1x2048x2048_1_2 (W (Proc.devRef .tc main_v68)) := by
    simp only [hostOps3]; after_results; try rfl
  rw [e]
  refine broadcastInDim_apply _ _ _ i (ix2 (i 1) (i 2)) ?_
  intro a; match a with
  | ⟨0, _⟩ => rfl
  | ⟨1, _⟩ => rfl

theorem v70_apply (i : S1x8x2048x128.Idx) :
    (StableHlo.after (hostOps3 (F := Ideal)) W (Proc.devRef .tc main_v70) : S1x8x2048x128.Idx → EReal) i
      = (W (Proc.devRef .tc main_v59) : S8x2048x128.Idx → EReal) (ix3 (i 1) (i 2) (i 3)) := by
  have e : (StableHlo.after (hostOps3 (F := Ideal)) W (Proc.devRef .tc main_v70) : S1x8x2048x128.Idx → EReal)
      = broadcastInDim S1x8x2048x128 ![1, 2, 3] bcast_S8x2048x128_S1x8x2048x128_1_2_3 (W (Proc.devRef .tc main_v59)) := by
    simp only [hostOps3]; after_results; try rfl
  rw [e]
  refine broadcastInDim_apply _ _ _ i (ix3 (i 1) (i 2) (i 3)) ?_
  intro a; match a with
  | ⟨0, _⟩ => rfl
  | ⟨1, _⟩ => rfl
  | ⟨2, _⟩ => rfl

theorem v71_apply (i : S1x8x2048x128.Idx) :
    (StableHlo.after (hostOps3 (F := Ideal)) W (Proc.devRef .tc main_v71) : S1x8x2048x128.Idx → EReal) i
      = (W (Proc.devRef .tc main_v11) : S8x2048x128.Idx → EReal) (ix3 (i 1) (i 2) (i 3)) := by
  have e : (StableHlo.after (hostOps3 (F := Ideal)) W (Proc.devRef .tc main_v71) : S1x8x2048x128.Idx → EReal)
      = broadcastInDim S1x8x2048x128 ![1, 2, 3] bcast_S8x2048x128_S1x8x2048x128_1_2_3 (W (Proc.devRef .tc main_v11)) := by
    simp only [hostOps3]; after_results; try rfl
  rw [e]
  refine broadcastInDim_apply _ _ _ i (ix3 (i 1) (i 2) (i 3)) ?_
  intro a; match a with
  | ⟨0, _⟩ => rfl
  | ⟨1, _⟩ => rfl
  | ⟨2, _⟩ => rfl

end Cert.KernelIdeal.Ends
end
-- ==== Proof.Coords.lean ====
/-
  The twelve argument arrays read at coordinates, and the layer's three results as whole arrays: what the kernel's run
  and the reference's run are both shown to hold. An argument of shape [1, 2048, 2048] is read at (0, s, k), the mask of
  shape [1, 1, 2048, 4096] at (0, 0, s, j), a cache of shape [1, 8, 2048, 128] at (0, g, s, d), a weight matrix at
  (n, k), a norm weight at (d).
-/
import Idealize.ShloMosaic.Lib.ValueIdx
import proofs.«120073_j44152263803384_1_alg».proof.Proof.Spec

noncomputable section

namespace Cert.Spec

open Idealize.ShloMosaic Idealize.ShloMosaic.ValueIdx

abbrev ShHid : Shape := ⟨3, ![1, 2048, 2048]⟩
abbrev ShTab : Shape := ⟨3, ![1, 2048, 128]⟩
abbrev ShMask : Shape := ⟨4, ![1, 1, 2048, 4096]⟩
abbrev ShCache : Shape := ⟨4, ![1, 8, 2048, 128]⟩
abbrev ShWq : Shape := ⟨2, ![2048, 2048]⟩
abbrev ShWk : Shape := ⟨2, ![1024, 2048]⟩
abbrev ShNorm : Shape := ⟨1, ![128]⟩

def hidAt (a : ShHid.Idx → EReal) (s : Fin 2048) (k : Fin 2048) : EReal := a (ix3 0 s k)
def tabAt (a : ShTab.Idx → EReal) (s : Fin 2048) (d : Fin 128) : EReal := a (ix3 0 s d)
def maskAt (a : ShMask.Idx → EReal) (s : Fin 2048) (j : Fin 4096) : EReal := a (ix4 0 0 s j)
def cacheAt (a : ShCache.Idx → EReal) (g : Fin 8) (s : Fin 2048) (d : Fin 128) : EReal := a (ix4 0 g s d)
def wqAt (a : ShWq.Idx → EReal) (n : Fin (16 * 128)) (k : Fin 2048) : EReal := a (ix2 (n0 := 2048) n k)
def wkAt (a : ShWk.Idx → EReal) (n : Fin (8 * 128)) (k : Fin 2048) : EReal := a (ix2 (n0 := 1024) n k)
def woAt (a : ShWq.Idx → EReal) (n : Fin 2048) (k : Fin 2048) : EReal := a (ix2 n k)
def normAt (a : ShNorm.Idx → EReal) (d : Fin 128) : EReal := a (ix1 d)

variable (a0 : ShHid.Idx → EReal) (a1 a2 : ShTab.Idx → EReal) (a3 : ShMask.Idx → EReal) (a4 a5 : ShCache.Idx → EReal)
  (a6 : ShWq.Idx → EReal) (a7 a8 : ShWk.Idx → EReal) (a9 : ShWq.Idx → EReal) (a10 a11 : ShNorm.Idx → EReal)

/-- The layer's output, shape [1, 2048, 2048]: entry (0, s, n). -/
def layerOut : ShHid.Idx → EReal := fun i =>
  out (hidAt a0) (tabAt a1) (tabAt a2) (maskAt a3) (cacheAt a4) (cacheAt a5) (wqAt a6) (wkAt a7) (wkAt a8) (woAt a9) (normAt a10) (normAt a11) (i 1) (i 2)

/-- The new keys, shape [1, 8, 2048, 128]: entry (0, g, s, d). -/
def layerKey : ShCache.Idx → EReal := fun i =>
  k (hidAt a0) (tabAt a1) (tabAt a2) (wkAt a7) (normAt a11) (i 1) (i 2) (i 3)

/-- The new values, shape [1, 8, 2048, 128]: entry (0, g, s, d). -/
def layerVal : ShCache.Idx → EReal := fun i =>
  v (hidAt a0) (wkAt a8) (i 1) (i 2) (i 3)

end Cert.Spec

end
-- ==== Proof.GlueOps.lean ====
/-
  The host operations of the attention layer that sit between its projection and its attention kernel, read at an
  index. Each lemma takes an operation's (or a short chain's) operands as variables over literal shapes and says what
  the result holds at given coordinates:

    columns     a column block of the fused projection, reshaped to heads and transposed, at (head, row, lane) is the
                projection at (row, offset + head * 128 + lane);
    rms         the square, the sum over the 128 lanes from the zero word, the quotient by the word 128, the small
                constant added, the reciprocal square root broadcast back, the product with the vector and then with the
                per-lane weight: the root-mean-square normalisation of the specification;
    tables      a [1, 2048, 128] table reshaped to [2048, 128] and given back its unit axis is itself;
    rot         the vector times the cosine table plus (minus the upper half, then the lower half) times the sine
                table: the rotary embedding of the specification;
    cache       a cache with its unit axis dropped, followed along the positions by 2048 new rows;
    mask        the mask with its two unit axes dropped.

  Nothing here needs a law of the extended reals: every step re-indexes.
-/
import proofs.«120073_j44152263803384_1_alg».proof.Proof.Gen.KernelIdeal.Launch
import proofs.«120073_j44152263803384_1_alg».proof.Proof.Coords
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Glue

open Cert.KernelIdeal
open Idealize.ShloMosaic Idealize.ShloMosaic.ValueIdx

/-! ## The projection's column blocks, as heads -/

/-- The query block (columns 0 ... 2047) as [16, 2048, 128]. -/
theorem qCols_read (X : FVec Ideal S2048x4096 .f32)
    (hs : S2048x4096.Slices ![0, 0] S2048x2048) (hc : S2048x2048.ShapeCasts S2048x16x128)
    (ht : S2048x16x128.Transposes [1, 0, 2] S16x2048x128) (h : Fin 16) (s : Fin 2048) (e : Fin 128) :
    transpose S16x2048x128 [1, 0, 2] (shapeCast S2048x16x128 (extractStridedSlice S2048x2048 ![0, 0] X hs) hc) ht (ix3 h s e)
      = X (ix2 s (⟨h.val * 128 + e.val, by have := h.isLt; have := e.isLt; omega⟩ : Fin 4096)) := by
  have hh := h.isLt; have he := e.isLt
  refine (transpose_apply [1, 0, 2] _ ht (ix3 h s e) (ix3 s h e)
    (fun b => match b with | ⟨0, _⟩ => rfl | ⟨1, _⟩ => rfl | ⟨2, _⟩ => rfl)).trans ?_
  refine (shapeCast_apply _ hc (ix3 s h e) (ix2 s (⟨h.val * 128 + e.val, by omega⟩ : Fin 2048)) ?_).trans ?_
  · rw [Shape.rowMajor_val_two, Shape.rowMajor_val_three]
    show s.val * 2048 + (h.val * 128 + e.val) = (s.val * 16 + h.val) * 128 + e.val
    omega
  · exact slice2_axis1_apply 0 X hs s _ _ (by show h.val * 128 + e.val = 0 + (h.val * 128 + e.val); omega)

/-- A key or value block (1024 columns from column `o`) as [8, 2048, 128]. -/
theorem kvCols_read (o : Nat) (ho : o + 1024 ≤ 4096) (X : FVec Ideal S2048x4096 .f32)
    (hs : S2048x4096.Slices ![0, o] S2048x1024) (hc : S2048x1024.ShapeCasts S2048x8x128)
    (ht : S2048x8x128.Transposes [1, 0, 2] S8x2048x128) (g : Fin 8) (s : Fin 2048) (e : Fin 128) :
    transpose S8x2048x128 [1, 0, 2] (shapeCast S2048x8x128 (extractStridedSlice S2048x1024 ![0, o] X hs) hc) ht (ix3 g s e)
      = X (ix2 s (⟨o + g.val * 128 + e.val, by have := g.isLt; have := e.isLt; omega⟩ : Fin 4096)) := by
  have hg := g.isLt; have he := e.isLt
  refine (transpose_apply [1, 0, 2] _ ht (ix3 g s e) (ix3 s g e)
    (fun b => match b with | ⟨0, _⟩ => rfl | ⟨1, _⟩ => rfl | ⟨2, _⟩ => rfl)).trans ?_
  refine (shapeCast_apply _ hc (ix3 s g e) (ix2 s (⟨g.val * 128 + e.val, by omega⟩ : Fin 1024)) ?_).trans ?_
  · rw [Shape.rowMajor_val_two, Shape.rowMajor_val_three]
    show s.val * 1024 + (g.val * 128 + e.val) = (s.val * 8 + g.val) * 128 + e.val
    omega
  · exact slice2_axis1_apply o X hs s _ _ (by show o + g.val * 128 + e.val = o + (g.val * 128 + e.val); omega)

/-! ## The root-mean-square normalisation -/

/-- The root-mean-square normalisation of the 16 heads' vectors. -/
theorem rmsQ_read (x : FVec Ideal S16x2048x128 .f32) (w : FVec Ideal S128 .f32)
    (hr : S16x2048x128.ReducesTo [2] S16x2048) (h0 : 0 < S_.numel)
    (hb1 : S16x2048.BroadcastsInDim S16x2048x1 (![0, 1] : Fin 2 → Fin S16x2048x1.rank))
    (hb0 : S_.BroadcastsInDim S16x2048x1 (![] : Fin 0 → Fin S16x2048x1.rank))
    (hb2 : S16x2048x1.BroadcastsInDim S16x2048x128 (![0, 1, 2] : Fin 3 → Fin S16x2048x128.rank))
    (hw1 : S128.BroadcastsInDim S1x1x128 (![2] : Fin 1 → Fin S1x1x128.rank))
    (hw2 : S1x1x128.BroadcastsInDim S16x2048x128 (![0, 1, 2] : Fin 3 → Fin S16x2048x128.rank))
    (h : Fin 16) (s : Fin 2048) (d : Fin 128) :
    (mulf (mulf x (broadcastInDim S16x2048x128 ![0, 1, 2] hb2 (Host.rsqrt (addf
        (Host.divf (broadcastInDim S16x2048x1 ![0, 1] hb1 (Host.reduceAdd (mulf x x) (constant (F := Ideal) S_ .f32 0x00000000#32) hr h0))
          (broadcastInDim S16x2048x1 ![] hb0 (constant (F := Ideal) S_ .f32 0x43000000#32)))
        (broadcastInDim S16x2048x1 ![] hb0 (constant (F := Ideal) S_ .f32 0x358637BD#32))))))
      (broadcastInDim S16x2048x128 ![0, 1, 2] hw2 (broadcastInDim S1x1x128 ![2] hw1 w)) : FVec Ideal S16x2048x128 .f32) (ix3 h s d)
      = Cert.Spec.rms (fun e => x (ix3 h s e)) (fun e => w (ix1 e)) d := by
  -- the weight, broadcast twice
  have e_w : (broadcastInDim S16x2048x128 ![0, 1, 2] hw2 (broadcastInDim S1x1x128 ![2] hw1 w)) (ix3 h s d) = w (ix1 d) :=
    (broadcastInDim_apply _ hw2 _ (ix3 h s d) (ix3 (0 : Fin 1) (0 : Fin 1) d) (fun a => match a with
      | ⟨0, _⟩ => by show 0 = if (1 : Nat) = 1 then 0 else h.val; rw [if_pos rfl]
      | ⟨1, _⟩ => by show 0 = if (1 : Nat) = 1 then 0 else s.val; rw [if_pos rfl]
      | ⟨2, _⟩ => by show d.val = if (128 : Nat) = 1 then 0 else d.val; rw [if_neg (by decide)])).trans
    (broadcastInDim_apply _ hw1 w (ix3 (0 : Fin 1) (0 : Fin 1) d) (ix1 d) (fun a => match a with
      | ⟨0, _⟩ => by show d.val = if (128 : Nat) = 1 then 0 else d.val; rw [if_neg (by decide)]))
  -- the sum of squares over the lanes, from the zero word
  have e_sum : Host.reduceAdd (mulf x x) (constant (F := Ideal) S_ .f32 0x00000000#32) hr h0 (ix2 h s)
      = Cert.Spec.zeroW + ∑ e : Fin 128, x (ix3 h s e) * x (ix3 h s e) := by
    simp only [Host.reduceAdd, Ideal.hostReduceAdd_def]
    rw [Ideal.hostReduceAdd_single hr (by decide)]
    refine congrArg (Cert.Spec.zeroW + ·) (Finset.sum_congr rfl fun k _ => ?_)
    exact congrArg (mulf x x) (funext fun a => Fin.ext (by
      match a with | ⟨0, _⟩ => rfl | ⟨1, _⟩ => rfl | ⟨2, _⟩ => rfl))
  -- the scale: one value per (head, row), broadcast over the lanes
  have e_scale : (broadcastInDim S16x2048x128 ![0, 1, 2] hb2 (Host.rsqrt (addf
        (Host.divf (broadcastInDim S16x2048x1 ![0, 1] hb1 (Host.reduceAdd (mulf x x) (constant (F := Ideal) S_ .f32 0x00000000#32) hr h0))
          (broadcastInDim S16x2048x1 ![] hb0 (constant (F := Ideal) S_ .f32 0x43000000#32)))
        (broadcastInDim S16x2048x1 ![] hb0 (constant (F := Ideal) S_ .f32 0x358637BD#32))))) (ix3 h s d)
      = Ideal.rsqrt (Ideal.div (Cert.Spec.zeroW + ∑ e : Fin 128, x (ix3 h s e) * x (ix3 h s e)) Cert.Spec.lanesW + Cert.Spec.epsW) := by
    refine (broadcastInDim_apply _ hb2 _ (ix3 h s d) (ix3 h s (0 : Fin 1)) (fun a => match a with
      | ⟨0, _⟩ => by show h.val = if (16 : Nat) = 1 then 0 else h.val; rw [if_neg (by decide)]
      | ⟨1, _⟩ => by show s.val = if (2048 : Nat) = 1 then 0 else s.val; rw [if_neg (by decide)]
      | ⟨2, _⟩ => by show 0 = if (1 : Nat) = 1 then 0 else d.val; rw [if_pos rfl])).trans ?_
    show Ideal.rsqrt (Ideal.div
        ((broadcastInDim S16x2048x1 ![0, 1] hb1 (Host.reduceAdd (mulf x x) (constant (F := Ideal) S_ .f32 0x00000000#32) hr h0)) (ix3 h s (0 : Fin 1)))
        ((broadcastInDim S16x2048x1 ![] hb0 (constant (F := Ideal) S_ .f32 0x43000000#32)) (ix3 h s (0 : Fin 1)))
      + (broadcastInDim S16x2048x1 ![] hb0 (constant (F := Ideal) S_ .f32 0x358637BD#32)) (ix3 h s (0 : Fin 1))) = _
    rw [broadcastInDim_apply _ hb1 _ (ix3 h s (0 : Fin 1)) (ix2 h s) (fun a => match a with
        | ⟨0, _⟩ => by show h.val = if (16 : Nat) = 1 then 0 else h.val; rw [if_neg (by decide)]
        | ⟨1, _⟩ => by show s.val = if (2048 : Nat) = 1 then 0 else s.val; rw [if_neg (by decide)]),
      broadcastInDim_apply _ hb0 (constant (F := Ideal) S_ .f32 0x43000000#32) (ix3 h s (0 : Fin 1)) ix0 (fun a => a.elim0),
      broadcastInDim_apply _ hb0 (constant (F := Ideal) S_ .f32 0x358637BD#32) (ix3 h s (0 : Fin 1)) ix0 (fun a => a.elim0),
      e_sum]
    rfl
  exact congrArg₂ (· * ·) (congrArg (x (ix3 h s d) * ·) e_scale) e_w

/-- The root-mean-square normalisation of the 8 heads' vectors. -/
theorem rmsK_read (x : FVec Ideal S8x2048x128 .f32) (w : FVec Ideal S128 .f32)
    (hr : S8x2048x128.ReducesTo [2] S8x2048) (h0 : 0 < S_.numel)
    (hb1 : S8x2048.BroadcastsInDim S8x2048x1 (![0, 1] : Fin 2 → Fin S8x2048x1.rank))
    (hb0 : S_.BroadcastsInDim S8x2048x1 (![] : Fin 0 → Fin S8x2048x1.rank))
    (hb2 : S8x2048x1.BroadcastsInDim S8x2048x128 (![0, 1, 2] : Fin 3 → Fin S8x2048x128.rank))
    (hw1 : S128.BroadcastsInDim S1x1x128 (![2] : Fin 1 → Fin S1x1x128.rank))
    (hw2 : S1x1x128.BroadcastsInDim S8x2048x128 (![0, 1, 2] : Fin 3 → Fin S8x2048x128.rank))
    (h : Fin 8) (s : Fin 2048) (d : Fin 128) :
    (mulf (mulf x (broadcastInDim S8x2048x128 ![0, 1, 2] hb2 (Host.rsqrt (addf
        (Host.divf (broadcastInDim S8x2048x1 ![0, 1] hb1 (Host.reduceAdd (mulf x x) (constant (F := Ideal) S_ .f32 0x00000000#32) hr h0))
          (broadcastInDim S8x2048x1 ![] hb0 (constant (F := Ideal) S_ .f32 0x43000000#32)))
        (broadcastInDim S8x2048x1 ![] hb0 (constant (F := Ideal) S_ .f32 0x358637BD#32))))))
      (broadcastInDim S8x2048x128 ![0, 1, 2] hw2 (broadcastInDim S1x1x128 ![2] hw1 w)) : FVec Ideal S8x2048x128 .f32) (ix3 h s d)
      = Cert.Spec.rms (fun e => x (ix3 h s e)) (fun e => w (ix1 e)) d := by
  -- the weight, broadcast twice
  have e_w : (broadcastInDim S8x2048x128 ![0, 1, 2] hw2 (broadcastInDim S1x1x128 ![2] hw1 w)) (ix3 h s d) = w (ix1 d) :=
    (broadcastInDim_apply _ hw2 _ (ix3 h s d) (ix3 (0 : Fin 1) (0 : Fin 1) d) (fun a => match a with
      | ⟨0, _⟩ => by show 0 = if (1 : Nat) = 1 then 0 else h.val; rw [if_pos rfl]
      | ⟨1, _⟩ => by show 0 = if (1 : Nat) = 1 then 0 else s.val; rw [if_pos rfl]
      | ⟨2, _⟩ => by show d.val = if (128 : Nat) = 1 then 0 else d.val; rw [if_neg (by decide)])).trans
    (broadcastInDim_apply _ hw1 w (ix3 (0 : Fin 1) (0 : Fin 1) d) (ix1 d) (fun a => match a with
      | ⟨0, _⟩ => by show d.val = if (128 : Nat) = 1 then 0 else d.val; rw [if_neg (by decide)]))
  -- the sum of squares over the lanes, from the zero word
  have e_sum : Host.reduceAdd (mulf x x) (constant (F := Ideal) S_ .f32 0x00000000#32) hr h0 (ix2 h s)
      = Cert.Spec.zeroW + ∑ e : Fin 128, x (ix3 h s e) * x (ix3 h s e) := by
    simp only [Host.reduceAdd, Ideal.hostReduceAdd_def]
    rw [Ideal.hostReduceAdd_single hr (by decide)]
    refine congrArg (Cert.Spec.zeroW + ·) (Finset.sum_congr rfl fun k _ => ?_)
    exact congrArg (mulf x x) (funext fun a => Fin.ext (by
      match a with | ⟨0, _⟩ => rfl | ⟨1, _⟩ => rfl | ⟨2, _⟩ => rfl))
  -- the scale: one value per (head, row), broadcast over the lanes
  have e_scale : (broadcastInDim S8x2048x128 ![0, 1, 2] hb2 (Host.rsqrt (addf
        (Host.divf (broadcastInDim S8x2048x1 ![0, 1] hb1 (Host.reduceAdd (mulf x x) (constant (F := Ideal) S_ .f32 0x00000000#32) hr h0))
          (broadcastInDim S8x2048x1 ![] hb0 (constant (F := Ideal) S_ .f32 0x43000000#32)))
        (broadcastInDim S8x2048x1 ![] hb0 (constant (F := Ideal) S_ .f32 0x358637BD#32))))) (ix3 h s d)
      = Ideal.rsqrt (Ideal.div (Cert.Spec.zeroW + ∑ e : Fin 128, x (ix3 h s e) * x (ix3 h s e)) Cert.Spec.lanesW + Cert.Spec.epsW) := by
    refine (broadcastInDim_apply _ hb2 _ (ix3 h s d) (ix3 h s (0 : Fin 1)) (fun a => match a with
      | ⟨0, _⟩ => by show h.val = if (8 : Nat) = 1 then 0 else h.val; rw [if_neg (by decide)]
      | ⟨1, _⟩ => by show s.val = if (2048 : Nat) = 1 then 0 else s.val; rw [if_neg (by decide)]
      | ⟨2, _⟩ => by show 0 = if (1 : Nat) = 1 then 0 else d.val; rw [if_pos rfl])).trans ?_
    show Ideal.rsqrt (Ideal.div
        ((broadcastInDim S8x2048x1 ![0, 1] hb1 (Host.reduceAdd (mulf x x) (constant (F := Ideal) S_ .f32 0x00000000#32) hr h0)) (ix3 h s (0 : Fin 1)))
        ((broadcastInDim S8x2048x1 ![] hb0 (constant (F := Ideal) S_ .f32 0x43000000#32)) (ix3 h s (0 : Fin 1)))
      + (broadcastInDim S8x2048x1 ![] hb0 (constant (F := Ideal) S_ .f32 0x358637BD#32)) (ix3 h s (0 : Fin 1))) = _
    rw [broadcastInDim_apply _ hb1 _ (ix3 h s (0 : Fin 1)) (ix2 h s) (fun a => match a with
        | ⟨0, _⟩ => by show h.val = if (8 : Nat) = 1 then 0 else h.val; rw [if_neg (by decide)]
        | ⟨1, _⟩ => by show s.val = if (2048 : Nat) = 1 then 0 else s.val; rw [if_neg (by decide)]),
      broadcastInDim_apply _ hb0 (constant (F := Ideal) S_ .f32 0x43000000#32) (ix3 h s (0 : Fin 1)) ix0 (fun a => a.elim0),
      broadcastInDim_apply _ hb0 (constant (F := Ideal) S_ .f32 0x358637BD#32) (ix3 h s (0 : Fin 1)) ix0 (fun a => a.elim0),
      e_sum]
    rfl
  exact congrArg₂ (· * ·) (congrArg (x (ix3 h s d) * ·) e_scale) e_w

/-! ## The rotary tables -/

/-- A table reshaped to [2048, 128] and given back its unit axis. -/
theorem tab_read (a : FVec Ideal S1x2048x128 .f32) (hc : S1x2048x128.ShapeCasts S2048x128)
    (hb : S2048x128.BroadcastsInDim S1x2048x128 (![1, 2] : Fin 2 → Fin S1x2048x128.rank)) (s : Fin 2048) (d : Fin 128) :
    broadcastInDim S1x2048x128 ![1, 2] hb (shapeCast S2048x128 a hc) (ix3 (0 : Fin 1) s d) = Cert.Spec.tabAt a s d :=
  (broadcastInDim_apply _ hb _ (ix3 (0 : Fin 1) s d) (ix2 s d) (fun b => match b with
    | ⟨0, _⟩ => by show s.val = if (2048 : Nat) = 1 then 0 else s.val; rw [if_neg (by decide)]
    | ⟨1, _⟩ => by show d.val = if (128 : Nat) = 1 then 0 else d.val; rw [if_neg (by decide)])).trans
  (shapeCast_1ab_ab_apply a hc s d)

/-! ## The rotary embedding -/

/-- The rotary embedding of the 16 heads' vectors. -/
theorem rotQ_read (x : FVec Ideal S16x2048x128 .f32) (c sn : FVec Ideal S1x2048x128 .f32)
    (hbt : S1x2048x128.BroadcastsInDim S16x2048x128 (![0, 1, 2] : Fin 3 → Fin S16x2048x128.rank))
    (hlo : S16x2048x128.Slices ![0, 0, 0] S16x2048x64) (hhi : S16x2048x128.Slices ![0, 0, 64] S16x2048x64)
    (hcat : Shape.Concatenates [S16x2048x64, S16x2048x64] S16x2048x128 2)
    (h : Fin 16) (s : Fin 2048) (d : Fin 128) :
    (addf (mulf x (broadcastInDim S16x2048x128 ![0, 1, 2] hbt c))
      (mulf (concatenate S16x2048x128 2 [⟨S16x2048x64, Host.negf (extractStridedSlice S16x2048x64 ![0, 0, 64] x hhi)⟩,
          ⟨S16x2048x64, extractStridedSlice S16x2048x64 ![0, 0, 0] x hlo⟩] hcat)
        (broadcastInDim S16x2048x128 ![0, 1, 2] hbt sn)) : FVec Ideal S16x2048x128 .f32) (ix3 h s d)
      = Cert.Spec.rot (fun e => x (ix3 h s e)) (fun e => c (ix3 (0 : Fin 1) s e)) (fun e => sn (ix3 (0 : Fin 1) s e)) d := by
  have hd := d.isLt
  -- a table broadcast over the heads
  have e_tab : ∀ t : FVec Ideal S1x2048x128 .f32, (broadcastInDim S16x2048x128 ![0, 1, 2] hbt t) (ix3 h s d) = t (ix3 (0 : Fin 1) s d) :=
    fun t => broadcastInDim_apply _ hbt t (ix3 h s d) (ix3 (0 : Fin 1) s d) (fun a => match a with
      | ⟨0, _⟩ => by show 0 = if (1 : Nat) = 1 then 0 else h.val; rw [if_pos rfl]
      | ⟨1, _⟩ => by show s.val = if (2048 : Nat) = 1 then 0 else s.val; rw [if_neg (by decide)]
      | ⟨2, _⟩ => by show d.val = if (128 : Nat) = 1 then 0 else d.val; rw [if_neg (by decide)])
  -- the half rotation: minus the upper half, then the lower half
  have e_half : concatenate S16x2048x128 2 [⟨S16x2048x64, Host.negf (extractStridedSlice S16x2048x64 ![0, 0, 64] x hhi)⟩,
        ⟨S16x2048x64, extractStridedSlice S16x2048x64 ![0, 0, 0] x hlo⟩] hcat (ix3 h s d)
      = Cert.Spec.rotHalf (fun e => x (ix3 h s e)) d := by
    unfold Cert.Spec.rotHalf
    by_cases hlt : d.val < 64
    · rw [dif_pos hlt]
      refine (concatenate_pair_apply_left (2 : Fin S16x2048x128.rank) _ _ hcat (ix3 h s d) rfl (ix3 h s (⟨d.val, hlt⟩ : Fin 64))
        (fun b => match b with | ⟨0, _⟩ => rfl | ⟨1, _⟩ => rfl | ⟨2, _⟩ => rfl)).trans ?_
      show -((extractStridedSlice S16x2048x64 ![0, 0, 64] x hhi) (ix3 h s (⟨d.val, hlt⟩ : Fin 64))) = _
      refine congrArg (fun t => -t) ?_
      exact extractStridedSlice_apply _ x hhi _ (ix3 h s (⟨d.val + 64, by omega⟩ : Fin 128)) (fun a => match a with
        | ⟨0, _⟩ => by show h.val = 0 + h.val; omega
        | ⟨1, _⟩ => by show s.val = 0 + s.val; omega
        | ⟨2, _⟩ => by show d.val + 64 = 64 + d.val; omega)
    · rw [dif_neg hlt]
      refine (concatenate_pair_apply_right (2 : Fin S16x2048x128.rank) _ _ hcat (ix3 h s d) rfl rfl (ix3 h s (⟨d.val - 64, by omega⟩ : Fin 64))
        (fun b => match b with
          | ⟨0, _⟩ => fun _ => rfl
          | ⟨1, _⟩ => fun _ => rfl
          | ⟨2, _⟩ => fun hne => absurd rfl hne)
        (by show (d.val - 64) + 64 = d.val; omega)).trans ?_
      exact extractStridedSlice_apply _ x hlo _ (ix3 h s (⟨d.val - 64, by omega⟩ : Fin 128)) (fun a => match a with
        | ⟨0, _⟩ => by show h.val = 0 + h.val; omega
        | ⟨1, _⟩ => by show s.val = 0 + s.val; omega
        | ⟨2, _⟩ => by show d.val - 64 = 0 + (d.val - 64); omega)
  exact congrArg₂ (· + ·) (congrArg (x (ix3 h s d) * ·) (e_tab c)) (congrArg₂ (· * ·) e_half (e_tab sn))

/-- The rotary embedding of the 8 heads' vectors. -/
theorem rotK_read (x : FVec Ideal S8x2048x128 .f32) (c sn : FVec Ideal S1x2048x128 .f32)
    (hbt : S1x2048x128.BroadcastsInDim S8x2048x128 (![0, 1, 2] : Fin 3 → Fin S8x2048x128.rank))
    (hlo : S8x2048x128.Slices ![0, 0, 0] S8x2048x64) (hhi : S8x2048x128.Slices ![0, 0, 64] S8x2048x64)
    (hcat : Shape.Concatenates [S8x2048x64, S8x2048x64] S8x2048x128 2)
    (h : Fin 8) (s : Fin 2048) (d : Fin 128) :
    (addf (mulf x (broadcastInDim S8x2048x128 ![0, 1, 2] hbt c))
      (mulf (concatenate S8x2048x128 2 [⟨S8x2048x64, Host.negf (extractStridedSlice S8x2048x64 ![0, 0, 64] x hhi)⟩,
          ⟨S8x2048x64, extractStridedSlice S8x2048x64 ![0, 0, 0] x hlo⟩] hcat)
        (broadcastInDim S8x2048x128 ![0, 1, 2] hbt sn)) : FVec Ideal S8x2048x128 .f32) (ix3 h s d)
      = Cert.Spec.rot (fun e => x (ix3 h s e)) (fun e => c (ix3 (0 : Fin 1) s e)) (fun e => sn (ix3 (0 : Fin 1) s e)) d := by
  have hd := d.isLt
  -- a table broadcast over the heads
  have e_tab : ∀ t : FVec Ideal S1x2048x128 .f32, (broadcastInDim S8x2048x128 ![0, 1, 2] hbt t) (ix3 h s d) = t (ix3 (0 : Fin 1) s d) :=
    fun t => broadcastInDim_apply _ hbt t (ix3 h s d) (ix3 (0 : Fin 1) s d) (fun a => match a with
      | ⟨0, _⟩ => by show 0 = if (1 : Nat) = 1 then 0 else h.val; rw [if_pos rfl]
      | ⟨1, _⟩ => by show s.val = if (2048 : Nat) = 1 then 0 else s.val; rw [if_neg (by decide)]
      | ⟨2, _⟩ => by show d.val = if (128 : Nat) = 1 then 0 else d.val; rw [if_neg (by decide)])
  -- the half rotation: minus the upper half, then the lower half
  have e_half : concatenate S8x2048x128 2 [⟨S8x2048x64, Host.negf (extractStridedSlice S8x2048x64 ![0, 0, 64] x hhi)⟩,
        ⟨S8x2048x64, extractStridedSlice S8x2048x64 ![0, 0, 0] x hlo⟩] hcat (ix3 h s d)
      = Cert.Spec.rotHalf (fun e => x (ix3 h s e)) d := by
    unfold Cert.Spec.rotHalf
    by_cases hlt : d.val < 64
    · rw [dif_pos hlt]
      refine (concatenate_pair_apply_left (2 : Fin S8x2048x128.rank) _ _ hcat (ix3 h s d) rfl (ix3 h s (⟨d.val, hlt⟩ : Fin 64))
        (fun b => match b with | ⟨0, _⟩ => rfl | ⟨1, _⟩ => rfl | ⟨2, _⟩ => rfl)).trans ?_
      show -((extractStridedSlice S8x2048x64 ![0, 0, 64] x hhi) (ix3 h s (⟨d.val, hlt⟩ : Fin 64))) = _
      refine congrArg (fun t => -t) ?_
      exact extractStridedSlice_apply _ x hhi _ (ix3 h s (⟨d.val + 64, by omega⟩ : Fin 128)) (fun a => match a with
        | ⟨0, _⟩ => by show h.val = 0 + h.val; omega
        | ⟨1, _⟩ => by show s.val = 0 + s.val; omega
        | ⟨2, _⟩ => by show d.val + 64 = 64 + d.val; omega)
    · rw [dif_neg hlt]
      refine (concatenate_pair_apply_right (2 : Fin S8x2048x128.rank) _ _ hcat (ix3 h s d) rfl rfl (ix3 h s (⟨d.val - 64, by omega⟩ : Fin 64))
        (fun b => match b with
          | ⟨0, _⟩ => fun _ => rfl
          | ⟨1, _⟩ => fun _ => rfl
          | ⟨2, _⟩ => fun hne => absurd rfl hne)
        (by show (d.val - 64) + 64 = d.val; omega)).trans ?_
      exact extractStridedSlice_apply _ x hlo _ (ix3 h s (⟨d.val - 64, by omega⟩ : Fin 128)) (fun a => match a with
        | ⟨0, _⟩ => by show h.val = 0 + h.val; omega
        | ⟨1, _⟩ => by show s.val = 0 + s.val; omega
        | ⟨2, _⟩ => by show d.val - 64 = 0 + (d.val - 64); omega)
  exact congrArg₂ (· + ·) (congrArg (x (ix3 h s d) * ·) (e_tab c)) (congrArg₂ (· * ·) e_half (e_tab sn))

/-! ## The cache followed by the new rows, and the mask -/

/-- A cache with its unit axis dropped, followed along the positions by 2048 new rows. -/
theorem cache_read (a : FVec Ideal S1x8x2048x128 .f32) (y : FVec Ideal S8x2048x128 .f32)
    (hc : S1x8x2048x128.ShapeCasts S8x2048x128) (hcat : Shape.Concatenates [S8x2048x128, S8x2048x128] S8x4096x128 1)
    (g : Fin 8) (j : Fin 4096) (d : Fin 128) :
    concatenate S8x4096x128 1 [⟨S8x2048x128, shapeCast S8x2048x128 a hc⟩, ⟨S8x2048x128, y⟩] hcat (ix3 g j d)
      = if hj : j.val < 2048 then Cert.Spec.cacheAt a g ⟨j.val, hj⟩ d
        else y (ix3 g (⟨j.val - 2048, by have := j.isLt; omega⟩ : Fin 2048) d) := by
  have hj4 := j.isLt
  by_cases hj : j.val < 2048
  · rw [dif_pos hj]
    refine (concatenate_pair_apply_left (1 : Fin S8x4096x128.rank) _ _ hcat (ix3 g j d) rfl (ix3 g (⟨j.val, hj⟩ : Fin 2048) d)
      (fun b => match b with | ⟨0, _⟩ => rfl | ⟨1, _⟩ => rfl | ⟨2, _⟩ => rfl)).trans ?_
    exact shapeCast_1abc_abc_apply a hc g ⟨j.val, hj⟩ d
  · rw [dif_neg hj]
    exact concatenate_pair_apply_right (1 : Fin S8x4096x128.rank) _ _ hcat (ix3 g j d) rfl rfl (ix3 g (⟨j.val - 2048, by omega⟩ : Fin 2048) d)
      (fun b => match b with
        | ⟨0, _⟩ => fun _ => rfl
        | ⟨1, _⟩ => fun hne => absurd rfl hne
        | ⟨2, _⟩ => fun _ => rfl)
      (by show (j.val - 2048) + 2048 = j.val; omega)

/-- The mask with its two unit axes dropped. -/
theorem mask_read (a : FVec Ideal S1x1x2048x4096 .f32) (hc : S1x1x2048x4096.ShapeCasts S2048x4096) (s : Fin 2048) (j : Fin 4096) :
    shapeCast S2048x4096 a hc (ix2 s j) = Cert.Spec.maskAt a s j :=
  shapeCast_apply a hc (ix2 s j) (ix4 (0 : Fin 1) (0 : Fin 1) s j) (by
    rw [Shape.rowMajor_val_four, Shape.rowMajor_val_two]
    show ((0 * 1 + 0) * 2048 + s.val) * 4096 + j.val = s.val * 4096 + j.val
    omega)

end Cert.KernelIdeal.Glue

end
-- ==== Proof.GlueRun.lean ====
/-
  The kernel program's sixty-eight host operations between its projection and its attention kernel, run from arbitrary
  contents `W` of the core's buffers: what the six buffers that the attention kernel and the program's results read
  hold afterwards, index by index, in terms of the projection's result and the argument arrays.

  The line is cut into seven stretches; each stretch is run from arbitrary contents, its results read at an index by the
  lemmas on the operations, and the buffers it does not write carried across it. Chaining the stretches gives the
  queries and the new keys as the specification's rotated, normalised vectors of the projection's column blocks, the new
  values as the third column block, the key and value arrays as the caches followed by the new rows, and the mask.
-/
import proofs.«120073_j44152263803384_1_alg».proof.Proof.GlueOps
import Idealize.ShloMosaic.Lib.StableHlo.Run
import Idealize.ShloMosaic.Lib.Pipeline.Frame

set_option maxRecDepth 16384

noncomputable section

namespace Cert.KernelIdeal.Glue

open Cert.KernelIdeal Cert.KernelIdeal.Gen Cert.KernelIdeal.Facts₀
open Idealize.ShloMosaic Idealize.ShloMosaic.TcCoe Idealize.SL.Sem Idealize.ShloMosaic.StableHlo Idealize.ShloMosaic.ValueIdx

/-! ## The seven stretches -/

/-- Stretch A: the three column blocks of the projection, each reshaped to heads and transposed. -/
abbrev opsA : List (HloOp τ sig (Elt Ideal)) := (hostOps1 (F := Ideal)).take 9

/-- Stretch B: the normalisation of the queries. -/
abbrev opsB : List (HloOp τ sig (Elt Ideal)) := ((hostOps1 (F := Ideal)).drop 9).take 16

/-- Stretch C: the normalisation of the keys. -/
abbrev opsC : List (HloOp τ sig (Elt Ideal)) := ((hostOps1 (F := Ideal)).drop 25).take 16

/-- Stretch D: the two rotary tables. -/
abbrev opsD : List (HloOp τ sig (Elt Ideal)) := ((hostOps1 (F := Ideal)).drop 41).take 4

/-- Stretch E: the rotary embedding of the queries. -/
abbrev opsE : List (HloOp τ sig (Elt Ideal)) := ((hostOps1 (F := Ideal)).drop 45).take 9

/-- Stretch G: the rotary embedding of the keys. -/
abbrev opsG : List (HloOp τ sig (Elt Ideal)) := ((hostOps1 (F := Ideal)).drop 54).take 9

/-- Stretch H: the caches followed by the new keys and values, and the mask. -/
abbrev opsH : List (HloOp τ sig (Elt Ideal)) := (hostOps1 (F := Ideal)).drop 63

/-- The line is its stretches in order. -/
theorem hostOps1_eq : hostOps1 (F := Ideal) = opsA ++ (opsB ++ (opsC ++ (opsD ++ (opsE ++ (opsG ++ opsH))))) := rfl

section Stretches

variable (V : Valuation τ sig (Elt Ideal))

/-! ## What each stretch leaves alone -/

set_option maxHeartbeats 1000000 in
theorem frameA :
    StableHlo.after opsA V (Proc.devRef .tc main_arg1) = V (Proc.devRef .tc main_arg1) ∧
    StableHlo.after opsA V (Proc.devRef .tc main_arg2) = V (Proc.devRef .tc main_arg2) ∧
    StableHlo.after opsA V (Proc.devRef .tc main_arg3) = V (Proc.devRef .tc main_arg3) ∧
    StableHlo.after opsA V (Proc.devRef .tc main_arg4) = V (Proc.devRef .tc main_arg4) ∧
    StableHlo.after opsA V (Proc.devRef .tc main_arg5) = V (Proc.devRef .tc main_arg5) ∧
    StableHlo.after opsA V (Proc.devRef .tc main_arg10) = V (Proc.devRef .tc main_arg10) ∧
    StableHlo.after opsA V (Proc.devRef .tc main_arg11) = V (Proc.devRef .tc main_arg11) := by
  simp only [opsA, hostOps1, List.drop_succ_cons, List.drop_zero, List.take_succ_cons, List.take_zero]
  refine ⟨?_, ?_, ?_, ?_, ?_, ?_, ?_⟩ <;> after_results

set_option maxHeartbeats 1000000 in
theorem frameB :
    StableHlo.after opsB V (Proc.devRef .tc main_arg1) = V (Proc.devRef .tc main_arg1) ∧
    StableHlo.after opsB V (Proc.devRef .tc main_arg2) = V (Proc.devRef .tc main_arg2) ∧
    StableHlo.after opsB V (Proc.devRef .tc main_arg3) = V (Proc.devRef .tc main_arg3) ∧
    StableHlo.after opsB V (Proc.devRef .tc main_arg4) = V (Proc.devRef .tc main_arg4) ∧
    StableHlo.after opsB V (Proc.devRef .tc main_arg5) = V (Proc.devRef .tc main_arg5) ∧
    StableHlo.after opsB V (Proc.devRef .tc main_arg11) = V (Proc.devRef .tc main_arg11) ∧
    StableHlo.after opsB V (Proc.devRef .tc main_v9) = V (Proc.devRef .tc main_v9) ∧
    StableHlo.after opsB V (Proc.devRef .tc main_v11) = V (Proc.devRef .tc main_v11) := by
  simp only [opsB, hostOps1, List.drop_succ_cons, List.drop_zero, List.take_succ_cons, List.take_zero]
  refine ⟨?_, ?_, ?_, ?_, ?_, ?_, ?_, ?_⟩ <;> after_results

set_option maxHeartbeats 1000000 in
theorem frameC :
    StableHlo.after opsC V (Proc.devRef .tc main_arg1) = V (Proc.devRef .tc main_arg1) ∧
    StableHlo.after opsC V (Proc.devRef .tc main_arg2) = V (Proc.devRef .tc main_arg2) ∧
    StableHlo.after opsC V (Proc.devRef .tc main_arg3) = V (Proc.devRef .tc main_arg3) ∧
    StableHlo.after opsC V (Proc.devRef .tc main_arg4) = V (Proc.devRef .tc main_arg4) ∧
    StableHlo.after opsC V (Proc.devRef .tc main_arg5) = V (Proc.devRef .tc main_arg5) ∧
    StableHlo.after opsC V (Proc.devRef .tc main_v24) = V (Proc.devRef .tc main_v24) ∧
    StableHlo.after opsC V (Proc.devRef .tc main_v11) = V (Proc.devRef .tc main_v11) := by
  simp only [opsC, hostOps1, List.drop_succ_cons, List.drop_zero, List.take_succ_cons, List.take_zero]
  refine ⟨?_, ?_, ?_, ?_, ?_, ?_, ?_⟩ <;> after_results

set_option maxHeartbeats 1000000 in
theorem frameD :
    StableHlo.after opsD V (Proc.devRef .tc main_arg3) = V (Proc.devRef .tc main_arg3) ∧
    StableHlo.after opsD V (Proc.devRef .tc main_arg4) = V (Proc.devRef .tc main_arg4) ∧
    StableHlo.after opsD V (Proc.devRef .tc main_arg5) = V (Proc.devRef .tc main_arg5) ∧
    StableHlo.after opsD V (Proc.devRef .tc main_v24) = V (Proc.devRef .tc main_v24) ∧
    StableHlo.after opsD V (Proc.devRef .tc main_v37) = V (Proc.devRef .tc main_v37) ∧
    StableHlo.after opsD V (Proc.devRef .tc main_v11) = V (Proc.devRef .tc main_v11) := by
  simp only [opsD, hostOps1, List.drop_succ_cons, List.drop_zero, List.take_succ_cons, List.take_zero]
  refine ⟨?_, ?_, ?_, ?_, ?_, ?_⟩ <;> after_results

set_option maxHeartbeats 1000000 in
theorem frameE :
    StableHlo.after opsE V (Proc.devRef .tc main_arg3) = V (Proc.devRef .tc main_arg3) ∧
    StableHlo.after opsE V (Proc.devRef .tc main_arg4) = V (Proc.devRef .tc main_arg4) ∧
    StableHlo.after opsE V (Proc.devRef .tc main_arg5) = V (Proc.devRef .tc main_arg5) ∧
    StableHlo.after opsE V (Proc.devRef .tc main_v37) = V (Proc.devRef .tc main_v37) ∧
    StableHlo.after opsE V (Proc.devRef .tc main_v39) = V (Proc.devRef .tc main_v39) ∧
    StableHlo.after opsE V (Proc.devRef .tc main_v41) = V (Proc.devRef .tc main_v41) ∧
    StableHlo.after opsE V (Proc.devRef .tc main_v11) = V (Proc.devRef .tc main_v11) := by
  simp only [opsE, hostOps1, List.drop_succ_cons, List.drop_zero, List.take_succ_cons, List.take_zero]
  refine ⟨?_, ?_, ?_, ?_, ?_, ?_, ?_⟩ <;> after_results

set_option maxHeartbeats 1000000 in
theorem frameG :
    StableHlo.after opsG V (Proc.devRef .tc main_arg3) = V (Proc.devRef .tc main_arg3) ∧
    StableHlo.after opsG V (Proc.devRef .tc main_arg4) = V (Proc.devRef .tc main_arg4) ∧
    StableHlo.after opsG V (Proc.devRef .tc main_arg5) = V (Proc.devRef .tc main_arg5) ∧
    StableHlo.after opsG V (Proc.devRef .tc main_v50) = V (Proc.devRef .tc main_v50) ∧
    StableHlo.after opsG V (Proc.devRef .tc main_v11) = V (Proc.devRef .tc main_v11) := by
  simp only [opsG, hostOps1, List.drop_succ_cons, List.drop_zero, List.take_succ_cons, List.take_zero]
  refine ⟨?_, ?_, ?_, ?_, ?_⟩ <;> after_results

set_option maxHeartbeats 1000000 in
theorem frameH :
    StableHlo.after opsH V (Proc.devRef .tc main_v50) = V (Proc.devRef .tc main_v50) ∧
    StableHlo.after opsH V (Proc.devRef .tc main_v59) = V (Proc.devRef .tc main_v59) ∧
    StableHlo.after opsH V (Proc.devRef .tc main_v11) = V (Proc.devRef .tc main_v11) := by
  simp only [opsH, hostOps1, List.drop_succ_cons, List.drop_zero, List.take_succ_cons, List.take_zero]
  refine ⟨?_, ?_, ?_⟩ <;> after_results

/-! ## What each stretch writes, at an index -/

set_option maxHeartbeats 1000000 in
theorem A_v7 (h : Fin 16) (s : Fin 2048) (e : Fin 128) :
    (StableHlo.after opsA V (Proc.devRef .tc main_v7) : FVec Ideal S16x2048x128 .f32) (ix3 h s e)
      = (V (Proc.devRef .tc main_v2) : FVec Ideal S2048x4096 .f32) (ix2 s (⟨h.val * 128 + e.val, by have := h.isLt; have := e.isLt; omega⟩ : Fin 4096)) := by
  simp only [opsA, hostOps1, List.drop_succ_cons, List.drop_zero, List.take_succ_cons, List.take_zero]
  after_results
  exact qCols_read (V (Proc.devRef .tc main_v2)) _ _ _ h s e

set_option maxHeartbeats 1000000 in
theorem A_v9 (g : Fin 8) (s : Fin 2048) (e : Fin 128) :
    (StableHlo.after opsA V (Proc.devRef .tc main_v9) : FVec Ideal S8x2048x128 .f32) (ix3 g s e)
      = (V (Proc.devRef .tc main_v2) : FVec Ideal S2048x4096 .f32) (ix2 s (⟨2048 + g.val * 128 + e.val, by have := g.isLt; have := e.isLt; omega⟩ : Fin 4096)) := by
  simp only [opsA, hostOps1, List.drop_succ_cons, List.drop_zero, List.take_succ_cons, List.take_zero]
  after_results
  exact kvCols_read 2048 (by decide) (V (Proc.devRef .tc main_v2)) _ _ _ g s e

set_option maxHeartbeats 1000000 in
theorem A_v11 (g : Fin 8) (s : Fin 2048) (e : Fin 128) :
    (StableHlo.after opsA V (Proc.devRef .tc main_v11) : FVec Ideal S8x2048x128 .f32) (ix3 g s e)
      = (V (Proc.devRef .tc main_v2) : FVec Ideal S2048x4096 .f32) (ix2 s (⟨3072 + g.val * 128 + e.val, by have := g.isLt; have := e.isLt; omega⟩ : Fin 4096)) := by
  simp only [opsA, hostOps1, List.drop_succ_cons, List.drop_zero, List.take_succ_cons, List.take_zero]
  after_results
  exact kvCols_read 3072 (by decide) (V (Proc.devRef .tc main_v2)) _ _ _ g s e

set_option maxHeartbeats 1000000 in
theorem B_v24 (h : Fin 16) (s : Fin 2048) (d : Fin 128) :
    (StableHlo.after opsB V (Proc.devRef .tc main_v24) : FVec Ideal S16x2048x128 .f32) (ix3 h s d)
      = Cert.Spec.rms (fun e => (V (Proc.devRef .tc main_v7) : FVec Ideal S16x2048x128 .f32) (ix3 h s e))
          (fun e => (V (Proc.devRef .tc main_arg10) : FVec Ideal S128 .f32) (ix1 e)) d := by
  simp only [opsB, hostOps1, List.drop_succ_cons, List.drop_zero, List.take_succ_cons, List.take_zero]
  after_results
  exact rmsQ_read (V (Proc.devRef .tc main_v7)) (V (Proc.devRef .tc main_arg10)) _ _ _ _ _ _ _ h s d

set_option maxHeartbeats 1000000 in
theorem C_v37 (g : Fin 8) (s : Fin 2048) (d : Fin 128) :
    (StableHlo.after opsC V (Proc.devRef .tc main_v37) : FVec Ideal S8x2048x128 .f32) (ix3 g s d)
      = Cert.Spec.rms (fun e => (V (Proc.devRef .tc main_v9) : FVec Ideal S8x2048x128 .f32) (ix3 g s e))
          (fun e => (V (Proc.devRef .tc main_arg11) : FVec Ideal S128 .f32) (ix1 e)) d := by
  simp only [opsC, hostOps1, List.drop_succ_cons, List.drop_zero, List.take_succ_cons, List.take_zero]
  after_results
  exact rmsK_read (V (Proc.devRef .tc main_v9)) (V (Proc.devRef .tc main_arg11)) _ _ _ _ _ _ _ g s d

set_option maxHeartbeats 1000000 in
theorem D_v39 (s : Fin 2048) (d : Fin 128) :
    (StableHlo.after opsD V (Proc.devRef .tc main_v39) : FVec Ideal S1x2048x128 .f32) (ix3 (0 : Fin 1) s d) = Cert.Spec.tabAt (V (Proc.devRef .tc main_arg1)) s d := by
  simp only [opsD, hostOps1, List.drop_succ_cons, List.drop_zero, List.take_succ_cons, List.take_zero]
  after_results
  exact tab_read (V (Proc.devRef .tc main_arg1)) _ _ s d

set_option maxHeartbeats 1000000 in
theorem D_v41 (s : Fin 2048) (d : Fin 128) :
    (StableHlo.after opsD V (Proc.devRef .tc main_v41) : FVec Ideal S1x2048x128 .f32) (ix3 (0 : Fin 1) s d) = Cert.Spec.tabAt (V (Proc.devRef .tc main_arg2)) s d := by
  simp only [opsD, hostOps1, List.drop_succ_cons, List.drop_zero, List.take_succ_cons, List.take_zero]
  after_results
  exact tab_read (V (Proc.devRef .tc main_arg2)) _ _ s d

set_option maxHeartbeats 1000000 in
theorem E_v50 (h : Fin 16) (s : Fin 2048) (d : Fin 128) :
    (StableHlo.after opsE V (Proc.devRef .tc main_v50) : FVec Ideal S16x2048x128 .f32) (ix3 h s d)
      = Cert.Spec.rot (fun e => (V (Proc.devRef .tc main_v24) : FVec Ideal S16x2048x128 .f32) (ix3 h s e))
          (fun e => (V (Proc.devRef .tc main_v39) : FVec Ideal S1x2048x128 .f32) (ix3 (0 : Fin 1) s e))
          (fun e => (V (Proc.devRef .tc main_v41) : FVec Ideal S1x2048x128 .f32) (ix3 (0 : Fin 1) s e)) d := by
  simp only [opsE, hostOps1, List.drop_succ_cons, List.drop_zero, List.take_succ_cons, List.take_zero]
  after_results
  exact rotQ_read (V (Proc.devRef .tc main_v24)) (V (Proc.devRef .tc main_v39)) (V (Proc.devRef .tc main_v41)) _ _ _ _ h s d

set_option maxHeartbeats 1000000 in
theorem G_v59 (g : Fin 8) (s : Fin 2048) (d : Fin 128) :
    (StableHlo.after opsG V (Proc.devRef .tc main_v59) : FVec Ideal S8x2048x128 .f32) (ix3 g s d)
      = Cert.Spec.rot (fun e => (V (Proc.devRef .tc main_v37) : FVec Ideal S8x2048x128 .f32) (ix3 g s e))
          (fun e => (V (Proc.devRef .tc main_v39) : FVec Ideal S1x2048x128 .f32) (ix3 (0 : Fin 1) s e))
          (fun e => (V (Proc.devRef .tc main_v41) : FVec Ideal S1x2048x128 .f32) (ix3 (0 : Fin 1) s e)) d := by
  simp only [opsG, hostOps1, List.drop_succ_cons, List.drop_zero, List.take_succ_cons, List.take_zero]
  after_results
  exact rotK_read (V (Proc.devRef .tc main_v37)) (V (Proc.devRef .tc main_v39)) (V (Proc.devRef .tc main_v41)) _ _ _ _ g s d

set_option maxHeartbeats 1000000 in
theorem H_v62 (g : Fin 8) (j : Fin 4096) (d : Fin 128) :
    (StableHlo.after opsH V (Proc.devRef .tc main_v62) : FVec Ideal S8x4096x128 .f32) (ix3 g j d)
      = if hj : j.val < 2048 then Cert.Spec.cacheAt (V (Proc.devRef .tc main_arg4)) g ⟨j.val, hj⟩ d
        else (V (Proc.devRef .tc main_v59) : FVec Ideal S8x2048x128 .f32) (ix3 g (⟨j.val - 2048, by have := j.isLt; omega⟩ : Fin 2048) d) := by
  simp only [opsH, hostOps1, List.drop_succ_cons, List.drop_zero, List.take_succ_cons, List.take_zero]
  after_results
  exact cache_read (V (Proc.devRef .tc main_arg4)) (V (Proc.devRef .tc main_v59)) _ _ g j d

set_option maxHeartbeats 1000000 in
theorem H_v63 (g : Fin 8) (j : Fin 4096) (d : Fin 128) :
    (StableHlo.after opsH V (Proc.devRef .tc main_v63) : FVec Ideal S8x4096x128 .f32) (ix3 g j d)
      = if hj : j.val < 2048 then Cert.Spec.cacheAt (V (Proc.devRef .tc main_arg5)) g ⟨j.val, hj⟩ d
        else (V (Proc.devRef .tc main_v11) : FVec Ideal S8x2048x128 .f32) (ix3 g (⟨j.val - 2048, by have := j.isLt; omega⟩ : Fin 2048) d) := by
  simp only [opsH, hostOps1, List.drop_succ_cons, List.drop_zero, List.take_succ_cons, List.take_zero]
  after_results
  exact cache_read (V (Proc.devRef .tc main_arg5)) (V (Proc.devRef .tc main_v11)) _ _ g j d

set_option maxHeartbeats 1000000 in
theorem H_v64 (s : Fin 2048) (j : Fin 4096) :
    (StableHlo.after opsH V (Proc.devRef .tc main_v64) : FVec Ideal S2048x4096 .f32) (ix2 s j) = Cert.Spec.maskAt (V (Proc.devRef .tc main_arg3)) s j := by
  simp only [opsH, hostOps1, List.drop_succ_cons, List.drop_zero, List.take_succ_cons, List.take_zero]
  after_results
  exact mask_read (V (Proc.devRef .tc main_arg3)) _ s j

end Stretches

end Cert.KernelIdeal.Glue

end
-- ==== Proof.GlueHost.lean ====
/-
  The seven stretches chained from arbitrary contents `W` of the core's buffers: what the six buffers read by the
  attention kernel and by the program's results hold after the whole line, at an index, in terms of the projection's
  result `W main_v2` and the argument arrays — the specification's rotated, normalised queries and keys, the values,
  the caches followed by the new rows, and the mask.
-/
import proofs.«120073_j44152263803384_1_alg».proof.Proof.GlueRun

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

/-! ## The projection's column blocks at (head or group, row, lane) -/

/-- Lane `e` of query head `h` at row `s`: column `h * 128 + e` of the fused projection. -/
def xq (X : FVec Ideal S2048x4096 .f32) (h : Fin 16) (s : Fin 2048) (e : Fin 128) : EReal :=
  X (ix2 s (⟨h.val * 128 + e.val, by have := h.isLt; have := e.isLt; omega⟩ : Fin 4096))
/-- Lane `e` of key group `g` at row `s`: column `2048 + g * 128 + e`. -/
def xk (X : FVec Ideal S2048x4096 .f32) (g : Fin 8) (s : Fin 2048) (e : Fin 128) : EReal :=
  X (ix2 s (⟨2048 + g.val * 128 + e.val, by have := g.isLt; have := e.isLt; omega⟩ : Fin 4096))
/-- Lane `d` of value group `g` at row `s`: column `3072 + g * 128 + d`. -/
def xv (X : FVec Ideal S2048x4096 .f32) (g : Fin 8) (s : Fin 2048) (d : Fin 128) : EReal :=
  X (ix2 s (⟨3072 + g.val * 128 + d.val, by have := g.isLt; have := d.isLt; omega⟩ : Fin 4096))

section Chain

variable (W : Valuation τ sig (Elt Ideal))

/-! ## The buffers after each stretch -/

def VA : Valuation τ sig (Elt Ideal) := StableHlo.after opsA W
def VB : Valuation τ sig (Elt Ideal) := StableHlo.after opsB (VA W)
def VC : Valuation τ sig (Elt Ideal) := StableHlo.after opsC (VB W)
def VD : Valuation τ sig (Elt Ideal) := StableHlo.after opsD (VC W)
def VE : Valuation τ sig (Elt Ideal) := StableHlo.after opsE (VD W)
def VG : Valuation τ sig (Elt Ideal) := StableHlo.after opsG (VE W)
def VH : Valuation τ sig (Elt Ideal) := StableHlo.after opsH (VG W)

/-- The whole line is the seven stretches in order. -/
theorem after_hostOps1 : StableHlo.after (hostOps1 (F := Ideal)) W = VH W := by
  refine (congrArg (fun l => StableHlo.after l W) hostOps1_eq).trans ?_
  show StableHlo.after (opsA ++ (opsB ++ (opsC ++ (opsD ++ (opsE ++ (opsG ++ opsH)))))) W = _
  simp only [StableHlo.after_append]
  rfl

/-! ## Buffers carried across the stretches that do not write them -/

theorem VA_arg10 : VA W (Proc.devRef .tc main_arg10) = W (Proc.devRef .tc main_arg10) := (frameA W).2.2.2.2.2.1
theorem VB_arg11 : VB W (Proc.devRef .tc main_arg11) = W (Proc.devRef .tc main_arg11) := ((frameB (VA W)).2.2.2.2.2.1).trans ((frameA W).2.2.2.2.2.2)
theorem VC_arg1 : VC W (Proc.devRef .tc main_arg1) = W (Proc.devRef .tc main_arg1) := ((frameC (VB W)).1).trans (((frameB (VA W)).1).trans ((frameA W).1))
theorem VC_arg2 : VC W (Proc.devRef .tc main_arg2) = W (Proc.devRef .tc main_arg2) := ((frameC (VB W)).2.1).trans (((frameB (VA W)).2.1).trans ((frameA W).2.1))
theorem VG_arg3 : VG W (Proc.devRef .tc main_arg3) = W (Proc.devRef .tc main_arg3) := ((frameG (VE W)).1).trans (((frameE (VD W)).1).trans (((frameD (VC W)).1).trans (((frameC (VB W)).2.2.1).trans (((frameB (VA W)).2.2.1).trans ((frameA W).2.2.1)))))
theorem VG_arg4 : VG W (Proc.devRef .tc main_arg4) = W (Proc.devRef .tc main_arg4) := ((frameG (VE W)).2.1).trans (((frameE (VD W)).2.1).trans (((frameD (VC W)).2.1).trans (((frameC (VB W)).2.2.2.1).trans (((frameB (VA W)).2.2.2.1).trans ((frameA W).2.2.2.1)))))
theorem VG_arg5 : VG W (Proc.devRef .tc main_arg5) = W (Proc.devRef .tc main_arg5) := ((frameG (VE W)).2.2.1).trans (((frameE (VD W)).2.2.1).trans (((frameD (VC W)).2.2.1).trans (((frameC (VB W)).2.2.2.2.1).trans (((frameB (VA W)).2.2.2.2.1).trans ((frameA W).2.2.2.2.1)))))
theorem VB_v9 : VB W (Proc.devRef .tc main_v9) = VA W (Proc.devRef .tc main_v9) := (frameB (VA W)).2.2.2.2.2.2.1
theorem VD_v24 : VD W (Proc.devRef .tc main_v24) = VB W (Proc.devRef .tc main_v24) := ((frameD (VC W)).2.2.2.1).trans ((frameC (VB W)).2.2.2.2.2.1)
theorem VE_v37 : VE W (Proc.devRef .tc main_v37) = VC W (Proc.devRef .tc main_v37) := ((frameE (VD W)).2.2.2.1).trans ((frameD (VC W)).2.2.2.2.1)
theorem VE_v39 : VE W (Proc.devRef .tc main_v39) = VD W (Proc.devRef .tc main_v39) := (frameE (VD W)).2.2.2.2.1
theorem VE_v41 : VE W (Proc.devRef .tc main_v41) = VD W (Proc.devRef .tc main_v41) := (frameE (VD W)).2.2.2.2.2.1
theorem VH_v50 : VH W (Proc.devRef .tc main_v50) = VE W (Proc.devRef .tc main_v50) := ((frameH (VG W)).1).trans ((frameG (VE W)).2.2.2.1)
theorem VH_v59 : VH W (Proc.devRef .tc main_v59) = VG W (Proc.devRef .tc main_v59) := (frameH (VG W)).2.1
theorem VG_v11 : VG W (Proc.devRef .tc main_v11) = VA W (Proc.devRef .tc main_v11) := ((frameG (VE W)).2.2.2.2).trans (((frameE (VD W)).2.2.2.2.2.2).trans (((frameD (VC W)).2.2.2.2.2).trans (((frameC (VB W)).2.2.2.2.2.2).trans ((frameB (VA W)).2.2.2.2.2.2.2))))
theorem VH_v11 : VH W (Proc.devRef .tc main_v11) = VG W (Proc.devRef .tc main_v11) := (frameH (VG W)).2.2

/-! ## The values along the chain -/

/-- The normalised queries, before the rotation. -/
theorem VD_v24_read (h : Fin 16) (s : Fin 2048) (e : Fin 128) :
    (VD W (Proc.devRef .tc main_v24) : FVec Ideal S16x2048x128 .f32) (ix3 h s e)
      = Cert.Spec.rms (fun e => xq (W (Proc.devRef .tc main_v2) : FVec Ideal S2048x4096 .f32) h s e) (Cert.Spec.normAt (W (Proc.devRef .tc main_arg10))) e :=
  (congrFun (VD_v24 W) (ix3 h s e)).trans ((B_v24 (VA W) h s e).trans
    (congrFun (congrArg₂ Cert.Spec.rms (funext fun e => A_v7 W h s e) (funext fun e => congrFun (VA_arg10 W) (ix1 e))) e))

/-- The normalised keys, before the rotation. -/
theorem VC_v37_read (g : Fin 8) (s : Fin 2048) (e : Fin 128) :
    (VC W (Proc.devRef .tc main_v37) : FVec Ideal S8x2048x128 .f32) (ix3 g s e)
      = Cert.Spec.rms (fun e => xk (W (Proc.devRef .tc main_v2) : FVec Ideal S2048x4096 .f32) g s e) (Cert.Spec.normAt (W (Proc.devRef .tc main_arg11))) e :=
  (C_v37 (VB W) g s e).trans
    (congrFun (congrArg₂ Cert.Spec.rms (funext fun e => (congrFun (VB_v9 W) (ix3 g s e)).trans (A_v9 W g s e))
      (funext fun e => congrFun (VB_arg11 W) (ix1 e))) e)

/-- The cosine and sine tables. -/
theorem VD_v39_read (s : Fin 2048) (d : Fin 128) :
    (VD W (Proc.devRef .tc main_v39) : FVec Ideal S1x2048x128 .f32) (ix3 (0 : Fin 1) s d) = Cert.Spec.tabAt (W (Proc.devRef .tc main_arg1)) s d :=
  (D_v39 (VC W) s d).trans (congrArg (fun a => Cert.Spec.tabAt a s d) (VC_arg1 W))
theorem VD_v41_read (s : Fin 2048) (d : Fin 128) :
    (VD W (Proc.devRef .tc main_v41) : FVec Ideal S1x2048x128 .f32) (ix3 (0 : Fin 1) s d) = Cert.Spec.tabAt (W (Proc.devRef .tc main_arg2)) s d :=
  (D_v41 (VC W) s d).trans (congrArg (fun a => Cert.Spec.tabAt a s d) (VC_arg2 W))

/-- The new keys: normalised and rotated. -/
theorem VG_v59_read (g : Fin 8) (s : Fin 2048) (d : Fin 128) :
    (VG W (Proc.devRef .tc main_v59) : FVec Ideal S8x2048x128 .f32) (ix3 g s d)
      = Cert.Spec.rot (Cert.Spec.rms (fun e => xk (W (Proc.devRef .tc main_v2) : FVec Ideal S2048x4096 .f32) g s e) (Cert.Spec.normAt (W (Proc.devRef .tc main_arg11))))
          (Cert.Spec.tabAt (W (Proc.devRef .tc main_arg1)) s) (Cert.Spec.tabAt (W (Proc.devRef .tc main_arg2)) s) d :=
  (G_v59 (VE W) g s d).trans
    (congrFun (congr (congrArg₂ Cert.Spec.rot
      (funext fun e => (congrFun (VE_v37 W) (ix3 g s e)).trans (VC_v37_read W g s e))
      (funext fun e => (congrFun (VE_v39 W) (ix3 (0 : Fin 1) s e)).trans (VD_v39_read W s e)))
      (funext fun e => (congrFun (VE_v41 W) (ix3 (0 : Fin 1) s e)).trans (VD_v41_read W s e))) d)

/-! ## The six buffers after the whole line -/

/-- The queries the attention kernel reads: normalised and rotated. -/
theorem host_v50 (h : Fin 16) (s : Fin 2048) (d : Fin 128) :
    (StableHlo.after (hostOps1 (F := Ideal)) W (Proc.devRef .tc main_v50) : FVec Ideal S16x2048x128 .f32) (ix3 h s d)
      = Cert.Spec.rot (Cert.Spec.rms (fun e => xq (W (Proc.devRef .tc main_v2) : FVec Ideal S2048x4096 .f32) h s e) (Cert.Spec.normAt (W (Proc.devRef .tc main_arg10))))
          (Cert.Spec.tabAt (W (Proc.devRef .tc main_arg1)) s) (Cert.Spec.tabAt (W (Proc.devRef .tc main_arg2)) s) d := by
  rw [after_hostOps1 W, VH_v50 W]
  exact (E_v50 (VD W) h s d).trans
    (congrFun (congr (congrArg₂ Cert.Spec.rot
      (funext fun e => VD_v24_read W h s e)
      (funext fun e => VD_v39_read W s e))
      (funext fun e => VD_v41_read W s e)) d)

/-- The new keys (the program's second result, and the tail of the key array). -/
theorem host_v59 (g : Fin 8) (s : Fin 2048) (d : Fin 128) :
    (StableHlo.after (hostOps1 (F := Ideal)) W (Proc.devRef .tc main_v59) : FVec Ideal S8x2048x128 .f32) (ix3 g s d)
      = Cert.Spec.rot (Cert.Spec.rms (fun e => xk (W (Proc.devRef .tc main_v2) : FVec Ideal S2048x4096 .f32) g s e) (Cert.Spec.normAt (W (Proc.devRef .tc main_arg11))))
          (Cert.Spec.tabAt (W (Proc.devRef .tc main_arg1)) s) (Cert.Spec.tabAt (W (Proc.devRef .tc main_arg2)) s) d := by
  rw [after_hostOps1 W, VH_v59 W]
  exact VG_v59_read W g s d

/-- The new values (the program's third result, and the tail of the value array). -/
theorem host_v11 (g : Fin 8) (s : Fin 2048) (d : Fin 128) :
    (StableHlo.after (hostOps1 (F := Ideal)) W (Proc.devRef .tc main_v11) : FVec Ideal S8x2048x128 .f32) (ix3 g s d) = xv (W (Proc.devRef .tc main_v2) : FVec Ideal S2048x4096 .f32) g s d := by
  rw [after_hostOps1 W, VH_v11 W, VG_v11 W]
  exact A_v11 W g s d

/-- The key array: the cache, then the new keys. -/
theorem host_v62 (g : Fin 8) (j : Fin 4096) (d : Fin 128) :
    (StableHlo.after (hostOps1 (F := Ideal)) W (Proc.devRef .tc main_v62) : FVec Ideal S8x4096x128 .f32) (ix3 g j d)
      = if hj : j.val < 2048 then Cert.Spec.cacheAt (W (Proc.devRef .tc main_arg4)) g ⟨j.val, hj⟩ d
        else Cert.Spec.rot (Cert.Spec.rms (fun e => xk (W (Proc.devRef .tc main_v2) : FVec Ideal S2048x4096 .f32) g (⟨j.val - 2048, by have := j.isLt; omega⟩ : Fin 2048) e) (Cert.Spec.normAt (W (Proc.devRef .tc main_arg11))))
          (Cert.Spec.tabAt (W (Proc.devRef .tc main_arg1)) (⟨j.val - 2048, by have := j.isLt; omega⟩ : Fin 2048))
          (Cert.Spec.tabAt (W (Proc.devRef .tc main_arg2)) (⟨j.val - 2048, by have := j.isLt; omega⟩ : Fin 2048)) d := by
  rw [after_hostOps1 W]
  refine (H_v62 (VG W) g j d).trans ?_
  by_cases hj : j.val < 2048
  · rw [dif_pos hj, dif_pos hj, VG_arg4 W]
  · rw [dif_neg hj, dif_neg hj]
    exact VG_v59_read W g _ d

/-- The value array: the cache, then the new values. -/
theorem host_v63 (g : Fin 8) (j : Fin 4096) (d : Fin 128) :
    (StableHlo.after (hostOps1 (F := Ideal)) W (Proc.devRef .tc main_v63) : FVec Ideal S8x4096x128 .f32) (ix3 g j d)
      = if hj : j.val < 2048 then Cert.Spec.cacheAt (W (Proc.devRef .tc main_arg5)) g ⟨j.val, hj⟩ d
        else xv (W (Proc.devRef .tc main_v2) : FVec Ideal S2048x4096 .f32) g (⟨j.val - 2048, by have := j.isLt; omega⟩ : Fin 2048) d := by
  rw [after_hostOps1 W]
  refine (H_v63 (VG W) g j d).trans ?_
  by_cases hj : j.val < 2048
  · rw [dif_pos hj, dif_pos hj, VG_arg5 W]
  · rw [dif_neg hj, dif_neg hj, VG_v11 W]
    exact A_v11 W g _ d

/-- The mask. -/
theorem host_v64 (s : Fin 2048) (j : Fin 4096) :
    (StableHlo.after (hostOps1 (F := Ideal)) W (Proc.devRef .tc main_v64) : FVec Ideal S2048x4096 .f32) (ix2 s j) = Cert.Spec.maskAt (W (Proc.devRef .tc main_arg3)) s j := by
  rw [after_hostOps1 W]
  exact (H_v64 (VG W) s j).trans (congrArg (fun a => Cert.Spec.maskAt a s j) (VG_arg3 W))

end Chain

end Cert.KernelIdeal.Glue

end
-- ==== Proof.GlueProj.lean ====
/-
  The projection's column blocks are the specification's three projections: the first region's result is the hidden
  states against the stacked weight matrices, row s against row n; rows 0 ... 2047 of the stack are the query weights,
  rows 2048 ... 3071 the key weights, rows 3072 ... 4095 the value weights, so column h * 128 + e of the result is the
  query projection's feature (h, e), column 2048 + g * 128 + e the key projection's feature (g, e), and column
  3072 + g * 128 + d the value projection's feature (g, d).
-/
import proofs.«120073_j44152263803384_1_alg».proof.Proof.GlueHost
import proofs.«120073_j44152263803384_1_alg».proof.Proof.IdealEnds
import proofs.«120073_j44152263803384_1_alg».proof.Proof.IdealOut0

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

variable (W0 : Valuation τ sig (Elt Ideal))

/-- The query block of the projection is the query projection. -/
theorem xq_proj (h : Fin 16) (s : Fin 2048) (e : Fin 128) :
    xq (Cert.KernelIdeal.Regions.prodT (N := 4096) (StableHlo.after (hostOps0 (F := Ideal)) W0 (Proc.devRef .tc main_v0) : S2048x2048.Idx → EReal) (StableHlo.after (hostOps0 (F := Ideal)) W0 (Proc.devRef .tc main_v1) : S4096x2048.Idx → EReal)) h s e
      = Cert.Spec.proj (Cert.Spec.hidAt (W0 (Proc.devRef .tc main_arg0))) (Cert.Spec.wqAt (W0 (Proc.devRef .tc main_arg6))) s (Cert.Spec.feat h e) := by
  unfold xq Cert.KernelIdeal.Regions.prodT Cert.Spec.proj
  refine Finset.sum_congr rfl fun k _ => ?_
  exact congrArg₂ (fun a b : EReal => a * b) (Cert.KernelIdeal.Ends.v0_apply W0 s k)
    (Cert.KernelIdeal.Ends.v1_apply_q W0 (Cert.Spec.feat h e) k)

/-- The key block of the projection is the key projection. -/
theorem xk_proj (g : Fin 8) (s : Fin 2048) (e : Fin 128) :
    xk (Cert.KernelIdeal.Regions.prodT (N := 4096) (StableHlo.after (hostOps0 (F := Ideal)) W0 (Proc.devRef .tc main_v0) : S2048x2048.Idx → EReal) (StableHlo.after (hostOps0 (F := Ideal)) W0 (Proc.devRef .tc main_v1) : S4096x2048.Idx → EReal)) g s e
      = Cert.Spec.proj (Cert.Spec.hidAt (W0 (Proc.devRef .tc main_arg0))) (Cert.Spec.wkAt (W0 (Proc.devRef .tc main_arg7))) s (Cert.Spec.feat g e) := by
  have hg := g.isLt; have he := e.isLt
  unfold xk Cert.KernelIdeal.Regions.prodT Cert.Spec.proj
  refine Finset.sum_congr rfl fun k _ => ?_
  refine congrArg₂ (fun a b : EReal => a * b) (Cert.KernelIdeal.Ends.v0_apply W0 s k) ?_
  exact (congrArg (fun n : Fin 4096 => (StableHlo.after (hostOps0 (F := Ideal)) W0 (Proc.devRef .tc main_v1) : S4096x2048.Idx → EReal) (ix2 (n0 := 4096) n k))
      (Fin.ext (by show 2048 + g.val * 128 + e.val = 2048 + (g.val * 128 + e.val); omega))).trans
    (Cert.KernelIdeal.Ends.v1_apply_k W0 (Cert.Spec.feat g e) k)

/-- The value block of the projection is the value projection. -/
theorem xv_proj (g : Fin 8) (s : Fin 2048) (d : Fin 128) :
    xv (Cert.KernelIdeal.Regions.prodT (N := 4096) (StableHlo.after (hostOps0 (F := Ideal)) W0 (Proc.devRef .tc main_v0) : S2048x2048.Idx → EReal) (StableHlo.after (hostOps0 (F := Ideal)) W0 (Proc.devRef .tc main_v1) : S4096x2048.Idx → EReal)) g s d
      = Cert.Spec.proj (Cert.Spec.hidAt (W0 (Proc.devRef .tc main_arg0))) (Cert.Spec.wkAt (W0 (Proc.devRef .tc main_arg8))) s (Cert.Spec.feat g d) := by
  have hg := g.isLt; have hd := d.isLt
  unfold xv Cert.KernelIdeal.Regions.prodT Cert.Spec.proj
  refine Finset.sum_congr rfl fun k _ => ?_
  refine congrArg₂ (fun a b : EReal => a * b) (Cert.KernelIdeal.Ends.v0_apply W0 s k) ?_
  exact (congrArg (fun n : Fin 4096 => (StableHlo.after (hostOps0 (F := Ideal)) W0 (Proc.devRef .tc main_v1) : S4096x2048.Idx → EReal) (ix2 (n0 := 4096) n k))
      (Fin.ext (by show 3072 + g.val * 128 + d.val = 3072 + (g.val * 128 + d.val); omega))).trans
    (Cert.KernelIdeal.Ends.v1_apply_v W0 (Cert.Spec.feat g d) k)

end Cert.KernelIdeal.Glue

end
-- ==== Proof.IdealValue.lean ====
/-
  What the kernel program's three results hold after the run, as functions of the twelve argument arrays: the layer's
  output, the new keys and the new values of Spec.lean. The run leaves every buffer at the last boundary valuation; walking
  that valuation back through the segments: a result is a host operation's reading of a region's output or of an earlier
  buffer; a region's output is its closed form of its input arrays (a product, or the attention array); the input arrays
  are the host operations' readings of earlier buffers; and no segment changes an argument.
-/
import proofs.«120073_j44152263803384_1_alg».proof.Proof.IdealRun
import proofs.«120073_j44152263803384_1_alg».proof.Proof.IdealOut0
import proofs.«120073_j44152263803384_1_alg».proof.Proof.IdealOut1
import proofs.«120073_j44152263803384_1_alg».proof.Proof.IdealOut2
import proofs.«120073_j44152263803384_1_alg».proof.Proof.IdealEnds
import proofs.«120073_j44152263803384_1_alg».proof.Proof.GlueHost
import proofs.«120073_j44152263803384_1_alg».proof.Proof.GlueProj
import proofs.«120073_j44152263803384_1_alg».proof.Proof.Coords
import proofs.«120073_j44152263803384_1_alg».proof.Proof.SpecRow

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## The arguments at the boundaries where a host stretch or a region reads them -/

theorem W2_arg0 (c : Dev nD) : W2 m ρ c (Proc.devRef .tc main_arg0) = m ((c : Thread nD τ).loc main_arg0) :=
  (W2_of_ne m ρ c main_arg0 (by decide)).trans ((StableHlo.after_of_writes_sub hostOps0 _ hostOps0_writes (by decide)).trans rfl)

theorem W2_arg1 (c : Dev nD) : W2 m ρ c (Proc.devRef .tc main_arg1) = m ((c : Thread nD τ).loc main_arg1) :=
  (W2_of_ne m ρ c main_arg1 (by decide)).trans ((StableHlo.after_of_writes_sub hostOps0 _ hostOps0_writes (by decide)).trans rfl)

theorem W2_arg2 (c : Dev nD) : W2 m ρ c (Proc.devRef .tc main_arg2) = m ((c : Thread nD τ).loc main_arg2) :=
  (W2_of_ne m ρ c main_arg2 (by decide)).trans ((StableHlo.after_of_writes_sub hostOps0 _ hostOps0_writes (by decide)).trans rfl)

theorem W2_arg3 (c : Dev nD) : W2 m ρ c (Proc.devRef .tc main_arg3) = m ((c : Thread nD τ).loc main_arg3) :=
  (W2_of_ne m ρ c main_arg3 (by decide)).trans ((StableHlo.after_of_writes_sub hostOps0 _ hostOps0_writes (by decide)).trans rfl)

theorem W2_arg4 (c : Dev nD) : W2 m ρ c (Proc.devRef .tc main_arg4) = m ((c : Thread nD τ).loc main_arg4) :=
  (W2_of_ne m ρ c main_arg4 (by decide)).trans ((StableHlo.after_of_writes_sub hostOps0 _ hostOps0_writes (by decide)).trans rfl)

theorem W2_arg5 (c : Dev nD) : W2 m ρ c (Proc.devRef .tc main_arg5) = m ((c : Thread nD τ).loc main_arg5) :=
  (W2_of_ne m ρ c main_arg5 (by decide)).trans ((StableHlo.after_of_writes_sub hostOps0 _ hostOps0_writes (by decide)).trans rfl)

theorem W2_arg6 (c : Dev nD) : W2 m ρ c (Proc.devRef .tc main_arg6) = m ((c : Thread nD τ).loc main_arg6) :=
  (W2_of_ne m ρ c main_arg6 (by decide)).trans ((StableHlo.after_of_writes_sub hostOps0 _ hostOps0_writes (by decide)).trans rfl)

theorem W2_arg7 (c : Dev nD) : W2 m ρ c (Proc.devRef .tc main_arg7) = m ((c : Thread nD τ).loc main_arg7) :=
  (W2_of_ne m ρ c main_arg7 (by decide)).trans ((StableHlo.after_of_writes_sub hostOps0 _ hostOps0_writes (by decide)).trans rfl)

theorem W2_arg8 (c : Dev nD) : W2 m ρ c (Proc.devRef .tc main_arg8) = m ((c : Thread nD τ).loc main_arg8) :=
  (W2_of_ne m ρ c main_arg8 (by decide)).trans ((StableHlo.after_of_writes_sub hostOps0 _ hostOps0_writes (by decide)).trans rfl)

theorem W2_arg9 (c : Dev nD) : W2 m ρ c (Proc.devRef .tc main_arg9) = m ((c : Thread nD τ).loc main_arg9) :=
  (W2_of_ne m ρ c main_arg9 (by decide)).trans ((StableHlo.after_of_writes_sub hostOps0 _ hostOps0_writes (by decide)).trans rfl)

theorem W2_arg10 (c : Dev nD) : W2 m ρ c (Proc.devRef .tc main_arg10) = m ((c : Thread nD τ).loc main_arg10) :=
  (W2_of_ne m ρ c main_arg10 (by decide)).trans ((StableHlo.after_of_writes_sub hostOps0 _ hostOps0_writes (by decide)).trans rfl)

theorem W2_arg11 (c : Dev nD) : W2 m ρ c (Proc.devRef .tc main_arg11) = m ((c : Thread nD τ).loc main_arg11) :=
  (W2_of_ne m ρ c main_arg11 (by decide)).trans ((StableHlo.after_of_writes_sub hostOps0 _ hostOps0_writes (by decide)).trans rfl)

theorem W5_arg9 (c : Dev nD) : W5 m ρ c (Proc.devRef .tc main_arg9) = m ((c : Thread nD τ).loc main_arg9) :=
  (StableHlo.after_of_writes_sub hostOps2 _ hostOps2_writes (by decide)).trans ((W4_of_ne m ρ c main_arg9 (by decide)).trans
    ((StableHlo.after_of_writes_sub hostOps1 _ hostOps1_writes (by decide)).trans (W2_arg9 m ρ c)))

/-- The new keys and values reach the last host stretch as the second stretch left them. -/
theorem W6_v59 (c : Dev nD) : W6 m ρ c (Proc.devRef .tc main_v59) = W3 m ρ c (Proc.devRef .tc main_v59) :=
  (W6_of_ne m ρ c main_v59 (by decide)).trans ((StableHlo.after_of_writes_sub hostOps2 _ hostOps2_writes (by decide)).trans (W4_of_ne m ρ c main_v59 (by decide)))
theorem W6_v11 (c : Dev nD) : W6 m ρ c (Proc.devRef .tc main_v11) = W3 m ρ c (Proc.devRef .tc main_v11) :=
  (W6_of_ne m ρ c main_v11 (by decide)).trans ((StableHlo.after_of_writes_sub hostOps2 _ hostOps2_writes (by decide)).trans (W4_of_ne m ρ c main_v11 (by decide)))

/-! ## The regions' outputs -/

/-- The fused projection: the hidden states against the stacked weights. -/
theorem W2_v2 (c : Dev nD) : (W2 m ρ c (Proc.devRef .tc main_v2) : S2048x4096.Idx → EReal)
    = prodT (N := 4096) (V1 m ρ c main_v0) (V1 m ρ c main_v1) :=
  (W2_arr m ρ c 2).trans (final0 (V1 m ρ) c)

/-- The attention region's output. -/
theorem W4_v65 (c : Dev nD) : (W4 m ρ c (Proc.devRef .tc main_v65) : S16x2048x128.Idx → EReal)
    = attnArr (V3 m ρ c main_v50) (V3 m ρ c main_v62) (V3 m ρ c main_v63) (V3 m ρ c main_v64) :=
  (W4_arr m ρ c 4).trans (final1 (V3 m ρ) c)

/-- The output projection. -/
theorem W6_v68 (c : Dev nD) : (W6 m ρ c (Proc.devRef .tc main_v68) : S2048x2048.Idx → EReal)
    = prodT (N := 2048) (V5 m ρ c main_v67) (V5 m ρ c main_arg9) :=
  (W6_arr m ρ c 2).trans (final2 (V5 m ρ) c)

/-! ## The fused projection's columns are the three projections -/

theorem xq_eq (c : Dev nD) (h : Fin 16) (s : Fin 2048) (e : Fin 128) :
    Glue.xq (W2 m ρ c (Proc.devRef .tc main_v2)) h s e = Cert.Spec.proj (Cert.Spec.hidAt (m ((c : Thread nD τ).loc main_arg0))) (Cert.Spec.wqAt (m ((c : Thread nD τ).loc main_arg6))) s (Cert.Spec.feat h e) :=
  (congrArg (fun X => Glue.xq X h s e) (W2_v2 m ρ c)).trans (Glue.xq_proj (W0 m ρ c) h s e)
theorem xk_eq (c : Dev nD) (g : Fin 8) (s : Fin 2048) (e : Fin 128) :
    Glue.xk (W2 m ρ c (Proc.devRef .tc main_v2)) g s e = Cert.Spec.proj (Cert.Spec.hidAt (m ((c : Thread nD τ).loc main_arg0))) (Cert.Spec.wkAt (m ((c : Thread nD τ).loc main_arg7))) s (Cert.Spec.feat g e) :=
  (congrArg (fun X => Glue.xk X g s e) (W2_v2 m ρ c)).trans (Glue.xk_proj (W0 m ρ c) g s e)
theorem xv_eq (c : Dev nD) (g : Fin 8) (s : Fin 2048) (d : Fin 128) :
    Glue.xv (W2 m ρ c (Proc.devRef .tc main_v2)) g s d = Cert.Spec.proj (Cert.Spec.hidAt (m ((c : Thread nD τ).loc main_arg0))) (Cert.Spec.wkAt (m ((c : Thread nD τ).loc main_arg8))) s (Cert.Spec.feat g d) :=
  (congrArg (fun X => Glue.xv X g s d) (W2_v2 m ρ c)).trans (Glue.xv_proj (W0 m ρ c) g s d)

/-! ## The buffers the attention region and the results read -/

theorem q_read (c : Dev nD) (h : Fin 16) (s : Fin 2048) (d : Fin 128) :
    (V3 m ρ c main_v50 : S16x2048x128.Idx → EReal) (ix3 h s d) = Cert.Spec.q (Cert.Spec.hidAt (m ((c : Thread nD τ).loc main_arg0))) (Cert.Spec.tabAt (m ((c : Thread nD τ).loc main_arg1))) (Cert.Spec.tabAt (m ((c : Thread nD τ).loc main_arg2))) (Cert.Spec.wqAt (m ((c : Thread nD τ).loc main_arg6))) (Cert.Spec.normAt (m ((c : Thread nD τ).loc main_arg10))) h s d := by
  refine (Glue.host_v50 (W2 m ρ c) h s d).trans ?_
  rw [W2_arg10 m ρ c, W2_arg1 m ρ c, W2_arg2 m ρ c]
  simp only [xq_eq m ρ c]
  rfl

theorem k_read (c : Dev nD) (g : Fin 8) (s : Fin 2048) (d : Fin 128) :
    (V3 m ρ c main_v59 : S8x2048x128.Idx → EReal) (ix3 g s d) = Cert.Spec.k (Cert.Spec.hidAt (m ((c : Thread nD τ).loc main_arg0))) (Cert.Spec.tabAt (m ((c : Thread nD τ).loc main_arg1))) (Cert.Spec.tabAt (m ((c : Thread nD τ).loc main_arg2))) (Cert.Spec.wkAt (m ((c : Thread nD τ).loc main_arg7))) (Cert.Spec.normAt (m ((c : Thread nD τ).loc main_arg11))) g s d := by
  refine (Glue.host_v59 (W2 m ρ c) g s d).trans ?_
  rw [W2_arg11 m ρ c, W2_arg1 m ρ c, W2_arg2 m ρ c]
  simp only [xk_eq m ρ c]
  rfl

theorem v_read (c : Dev nD) (g : Fin 8) (s : Fin 2048) (d : Fin 128) :
    (V3 m ρ c main_v11 : S8x2048x128.Idx → EReal) (ix3 g s d) = Cert.Spec.v (Cert.Spec.hidAt (m ((c : Thread nD τ).loc main_arg0))) (Cert.Spec.wkAt (m ((c : Thread nD τ).loc main_arg8))) g s d :=
  (Glue.host_v11 (W2 m ρ c) g s d).trans (xv_eq m ρ c g s d)

theorem kall_read (c : Dev nD) (g : Fin 8) (j : Fin 4096) (d : Fin 128) :
    (V3 m ρ c main_v62 : S8x4096x128.Idx → EReal) (ix3 g j d) = Cert.Spec.kAll (Cert.Spec.hidAt (m ((c : Thread nD τ).loc main_arg0))) (Cert.Spec.tabAt (m ((c : Thread nD τ).loc main_arg1))) (Cert.Spec.tabAt (m ((c : Thread nD τ).loc main_arg2))) (Cert.Spec.cacheAt (m ((c : Thread nD τ).loc main_arg4))) (Cert.Spec.wkAt (m ((c : Thread nD τ).loc main_arg7))) (Cert.Spec.normAt (m ((c : Thread nD τ).loc main_arg11))) g j d := by
  refine (Glue.host_v62 (W2 m ρ c) g j d).trans ?_
  rw [W2_arg4 m ρ c, W2_arg11 m ρ c, W2_arg1 m ρ c, W2_arg2 m ρ c]
  simp only [xk_eq m ρ c]
  rfl

theorem vall_read (c : Dev nD) (g : Fin 8) (j : Fin 4096) (d : Fin 128) :
    (V3 m ρ c main_v63 : S8x4096x128.Idx → EReal) (ix3 g j d) = Cert.Spec.vAll (Cert.Spec.hidAt (m ((c : Thread nD τ).loc main_arg0))) (Cert.Spec.cacheAt (m ((c : Thread nD τ).loc main_arg5))) (Cert.Spec.wkAt (m ((c : Thread nD τ).loc main_arg8))) g j d := by
  refine (Glue.host_v63 (W2 m ρ c) g j d).trans ?_
  rw [W2_arg5 m ρ c]
  simp only [xv_eq m ρ c]
  rfl

theorem mask_read (c : Dev nD) (s : Fin 2048) (j : Fin 4096) :
    (V3 m ρ c main_v64 : S2048x4096.Idx → EReal) (ix2 s j) = (Cert.Spec.maskAt (m ((c : Thread nD τ).loc main_arg3))) s j := by
  refine (Glue.host_v64 (W2 m ρ c) s j).trans ?_
  rw [W2_arg3 m ρ c]

/-! ## The attention region's output is the layer's context -/

theorem ctx_read (c : Dev nD) (h : Fin 16) (s : Fin 2048) (d : Fin 128) :
    (W4 m ρ c (Proc.devRef .tc main_v65) : S16x2048x128.Idx → EReal) (ix3 h s d) = Cert.Spec.ctx (Cert.Spec.hidAt (m ((c : Thread nD τ).loc main_arg0))) (Cert.Spec.tabAt (m ((c : Thread nD τ).loc main_arg1))) (Cert.Spec.tabAt (m ((c : Thread nD τ).loc main_arg2))) (Cert.Spec.maskAt (m ((c : Thread nD τ).loc main_arg3))) (Cert.Spec.cacheAt (m ((c : Thread nD τ).loc main_arg4))) (Cert.Spec.cacheAt (m ((c : Thread nD τ).loc main_arg5))) (Cert.Spec.wqAt (m ((c : Thread nD τ).loc main_arg6))) (Cert.Spec.wkAt (m ((c : Thread nD τ).loc main_arg7))) (Cert.Spec.wkAt (m ((c : Thread nD τ).loc main_arg8))) (Cert.Spec.normAt (m ((c : Thread nD τ).loc main_arg10))) (Cert.Spec.normAt (m ((c : Thread nD τ).loc main_arg11))) h s d := by
  rw [W4_v65 m ρ c]
  show Cert.Spec.attnRow (fun e => (V3 m ρ c main_v50 : S16x2048x128.Idx → EReal) (ix3 h s e))
      (fun j e => (V3 m ρ c main_v62 : S8x4096x128.Idx → EReal) (ix3 (Cert.Spec.grp h) j e))
      (fun j e => (V3 m ρ c main_v63 : S8x4096x128.Idx → EReal) (ix3 (Cert.Spec.grp h) j e))
      (fun j => (V3 m ρ c main_v64 : S2048x4096.Idx → EReal) (ix2 s j)) d = _
  exact (attnRow_congr (funext fun e => q_read m ρ c h s e) (funext fun j => funext fun e => kall_read m ρ c (Cert.Spec.grp h) j e)
    (funext fun j => funext fun e => vall_read m ρ c (Cert.Spec.grp h) j e) (funext fun j => mask_read m ρ c s j) rfl).trans
    (Cert.Spec.ctx_eq_attnRow _ _ _ _ _ _ _ _ _ _ _ h s d).symm

/-! ## The heads side by side, and the output projection -/

theorem v67_read (c : Dev nD) (s : Fin 2048) (x : Fin 2048) :
    (V5 m ρ c main_v67 : S2048x2048.Idx → EReal) (ix2 s x)
      = Cert.Spec.ctx (Cert.Spec.hidAt (m ((c : Thread nD τ).loc main_arg0))) (Cert.Spec.tabAt (m ((c : Thread nD τ).loc main_arg1))) (Cert.Spec.tabAt (m ((c : Thread nD τ).loc main_arg2))) (Cert.Spec.maskAt (m ((c : Thread nD τ).loc main_arg3))) (Cert.Spec.cacheAt (m ((c : Thread nD τ).loc main_arg4))) (Cert.Spec.cacheAt (m ((c : Thread nD τ).loc main_arg5))) (Cert.Spec.wqAt (m ((c : Thread nD τ).loc main_arg6))) (Cert.Spec.wkAt (m ((c : Thread nD τ).loc main_arg7))) (Cert.Spec.wkAt (m ((c : Thread nD τ).loc main_arg8))) (Cert.Spec.normAt (m ((c : Thread nD τ).loc main_arg10))) (Cert.Spec.normAt (m ((c : Thread nD τ).loc main_arg11))) ⟨x.val / 128, by have := x.isLt; omega⟩ s ⟨x.val % 128, Nat.mod_lt _ (by decide)⟩ := by
  have hx : (⟨x.val / 128 * 128 + x.val % 128, by have := x.isLt; omega⟩ : Fin 2048) = x := Fin.ext (by show x.val / 128 * 128 + x.val % 128 = x.val; omega)
  refine (congrArg (fun y => (V5 m ρ c main_v67 : S2048x2048.Idx → EReal) (ix2 s y)) hx.symm).trans ?_
  exact (Ends.v67_apply (W4 m ρ c) s ⟨x.val / 128, by have := x.isLt; omega⟩ ⟨x.val % 128, Nat.mod_lt _ (by decide)⟩).trans (ctx_read m ρ c _ s _)

/-- Entry (s, n) of a product with a transpose: row s against row n. -/
theorem prodT_apply {N : Nat} (X : (⟨2, ![2048, 2048]⟩ : Shape).Idx → EReal) (Wt : (⟨2, ![N, 2048]⟩ : Shape).Idx → EReal) (s : Fin 2048) (n : Fin N) :
    prodT (N := N) X Wt (ix2 s n) = ∑ k : Fin 2048, X (ix2 s k) * Wt (ix2 n k) := rfl

theorem out_read (c : Dev nD) (s n : Fin 2048) :
    (W6 m ρ c (Proc.devRef .tc main_v68) : S2048x2048.Idx → EReal) (ix2 s n) = Cert.Spec.out (Cert.Spec.hidAt (m ((c : Thread nD τ).loc main_arg0))) (Cert.Spec.tabAt (m ((c : Thread nD τ).loc main_arg1))) (Cert.Spec.tabAt (m ((c : Thread nD τ).loc main_arg2))) (Cert.Spec.maskAt (m ((c : Thread nD τ).loc main_arg3))) (Cert.Spec.cacheAt (m ((c : Thread nD τ).loc main_arg4))) (Cert.Spec.cacheAt (m ((c : Thread nD τ).loc main_arg5))) (Cert.Spec.wqAt (m ((c : Thread nD τ).loc main_arg6))) (Cert.Spec.wkAt (m ((c : Thread nD τ).loc main_arg7))) (Cert.Spec.wkAt (m ((c : Thread nD τ).loc main_arg8))) (Cert.Spec.woAt (m ((c : Thread nD τ).loc main_arg9))) (Cert.Spec.normAt (m ((c : Thread nD τ).loc main_arg10))) (Cert.Spec.normAt (m ((c : Thread nD τ).loc main_arg11))) s n := by
  refine (congrFun (W6_v68 m ρ c) (ix2 s n)).trans ?_
  refine (prodT_apply (N := 2048) _ _ s n).trans ?_
  unfold Cert.Spec.out
  refine Finset.sum_congr rfl fun x _ => ?_
  exact congrArg₂ (fun a b : EReal => a * b) (v67_read m ρ c s x) (congrFun (W5_arg9 m ρ c) (ix2 n x))

/-! ## The three results -/

set_option backward.isDefEq.respectTransparency.types false in
theorem res_out (c : Dev nD) : (W7 m ρ c (Proc.devRef .tc main_v69) : S1x2048x2048.Idx → EReal)
    = Cert.Spec.layerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  exact (Ends.v69_apply (W6 m ρ c) i).trans (out_read m ρ c (i 1) (i 2))

set_option backward.isDefEq.respectTransparency.types false in
theorem res_key (c : Dev nD) : (W7 m ρ c (Proc.devRef .tc main_v70) : S1x8x2048x128.Idx → EReal)
    = Cert.Spec.layerKey (m ((c : Thread nD τ).loc main_arg0)) (m ((c : Thread nD τ).loc main_arg1)) (m ((c : Thread nD τ).loc main_arg2)) (m ((c : Thread nD τ).loc main_arg7)) (m ((c : Thread nD τ).loc main_arg11)) := by
  funext i
  exact (Ends.v70_apply (W6 m ρ c) i).trans ((congrFun (W6_v59 m ρ c) _).trans (k_read m ρ c (i 1) (i 2) (i 3)))

set_option backward.isDefEq.respectTransparency.types false in
theorem res_val (c : Dev nD) : (W7 m ρ c (Proc.devRef .tc main_v71) : S1x8x2048x128.Idx → EReal)
    = Cert.Spec.layerVal (m ((c : Thread nD τ).loc main_arg0)) (m ((c : Thread nD τ).loc main_arg8)) := by
  funext i
  exact (Ends.v71_apply (W6 m ρ c) i).trans ((congrFun (W6_v11 m ρ c) _).trans (v_read m ρ c (i 1) (i 2) (i 3)))

end Cert.KernelIdeal.Regions

end
-- ==== Proof.RefProj.lean ====
/-
  The reference's three projections read at coordinates. Each is a matrix product of the hidden states with a weight
  matrix, reshaped so that feature h * 128 + d becomes lane d of head h, and transposed so that the head comes before the
  position: entry (0, h, s, d) is row h * 128 + d of the weights against row s of the hidden states.
-/
import proofs.«120073_j44152263803384_1_alg».proof.Proof.Gen.ReferenceIdeal.Read
import proofs.«120073_j44152263803384_1_alg».proof.Proof.Coords

noncomputable section

namespace Cert.ReferenceIdeal.RefSpec

open Cert.ReferenceIdeal Cert.ReferenceIdeal.Gen Cert.ReferenceIdeal.Read Idealize.ShloMosaic Idealize.ShloMosaic.ValueIdx Cert.Spec

/-- An f32 array of a literal shape, at the exact values. -/
abbrev Arr (s : Shape) : Type := (⟨s, .f32⟩ : BufTy).Contents (Elt Ideal)

variable (x0 : Arr S1x2048x2048) (x6 : Arr S2048x2048) (x7 x8 : Arr S1024x2048)

/-- Entry (0, h, s, d) of the query projection. -/
theorem q_proj (h : Fin 16) (s : Fin 2048) (d : Fin 128) :
    val_main_v2 (F := Ideal) x0 x6 (ix4 0 h s d) = proj (hidAt x0) (wqAt x6) s (feat h d) := by
  rw [val_main_v2_apply, val_main_v1_apply, val_main_v0_apply]
  refine Finset.sum_congr rfl fun k _ => ?_
  have el : lidx_main_v0 (idx_main_v1 (idx_main_v2 (ix4 0 h s d))) k = ix3 0 s k := funext fun a => Fin.ext (by
    have := h.isLt; have := d.isLt; have := s.isLt
    match a with
    | ⟨0, _⟩ => rfl
    | ⟨1, _⟩ => show (((0 * 2048 + s.val) * 16 + h.val) * 128 + d.val) / 2048 % 2048 = s.val; omega
    | ⟨2, _⟩ => rfl)
  have er : ridx_main_v0 (idx_main_v1 (idx_main_v2 (ix4 0 h s d))) k = ix2 (n0 := 2048) (feat h d) k := funext fun a => Fin.ext (by
    have := h.isLt; have := d.isLt; have := s.isLt
    match a with
    | ⟨0, _⟩ => show (((0 * 2048 + s.val) * 16 + h.val) * 128 + d.val) % 2048 = h.val * 128 + d.val; omega
    | ⟨1, _⟩ => rfl)
  rw [el, er]; rfl

/-- Entry (0, g, s, d) of the key projection. -/
theorem k_proj (g : Fin 8) (s : Fin 2048) (d : Fin 128) :
    val_main_v5 (F := Ideal) x0 x7 (ix4 0 g s d) = proj (hidAt x0) (wkAt x7) s (feat g d) := by
  rw [val_main_v5_apply, val_main_v4_apply, val_main_v3_apply]
  refine Finset.sum_congr rfl fun k _ => ?_
  have el : lidx_main_v3 (idx_main_v4 (idx_main_v5 (ix4 0 g s d))) k = ix3 0 s k := funext fun a => Fin.ext (by
    have := g.isLt; have := d.isLt; have := s.isLt
    match a with
    | ⟨0, _⟩ => rfl
    | ⟨1, _⟩ => show (((0 * 2048 + s.val) * 8 + g.val) * 128 + d.val) / 1024 % 2048 = s.val; omega
    | ⟨2, _⟩ => rfl)
  have er : ridx_main_v3 (idx_main_v4 (idx_main_v5 (ix4 0 g s d))) k = ix2 (n0 := 1024) (feat g d) k := funext fun a => Fin.ext (by
    have := g.isLt; have := d.isLt; have := s.isLt
    match a with
    | ⟨0, _⟩ => show (((0 * 2048 + s.val) * 8 + g.val) * 128 + d.val) % 1024 = g.val * 128 + d.val; omega
    | ⟨1, _⟩ => rfl)
  rw [el, er]; rfl

/-- Entry (0, g, s, d) of the value projection. -/
theorem v_proj (g : Fin 8) (s : Fin 2048) (d : Fin 128) :
    val_main_v8 (F := Ideal) x0 x8 (ix4 0 g s d) = proj (hidAt x0) (wkAt x8) s (feat g d) := by
  rw [val_main_v8_apply, val_main_v7_apply, val_main_v6_apply]
  refine Finset.sum_congr rfl fun k _ => ?_
  have el : lidx_main_v6 (idx_main_v7 (idx_main_v8 (ix4 0 g s d))) k = ix3 0 s k := funext fun a => Fin.ext (by
    have := g.isLt; have := d.isLt; have := s.isLt
    match a with
    | ⟨0, _⟩ => rfl
    | ⟨1, _⟩ => show (((0 * 2048 + s.val) * 8 + g.val) * 128 + d.val) / 1024 % 2048 = s.val; omega
    | ⟨2, _⟩ => rfl)
  have er : ridx_main_v6 (idx_main_v7 (idx_main_v8 (ix4 0 g s d))) k = ix2 (n0 := 1024) (feat g d) k := funext fun a => Fin.ext (by
    have := g.isLt; have := d.isLt; have := s.isLt
    match a with
    | ⟨0, _⟩ => show (((0 * 2048 + s.val) * 8 + g.val) * 128 + d.val) % 1024 = g.val * 128 + d.val; omega
    | ⟨1, _⟩ => rfl)
  rw [el, er]; rfl

end Cert.ReferenceIdeal.RefSpec

end
-- ==== Proof.RefNorm.lean ====
/-
  The reference's normalised queries and keys read at coordinates. Each 128-vector of a projection is multiplied by the
  reciprocal square root of (the zero word plus the sum of its squares) over the word 128.0 plus the small constant, and
  then by the per-lane weight: the root-mean-square normalisation of the specification, lane by lane.
-/
import proofs.«120073_j44152263803384_1_alg».proof.Proof.RefProj

noncomputable section

namespace Cert.ReferenceIdeal.RefSpec

open Cert.ReferenceIdeal Cert.ReferenceIdeal.Gen Cert.ReferenceIdeal.Read Idealize.ShloMosaic Idealize.ShloMosaic.ValueIdx Cert.Spec

variable (x0 : Arr S1x2048x2048) (x6 : Arr S2048x2048) (x7 : Arr S1024x2048) (x10 x11 : Arr S128)

/-- Entry (0, h, s, d) of the normalised queries. -/
theorem q_rms (h : Fin 16) (s : Fin 2048) (d : Fin 128) :
    val_main_v21 (F := Ideal) x0 x6 x10 (ix4 0 h s d)
      = rms (fun e => proj (hidAt x0) (wqAt x6) s (feat h e)) (normAt x10) d := by
  have e1 : ∀ k : Fin 128, idx_main_v10 (idx_main_v11 (idx_main_v17 (ix4 0 h s d))) k = ix4 0 h s k := fun k =>
    funext fun a => by match a with | ⟨0, _⟩ => rfl | ⟨1, _⟩ => rfl | ⟨2, _⟩ => rfl | ⟨3, _⟩ => rfl
  have e2 : idx_main_v19 (idx_main_v20 (ix4 0 h s d)) = ix1 d :=
    funext fun a => by match a with | ⟨0, _⟩ => rfl
  rw [val_main_v21_apply, val_main_v18_apply, val_main_v20_apply, val_main_v19_apply, val_main_v17_apply,
    val_main_v16_apply, val_main_v15_apply, val_main_v13_apply, val_main_v14_apply, val_main_v12_apply,
    val_main_v11_apply, val_main_v10_apply, val_main_cst_apply, val_main_cst_0_apply, val_main_cst_1_apply, e2]
  simp only [val_main_v9_apply, e1, q_proj]
  rfl

/-- Entry (0, g, s, d) of the normalised keys. -/
theorem k_rms (g : Fin 8) (s : Fin 2048) (d : Fin 128) :
    val_main_v34 (F := Ideal) x0 x7 x11 (ix4 0 g s d)
      = rms (fun e => proj (hidAt x0) (wkAt x7) s (feat g e)) (normAt x11) d := by
  have e1 : ∀ k : Fin 128, idx_main_v23 (idx_main_v24 (idx_main_v30 (ix4 0 g s d))) k = ix4 0 g s k := fun k =>
    funext fun a => by match a with | ⟨0, _⟩ => rfl | ⟨1, _⟩ => rfl | ⟨2, _⟩ => rfl | ⟨3, _⟩ => rfl
  have e2 : idx_main_v32 (idx_main_v33 (ix4 0 g s d)) = ix1 d :=
    funext fun a => by match a with | ⟨0, _⟩ => rfl
  rw [val_main_v34_apply, val_main_v31_apply, val_main_v33_apply, val_main_v32_apply, val_main_v30_apply,
    val_main_v29_apply, val_main_v28_apply, val_main_v26_apply, val_main_v27_apply, val_main_v25_apply,
    val_main_v24_apply, val_main_v23_apply, val_main_cst_2_apply, val_main_cst_3_apply, val_main_cst_4_apply, e2]
  simp only [val_main_v22_apply, e1, k_proj]
  rfl

end Cert.ReferenceIdeal.RefSpec

end
-- ==== Proof.RefRot.lean ====
/-
  The reference's rotary embedding read at coordinates. The half rotation is a concatenation along the lanes of the
  negated upper half and the lower half of a normalised vector: lane d below 64 holds minus lane d + 64, lane d from 64 on
  holds lane d - 64. The embedding multiplies the vector by the cosine table, its half rotation by the sine table, the
  tables read at the position and the lane, and adds the two.
-/
import proofs.«120073_j44152263803384_1_alg».proof.Proof.RefNorm

noncomputable section

namespace Cert.ReferenceIdeal.RefSpec

open Cert.ReferenceIdeal Cert.ReferenceIdeal.Gen Cert.ReferenceIdeal.Read Idealize.ShloMosaic Idealize.ShloMosaic.ValueIdx Cert.Spec

variable (x0 : Arr S1x2048x2048) (x1 x2 : Arr S1x2048x128) (x6 : Arr S2048x2048) (x7 : Arr S1024x2048) (x10 x11 : Arr S128)

/-- The half rotation of the normalised queries. -/
theorem q_half (h : Fin 16) (s : Fin 2048) (d : Fin 128) :
    val_main_v42 (F := Ideal) x0 x6 x10 (ix4 0 h s d)
      = rotHalf (fun e => val_main_v21 (F := Ideal) x0 x6 x10 (ix4 0 h s e)) d := by
  unfold val_main_v42 rotHalf
  by_cases hd : d.val < 64
  · rw [dif_pos hd]
    refine (concatenate_pair_apply_left (t := S1x16x2048x128) (s₁ := S1x16x2048x64) (s₂ := S1x16x2048x64) (3 : Fin 4) _ _ _ (ix4 0 h s d) rfl (ix4 0 h s (⟨d.val, hd⟩ : Fin 64))
      (fun a => by match a with | ⟨0, _⟩ => rfl | ⟨1, _⟩ => rfl | ⟨2, _⟩ => rfl | ⟨3, _⟩ => rfl)).trans ?_
    have e : idx_main_v40 (ix4 0 h s (⟨d.val, hd⟩ : Fin 64)) = ix4 0 h s (⟨d.val + 64, by omega⟩ : Fin 128) :=
      funext fun a => Fin.ext (by
        match a with
        | ⟨0, _⟩ => rfl
        | ⟨1, _⟩ => rfl
        | ⟨2, _⟩ => rfl
        | ⟨3, _⟩ => show 64 + d.val = d.val + 64; omega)
    rw [val_main_v41_apply, val_main_v40_apply, e]; rfl
  · rw [dif_neg hd]
    have hd' : d.val - 64 < 64 := by have := d.isLt; omega
    refine (concatenate_pair_apply_right (t := S1x16x2048x128) (s₁ := S1x16x2048x64) (s₂ := S1x16x2048x64) (3 : Fin 4) _ _ _ (ix4 0 h s d) rfl rfl (ix4 0 h s (⟨d.val - 64, hd'⟩ : Fin 64))
      (fun a ha => by
        match a with
        | ⟨0, _⟩ => rfl
        | ⟨1, _⟩ => rfl
        | ⟨2, _⟩ => rfl
        | ⟨3, _⟩ => exact absurd rfl ha)
      (by show d.val - 64 + 64 = d.val; omega)).trans ?_
    have e : idx_main_v39 (ix4 0 h s (⟨d.val - 64, hd'⟩ : Fin 64)) = ix4 0 h s (⟨d.val - 64, by omega⟩ : Fin 128) :=
      funext fun a => by match a with | ⟨0, _⟩ => rfl | ⟨1, _⟩ => rfl | ⟨2, _⟩ => rfl | ⟨3, _⟩ => rfl
    rw [val_main_v39_apply, e]

/-- The half rotation of the normalised keys. -/
theorem k_half (g : Fin 8) (s : Fin 2048) (d : Fin 128) :
    val_main_v51 (F := Ideal) x0 x7 x11 (ix4 0 g s d)
      = rotHalf (fun e => val_main_v34 (F := Ideal) x0 x7 x11 (ix4 0 g s e)) d := by
  unfold val_main_v51 rotHalf
  by_cases hd : d.val < 64
  · rw [dif_pos hd]
    refine (concatenate_pair_apply_left (t := S1x8x2048x128) (s₁ := S1x8x2048x64) (s₂ := S1x8x2048x64) (3 : Fin 4) _ _ _ (ix4 0 g s d) rfl (ix4 0 g s (⟨d.val, hd⟩ : Fin 64))
      (fun a => by match a with | ⟨0, _⟩ => rfl | ⟨1, _⟩ => rfl | ⟨2, _⟩ => rfl | ⟨3, _⟩ => rfl)).trans ?_
    have e : idx_main_v49 (ix4 0 g s (⟨d.val, hd⟩ : Fin 64)) = ix4 0 g s (⟨d.val + 64, by omega⟩ : Fin 128) :=
      funext fun a => Fin.ext (by
        match a with
        | ⟨0, _⟩ => rfl
        | ⟨1, _⟩ => rfl
        | ⟨2, _⟩ => rfl
        | ⟨3, _⟩ => show 64 + d.val = d.val + 64; omega)
    rw [val_main_v50_apply, val_main_v49_apply, e]; rfl
  · rw [dif_neg hd]
    have hd' : d.val - 64 < 64 := by have := d.isLt; omega
    refine (concatenate_pair_apply_right (t := S1x8x2048x128) (s₁ := S1x8x2048x64) (s₂ := S1x8x2048x64) (3 : Fin 4) _ _ _ (ix4 0 g s d) rfl rfl (ix4 0 g s (⟨d.val - 64, hd'⟩ : Fin 64))
      (fun a ha => by
        match a with
        | ⟨0, _⟩ => rfl
        | ⟨1, _⟩ => rfl
        | ⟨2, _⟩ => rfl
        | ⟨3, _⟩ => exact absurd rfl ha)
      (by show d.val - 64 + 64 = d.val; omega)).trans ?_
    have e : idx_main_v48 (ix4 0 g s (⟨d.val - 64, hd'⟩ : Fin 64)) = ix4 0 g s (⟨d.val - 64, by omega⟩ : Fin 128) :=
      funext fun a => by match a with | ⟨0, _⟩ => rfl | ⟨1, _⟩ => rfl | ⟨2, _⟩ => rfl | ⟨3, _⟩ => rfl
    rw [val_main_v48_apply, e]

/-- Entry (0, h, s, d) of the rotated queries is the specification's query. -/
theorem q_rot (h : Fin 16) (s : Fin 2048) (d : Fin 128) :
    val_main_v45 (F := Ideal) x0 x1 x2 x6 x10 (ix4 0 h s d)
      = Cert.Spec.q (hidAt x0) (tabAt x1) (tabAt x2) (wqAt x6) (normAt x10) h s d := by
  have e1 : idx_main_v35 (idx_main_v37 (ix4 0 h s d)) = ix3 0 s d := funext fun a => by match a with | ⟨0, _⟩ => rfl | ⟨1, _⟩ => rfl | ⟨2, _⟩ => rfl
  have e2 : idx_main_v36 (idx_main_v43 (ix4 0 h s d)) = ix3 0 s d := funext fun a => by match a with | ⟨0, _⟩ => rfl | ⟨1, _⟩ => rfl | ⟨2, _⟩ => rfl
  rw [val_main_v45_apply, val_main_v38_apply, val_main_v44_apply, val_main_v37_apply, val_main_v35_apply,
    val_main_v43_apply, val_main_v36_apply, e1, e2]
  simp only [q_half, q_rms]
  rfl

/-- Entry (0, g, s, d) of the rotated keys is the specification's key. -/
theorem k_rot (g : Fin 8) (s : Fin 2048) (d : Fin 128) :
    val_main_v54 (F := Ideal) x0 x1 x2 x7 x11 (ix4 0 g s d)
      = Cert.Spec.k (hidAt x0) (tabAt x1) (tabAt x2) (wkAt x7) (normAt x11) g s d := by
  have e1 : idx_main_v35 (idx_main_v46 (ix4 0 g s d)) = ix3 0 s d := funext fun a => by match a with | ⟨0, _⟩ => rfl | ⟨1, _⟩ => rfl | ⟨2, _⟩ => rfl
  have e2 : idx_main_v36 (idx_main_v52 (ix4 0 g s d)) = ix3 0 s d := funext fun a => by match a with | ⟨0, _⟩ => rfl | ⟨1, _⟩ => rfl | ⟨2, _⟩ => rfl
  rw [val_main_v54_apply, val_main_v47_apply, val_main_v53_apply, val_main_v46_apply, val_main_v35_apply,
    val_main_v52_apply, val_main_v36_apply, e1, e2]
  simp only [k_half, k_rms]
  rfl

end Cert.ReferenceIdeal.RefSpec

end
-- ==== Proof.RefCache.lean ====
/-
  The reference's keys and values over all 4096 positions, read at coordinates. Each is the concatenation, along the
  position axis, of the cache (positions 0 to 2047) and the new entries (positions 2048 to 4095). The layer's second and
  third results are the slices of these at positions 2048 on: the new keys and values themselves. The copy handed to the
  sixteen query heads broadcasts each of the eight groups twice and merges the two axes, so head h reads group h / 2.
-/
import proofs.«120073_j44152263803384_1_alg».proof.Proof.RefRot

noncomputable section

namespace Cert.ReferenceIdeal.RefSpec

open Cert.ReferenceIdeal Cert.ReferenceIdeal.Gen Cert.ReferenceIdeal.Read Idealize.ShloMosaic Idealize.ShloMosaic.ValueIdx Cert.Spec

variable (x0 : Arr S1x2048x2048) (x1 x2 : Arr S1x2048x128) (x4 x5 : Arr S1x8x2048x128) (x7 x8 : Arr S1024x2048) (x11 : Arr S128)

/-- Entry (0, g, j, d) of the concatenated keys. -/
theorem k_all (g : Fin 8) (j : Fin 4096) (d : Fin 128) :
    val_main_v55 (F := Ideal) x0 x1 x2 x4 x7 x11 (ix4 0 g j d) = kAll (hidAt x0) (tabAt x1) (tabAt x2) (cacheAt x4) (wkAt x7) (normAt x11) g j d := by
  unfold val_main_v55
  by_cases hj : j.val < 2048
  · refine (concatenate_pair_apply_left (t := S1x8x4096x128) (s₁ := S1x8x2048x128) (s₂ := S1x8x2048x128) (2 : Fin 4) _ _ _ (ix4 0 g j d) rfl (ix4 0 g (⟨j.val, hj⟩ : Fin 2048) d)
      (fun a => by match a with | ⟨0, _⟩ => rfl | ⟨1, _⟩ => rfl | ⟨2, _⟩ => rfl | ⟨3, _⟩ => rfl)).trans ?_
    unfold kAll
    rw [dif_pos hj]; rfl
  · have hj' : j.val - 2048 < 2048 := by have := j.isLt; omega
    refine (concatenate_pair_apply_right (t := S1x8x4096x128) (s₁ := S1x8x2048x128) (s₂ := S1x8x2048x128) (2 : Fin 4) _ _ _ (ix4 0 g j d) rfl rfl (ix4 0 g (⟨j.val - 2048, hj'⟩ : Fin 2048) d)
      (fun a ha => by
        match a with
        | ⟨0, _⟩ => rfl
        | ⟨1, _⟩ => rfl
        | ⟨2, _⟩ => exact absurd rfl ha
        | ⟨3, _⟩ => rfl)
      (by show j.val - 2048 + 2048 = j.val; omega)).trans ?_
    unfold kAll
    rw [dif_neg hj, k_rot]

/-- Entry (0, g, s, d) of the value projection is the specification's value. -/
theorem v_new (g : Fin 8) (s : Fin 2048) (d : Fin 128) :
    val_main_v8 (F := Ideal) x0 x8 (ix4 0 g s d) = Cert.Spec.v (hidAt x0) (wkAt x8) g s d := v_proj x0 x8 g s d

/-- Entry (0, g, j, d) of the concatenated values. -/
theorem v_all (g : Fin 8) (j : Fin 4096) (d : Fin 128) :
    val_main_v56 (F := Ideal) x0 x5 x8 (ix4 0 g j d) = vAll (hidAt x0) (cacheAt x5) (wkAt x8) g j d := by
  unfold val_main_v56
  by_cases hj : j.val < 2048
  · refine (concatenate_pair_apply_left (t := S1x8x4096x128) (s₁ := S1x8x2048x128) (s₂ := S1x8x2048x128) (2 : Fin 4) _ _ _ (ix4 0 g j d) rfl (ix4 0 g (⟨j.val, hj⟩ : Fin 2048) d)
      (fun a => by match a with | ⟨0, _⟩ => rfl | ⟨1, _⟩ => rfl | ⟨2, _⟩ => rfl | ⟨3, _⟩ => rfl)).trans ?_
    unfold vAll
    rw [dif_pos hj]; rfl
  · have hj' : j.val - 2048 < 2048 := by have := j.isLt; omega
    refine (concatenate_pair_apply_right (t := S1x8x4096x128) (s₁ := S1x8x2048x128) (s₂ := S1x8x2048x128) (2 : Fin 4) _ _ _ (ix4 0 g j d) rfl rfl (ix4 0 g (⟨j.val - 2048, hj'⟩ : Fin 2048) d)
      (fun a ha => by
        match a with
        | ⟨0, _⟩ => rfl
        | ⟨1, _⟩ => rfl
        | ⟨2, _⟩ => exact absurd rfl ha
        | ⟨3, _⟩ => rfl)
      (by show j.val - 2048 + 2048 = j.val; omega)).trans ?_
    unfold vAll
    rw [dif_neg hj, v_new]

/-- The layer's second result: entry (0, g, s, d) of the slice of the concatenated keys from position 2048 on. -/
theorem new_key (g : Fin 8) (s : Fin 2048) (d : Fin 128) :
    val_main_v57 (F := Ideal) x0 x1 x2 x4 x7 x11 (ix4 0 g s d) = Cert.Spec.k (hidAt x0) (tabAt x1) (tabAt x2) (wkAt x7) (normAt x11) g s d := by
  have hs : 2048 + s.val < 4096 := by have := s.isLt; omega
  have e : idx_main_v57 (ix4 0 g s d) = ix4 0 g (⟨2048 + s.val, hs⟩ : Fin 4096) d := funext fun a => by match a with | ⟨0, _⟩ => rfl | ⟨1, _⟩ => rfl | ⟨2, _⟩ => rfl | ⟨3, _⟩ => rfl
  rw [val_main_v57_apply, e, k_all]
  unfold kAll
  rw [dif_neg (show ¬ (2048 + s.val < 2048) by omega)]
  exact congrArg (fun t => Cert.Spec.k (hidAt x0) (tabAt x1) (tabAt x2) (wkAt x7) (normAt x11) g t d) (Fin.ext (show 2048 + s.val - 2048 = s.val by omega))

/-- The layer's third result: entry (0, g, s, d) of the slice of the concatenated values from position 2048 on. -/
theorem new_val (g : Fin 8) (s : Fin 2048) (d : Fin 128) :
    val_main_v58 (F := Ideal) x0 x5 x8 (ix4 0 g s d) = Cert.Spec.v (hidAt x0) (wkAt x8) g s d := by
  have hs : 2048 + s.val < 4096 := by have := s.isLt; omega
  have e : idx_main_v58 (ix4 0 g s d) = ix4 0 g (⟨2048 + s.val, hs⟩ : Fin 4096) d := funext fun a => by match a with | ⟨0, _⟩ => rfl | ⟨1, _⟩ => rfl | ⟨2, _⟩ => rfl | ⟨3, _⟩ => rfl
  rw [val_main_v58_apply, e, v_all]
  unfold vAll
  rw [dif_neg (show ¬ (2048 + s.val < 2048) by omega)]
  exact congrArg (fun t => Cert.Spec.v (hidAt x0) (wkAt x8) g t d) (Fin.ext (show 2048 + s.val - 2048 = s.val by omega))

/-- Entry (0, h, j, d) of the keys handed to the query heads: the keys of group h / 2. -/
theorem k_rep (h : Fin 16) (j : Fin 4096) (d : Fin 128) :
    val_main_v61 (F := Ideal) x0 x1 x2 x4 x7 x11 (ix4 0 h j d) = kAll (hidAt x0) (tabAt x1) (tabAt x2) (cacheAt x4) (wkAt x7) (normAt x11) (grp h) j d := by
  have e : idx_main_v59 (idx_main_v60 (idx_main_v61 (ix4 0 h j d))) = ix4 0 (grp h) j d := funext fun a => Fin.ext (by
    have := h.isLt; have := j.isLt; have := d.isLt
    match a with
    | ⟨0, _⟩ => rfl
    | ⟨1, _⟩ => show (((0 * 16 + h.val) * 4096 + j.val) * 128 + d.val) / 1048576 % 8 = h.val / 2; omega
    | ⟨2, _⟩ => show (((0 * 16 + h.val) * 4096 + j.val) * 128 + d.val) / 128 % 4096 = j.val; omega
    | ⟨3, _⟩ => show (((0 * 16 + h.val) * 4096 + j.val) * 128 + d.val) % 128 = d.val; omega)
  rw [val_main_v61_apply, val_main_v60_apply, val_main_v59_apply, e, k_all]

/-- Entry (0, h, j, d) of the values handed to the query heads: the values of group h / 2. -/
theorem v_rep (h : Fin 16) (j : Fin 4096) (d : Fin 128) :
    val_main_v64 (F := Ideal) x0 x5 x8 (ix4 0 h j d) = vAll (hidAt x0) (cacheAt x5) (wkAt x8) (grp h) j d := by
  have e : idx_main_v62 (idx_main_v63 (idx_main_v64 (ix4 0 h j d))) = ix4 0 (grp h) j d := funext fun a => Fin.ext (by
    have := h.isLt; have := j.isLt; have := d.isLt
    match a with
    | ⟨0, _⟩ => rfl
    | ⟨1, _⟩ => show (((0 * 16 + h.val) * 4096 + j.val) * 128 + d.val) / 1048576 % 8 = h.val / 2; omega
    | ⟨2, _⟩ => show (((0 * 16 + h.val) * 4096 + j.val) * 128 + d.val) / 128 % 4096 = j.val; omega
    | ⟨3, _⟩ => show (((0 * 16 + h.val) * 4096 + j.val) * 128 + d.val) % 128 = d.val; omega)
  rw [val_main_v64_apply, val_main_v63_apply, val_main_v62_apply, e, v_all]

end Cert.ReferenceIdeal.RefSpec

end
-- ==== Proof.RefMax.lean ====
/-
  A fold of the maximum over a nonempty finite set, started from a value b, is the maximum of b and the set's supremum.
  The reference takes a row maximum as such a fold started from minus infinity; the specification states it as the
  maximum of minus infinity and the row's supremum.
-/
import Idealize.ShloMosaic.PureOps.Ideal.Laws

noncomputable section

namespace Cert.ReferenceIdeal.RefSpec

open Idealize.ShloMosaic

/-- Folding the exact maximum over a nonempty finite set from `b` gives the maximum of `b` and the supremum. -/
theorem fold_maximumf_eq {ι : Type} (s : Finset ι) (hs : s.Nonempty) (b : EReal) (f : ι → EReal) :
    s.fold (FloatOps.maximumf (F := Ideal) (φ := .f32)) b f = max b (s.sup' hs f) := by
  induction hs using Finset.Nonempty.cons_induction with
  | singleton a =>
    rw [Finset.fold_singleton, Finset.sup'_singleton]
    exact max_comm (f a) b
  | cons a s ha hs ih =>
    rw [Finset.fold_cons, Finset.sup'_cons hs, ih]
    exact max_left_comm (f a) b (s.sup' hs f)

end Cert.ReferenceIdeal.RefSpec

end
-- ==== Proof.RefSoftmax.lean ====
/-
  The reference's scores and softmax read at coordinates. A score is the product of a rotated query with the keys of its
  head's group, summed over the lanes, times the scale word, plus the mask. The row maximum is a reduction by the maximum
  from the minus-infinity word, joined once more with that word: the maximum of the word and the row's supremum, since
  the maximum is idempotent. The exponentials of the scores less the row maximum are summed from the zero word, and each
  is divided by that sum.
-/
import proofs.«120073_j44152263803384_1_alg».proof.Proof.RefCache
import proofs.«120073_j44152263803384_1_alg».proof.Proof.RefMax

noncomputable section

namespace Cert.ReferenceIdeal.RefSpec

open Cert.ReferenceIdeal Cert.ReferenceIdeal.Gen Cert.ReferenceIdeal.Read Idealize.ShloMosaic Idealize.ShloMosaic.ValueIdx Cert.Spec

variable (x0 : Arr S1x2048x2048) (x1 x2 : Arr S1x2048x128) (x3 : Arr S1x1x2048x4096) (x4 x5 : Arr S1x8x2048x128)
  (x6 : Arr S2048x2048) (x7 x8 : Arr S1024x2048) (x9 : Arr S2048x2048) (x10 x11 : Arr S128)

/-- Entry (0, h, s, j) of the masked, scaled scores. -/
theorem score_at (h : Fin 16) (s : Fin 2048) (j : Fin 4096) :
    val_main_v69 (F := Ideal) x0 x1 x2 x3 x4 x6 x7 x10 x11 (ix4 0 h s j) = score (hidAt x0) (tabAt x1) (tabAt x2) (maskAt x3) (cacheAt x4) (wqAt x6) (wkAt x7) (normAt x10) (normAt x11) h s j := by
  have el : ∀ k : Fin 128, lidx_main_v65 (ix4 0 h s j) k = ix4 0 h s k := fun k => funext fun a => by match a with | ⟨0, _⟩ => rfl | ⟨1, _⟩ => rfl | ⟨2, _⟩ => rfl | ⟨3, _⟩ => rfl
  have er : ∀ k : Fin 128, ridx_main_v65 (ix4 0 h s j) k = ix4 0 h j k := fun k => funext fun a => by match a with | ⟨0, _⟩ => rfl | ⟨1, _⟩ => rfl | ⟨2, _⟩ => rfl | ⟨3, _⟩ => rfl
  have em : idx_main_v68 (ix4 0 h s j) = ix4 0 0 s j := funext fun a => by match a with | ⟨0, _⟩ => rfl | ⟨1, _⟩ => rfl | ⟨2, _⟩ => rfl | ⟨3, _⟩ => rfl
  rw [val_main_v69_apply, val_main_v67_apply, val_main_v68_apply, val_main_v66_apply, val_main_cst_5_apply,
    val_main_v65_apply, em]
  simp only [el, er, q_rot, k_rep]
  rfl

/-- Entry (0, h, s) of the row maxima. -/
theorem row_max (h : Fin 16) (s : Fin 2048) :
    val_main_v72 (F := Ideal) x0 x1 x2 x3 x4 x6 x7 x10 x11 (ix3 0 h s) = rowMax (hidAt x0) (tabAt x1) (tabAt x2) (maskAt x3) (cacheAt x4) (wqAt x6) (wkAt x7) (normAt x10) (normAt x11) h s := by
  have hne : (Finset.univ : Finset (Fin (S1x16x2048x4096.size 3))).Nonempty :=
    ⟨(⟨0, by decide⟩ : Fin 4096), Finset.mem_univ _⟩
  rw [val_main_v72_apply, val_main_v71_apply, val_main_cst_7_apply]
  unfold val_main_v70
  rw [Host.reduce_eq_fold_single (FloatOps.maximumf (F := Ideal) (φ := .f32)) _ _ reducesTo_S1x16x2048x4096_S1x16x2048_d3 (by decide) h_S_ (ix3 0 h s),
    fold_maximumf_eq _ hne, val_main_cst_6_apply]
  unfold rowMax negInfW
  simp only [Ideal.maximumf_def, Ideal.ofBits_def]
  rw [← max_assoc, max_self]
  refine congrArg (max _) (Finset.sup'_congr hne rfl fun k _ => ?_)
  exact (congrArg (val_main_v69 (F := Ideal) x0 x1 x2 x3 x4 x6 x7 x10 x11) (funext fun a => Fin.ext (by match a with | ⟨0, _⟩ => rfl | ⟨1, _⟩ => rfl | ⟨2, _⟩ => rfl | ⟨3, _⟩ => rfl))).trans
    (score_at x0 x1 x2 x3 x4 x6 x7 x10 x11 h s k)

/-- Entry (0, h, s, j) of the exponentials. -/
theorem expo_at (h : Fin 16) (s : Fin 2048) (j : Fin 4096) :
    val_main_v76 (F := Ideal) x0 x1 x2 x3 x4 x6 x7 x10 x11 (ix4 0 h s j) = expo (hidAt x0) (tabAt x1) (tabAt x2) (maskAt x3) (cacheAt x4) (wqAt x6) (wkAt x7) (normAt x10) (normAt x11) h s j := by
  have e : idx_main_v73 (idx_main_v74 (ix4 0 h s j)) = ix3 0 h s := funext fun a => by match a with | ⟨0, _⟩ => rfl | ⟨1, _⟩ => rfl | ⟨2, _⟩ => rfl
  rw [val_main_v76_apply, val_main_v75_apply, val_main_v74_apply, val_main_v73_apply, e, row_max, score_at]
  rfl

/-- Entry (0, h, s, j) of the probabilities. -/
theorem prob_at (h : Fin 16) (s : Fin 2048) (j : Fin 4096) :
    val_main_v80 (F := Ideal) x0 x1 x2 x3 x4 x6 x7 x10 x11 (ix4 0 h s j) = prob (hidAt x0) (tabAt x1) (tabAt x2) (maskAt x3) (cacheAt x4) (wqAt x6) (wkAt x7) (normAt x10) (normAt x11) h s j := by
  have e : idx_main_v78 (idx_main_v79 (ix4 0 h s j)) = ix3 0 h s := funext fun a => by match a with | ⟨0, _⟩ => rfl | ⟨1, _⟩ => rfl | ⟨2, _⟩ => rfl
  have ek : ∀ k : Fin 4096, idx_main_v77 (ix3 0 h s) k = ix4 0 h s k := fun k => funext fun a => by match a with | ⟨0, _⟩ => rfl | ⟨1, _⟩ => rfl | ⟨2, _⟩ => rfl | ⟨3, _⟩ => rfl
  rw [val_main_v80_apply, val_main_v79_apply, val_main_v78_apply, e, val_main_v77_apply, val_main_cst_8_apply]
  simp only [ek, expo_at]
  rfl

end Cert.ReferenceIdeal.RefSpec

end
-- ==== Proof.RefOut.lean ====
/-
  The reference's context and output read at coordinates. The context is the product of the probabilities with the
  values of the head's group, summed over the 4096 positions. Transposed and reshaped, column c of row s of the merged
  context is lane c % 128 of head c / 128; the output is its product with the output weights, summed over the columns.
-/
import proofs.«120073_j44152263803384_1_alg».proof.Proof.RefSoftmax

noncomputable section

namespace Cert.ReferenceIdeal.RefSpec

open Cert.ReferenceIdeal Cert.ReferenceIdeal.Gen Cert.ReferenceIdeal.Read Idealize.ShloMosaic Idealize.ShloMosaic.ValueIdx Cert.Spec

variable (x0 : Arr S1x2048x2048) (x1 x2 : Arr S1x2048x128) (x3 : Arr S1x1x2048x4096) (x4 x5 : Arr S1x8x2048x128)
  (x6 : Arr S2048x2048) (x7 x8 : Arr S1024x2048) (x9 : Arr S2048x2048) (x10 x11 : Arr S128)

/-- Entry (0, h, s, d) of the context. -/
theorem ctx_at (h : Fin 16) (s : Fin 2048) (d : Fin 128) :
    val_main_v81 (F := Ideal) x0 x1 x2 x3 x4 x5 x6 x7 x8 x10 x11 (ix4 0 h s d) = ctx (hidAt x0) (tabAt x1) (tabAt x2) (maskAt x3) (cacheAt x4) (cacheAt x5) (wqAt x6) (wkAt x7) (wkAt x8) (normAt x10) (normAt x11) h s d := by
  have el : ∀ k : Fin 4096, lidx_main_v81 (ix4 0 h s d) k = ix4 0 h s k := fun k => funext fun a => by match a with | ⟨0, _⟩ => rfl | ⟨1, _⟩ => rfl | ⟨2, _⟩ => rfl | ⟨3, _⟩ => rfl
  have er : ∀ k : Fin 4096, ridx_main_v81 (ix4 0 h s d) k = ix4 0 h k d := fun k => funext fun a => by match a with | ⟨0, _⟩ => rfl | ⟨1, _⟩ => rfl | ⟨2, _⟩ => rfl | ⟨3, _⟩ => rfl
  rw [val_main_v81_apply]
  simp only [el, er, prob_at, v_rep]
  rfl

/-- Entry (0, s, n) of the layer's output. -/
theorem out_at (s n : Fin 2048) :
    val_main_v84 (F := Ideal) x0 x1 x2 x3 x4 x5 x6 x7 x8 x9 x10 x11 (ix3 0 s n) = out (hidAt x0) (tabAt x1) (tabAt x2) (maskAt x3) (cacheAt x4) (cacheAt x5) (wqAt x6) (wkAt x7) (wkAt x8) (woAt x9) (normAt x10) (normAt x11) s n := by
  have el : ∀ k : Fin 2048, lidx_main_v84 (ix3 0 s n) k = ix3 0 s k := fun k => funext fun a => by match a with | ⟨0, _⟩ => rfl | ⟨1, _⟩ => rfl | ⟨2, _⟩ => rfl
  have er : ∀ k : Fin 2048, ridx_main_v84 (ix3 0 s n) k = ix2 n k := fun k => funext fun a => by
    match a with | ⟨0, _⟩ => rfl | ⟨1, _⟩ => rfl
  have ec : ∀ c : Fin 2048, idx_main_v82 (idx_main_v83 (ix3 0 s c))
      = ix4 0 (⟨c.val / 128, by have := c.isLt; omega⟩ : Fin 16) s (⟨c.val % 128, Nat.mod_lt _ (by decide)⟩ : Fin 128) := fun c =>
    funext fun a => Fin.ext (by
      have := s.isLt; have := c.isLt
      match a with
      | ⟨0, _⟩ => rfl
      | ⟨1, _⟩ => show ((0 * 2048 + s.val) * 2048 + c.val) / 128 % 16 = c.val / 128; omega
      | ⟨2, _⟩ => show ((0 * 2048 + s.val) * 2048 + c.val) / 2048 % 2048 = s.val; omega
      | ⟨3, _⟩ => show ((0 * 2048 + s.val) * 2048 + c.val) % 128 = c.val % 128; omega)
  rw [val_main_v84_apply]
  simp only [el, er, val_main_v83_apply, val_main_v82_apply, ec, ctx_at]
  rfl

end Cert.ReferenceIdeal.RefSpec

end
-- ==== Proof.RefSpec.lean ====
/-
  The reference computes the specification. At the exact values, and for arbitrary argument arrays, the three arrays the
  reference's run ends with are the specification's three results as whole arrays: the layer's output, the new keys and
  the new values. Each equation is read entry by entry from the coordinate lemmas; the statements about the run's own
  terms then follow by naming those terms.
-/
import proofs.«120073_j44152263803384_1_alg».proof.Proof.RefOut
import Idealize.ShloMosaic.Lib.StableHlo.Run

noncomputable section

namespace Cert.ReferenceIdeal.RefSpec

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Cert.Spec

section Arrays

variable (x0 : Arr S1x2048x2048) (x1 x2 : Arr S1x2048x128) (x3 : Arr S1x1x2048x4096) (x4 x5 : Arr S1x8x2048x128)
  (x6 : Arr S2048x2048) (x7 x8 : Arr S1024x2048) (x9 : Arr S2048x2048) (x10 x11 : Arr S128)

/-- The reference's first result, as a whole array, is the layer's output. -/
theorem out_eq :
    val_main_v84 (F := Ideal) x0 x1 x2 x3 x4 x5 x6 x7 x8 x9 x10 x11 = layerOut x0 x1 x2 x3 x4 x5 x6 x7 x8 x9 x10 x11 := by
  funext i
  obtain ⟨a, s, n, rfl⟩ : ∃ (a : Fin 1) (s n : Fin 2048), i = ix3 a s n := ⟨i 0, i 1, i 2, eq_ix3 i⟩
  obtain rfl : a = 0 := Subsingleton.elim _ _
  exact out_at x0 x1 x2 x3 x4 x5 x6 x7 x8 x9 x10 x11 s n

/-- The reference's second result, as a whole array, is the new keys. -/
theorem key_eq :
    val_main_v57 (F := Ideal) x0 x1 x2 x4 x7 x11 = layerKey x0 x1 x2 x7 x11 := by
  funext i
  obtain ⟨a, g, s, d, rfl⟩ : ∃ (a : Fin 1) (g : Fin 8) (s : Fin 2048) (d : Fin 128), i = ix4 a g s d :=
    ⟨i 0, i 1, i 2, i 3, eq_ix4 i⟩
  obtain rfl : a = 0 := Subsingleton.elim _ _
  exact new_key x0 x1 x2 x4 x7 x11 g s d

/-- The reference's third result, as a whole array, is the new values. -/
theorem val_eq :
    val_main_v58 (F := Ideal) x0 x5 x8 = layerVal x0 x8 := by
  funext i
  obtain ⟨a, g, s, d, rfl⟩ : ∃ (a : Fin 1) (g : Fin 8) (s : Fin 2048) (d : Fin 128), i = ix4 a g s d :=
    ⟨i 0, i 1, i 2, i 3, eq_ix4 i⟩
  obtain rfl : a = 0 := Subsingleton.elim _ _
  exact new_val x0 x5 x8 g s d

/-- The term the run states for the third result, of arbitrary arrays, is the new values. -/
theorem val_term_eq :
    extractStridedSlice S1x8x2048x128 ![0, 0, 2048, 0] (concatenate S1x8x4096x128 2 [⟨S1x8x2048x128, (x5)⟩, ⟨S1x8x2048x128, (transpose S1x8x2048x128 [0, 2, 1, 3] (shapeCast _ (Host.dotGeneral (F := Ideal) (φ₁ := .f32) (φ₂ := .f32) dot_S1x2048x2048_S1024x2048_S1x2048x1024_2_1_01_0_n_n none (x0) (x8)) shapeCasts_S1x2048x1024_S1x2048x8x128) transposes_S1x2048x8x128_S1x8x2048x128_0_2_1_3)⟩] concatenates_S1x8x2048x128_S1x8x2048x128_S1x8x4096x128_d2) slices_S1x8x4096x128_S1x8x2048x128_0_0_2048_0
      = layerVal x0 x8 :=
  (val_main_v58_eq (F := Ideal) x0 x5 x8).trans (val_eq x0 x5 x8)

end Arrays

section Run

variable (m : (ℓ : Loc nD τ sig) → Buf (Elt Ideal) ℓ) (c : Dev nD)

/-- The run's term for the first result is the layer's output of the arguments' launch contents. -/
theorem res_out0_eq :
    Cert.ReferenceIdeal.Value.res_main_v84 (F := Ideal) m c
      = layerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (val_main_v84_eq (F := Ideal) m c).trans (out_eq _ _ _ _ _ _ _ _ _ _ _ _)

/-- The run's term for the second result is the new keys of the arguments' launch contents. -/
theorem res_out1_eq :
    Cert.ReferenceIdeal.Value.res_main_v57 (F := Ideal) m c
      = layerKey (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg11)) :=
  (val_main_v57_eq (F := Ideal) m c).trans (key_eq _ _ _ _ _ _)

/-- The run's term for the third result is the new values of the arguments' launch contents. -/
theorem res_out2_eq :
    extractStridedSlice S1x8x2048x128 ![0, 0, 2048, 0] (concatenate S1x8x4096x128 2 [⟨S1x8x2048x128, (m ((c.tc : Thread nD τ).loc main_arg5))⟩, ⟨S1x8x2048x128, (transpose S1x8x2048x128 [0, 2, 1, 3] (shapeCast _ (Host.dotGeneral (F := Ideal) (φ₁ := .f32) (φ₂ := .f32) dot_S1x2048x2048_S1024x2048_S1x2048x1024_2_1_01_0_n_n none (m ((c.tc : Thread nD τ).loc main_arg0)) (m ((c.tc : Thread nD τ).loc main_arg8))) shapeCasts_S1x2048x1024_S1x2048x8x128) transposes_S1x2048x8x128_S1x8x2048x128_0_2_1_3)⟩] concatenates_S1x8x2048x128_S1x8x2048x128_S1x8x4096x128_d2) slices_S1x8x4096x128_S1x8x2048x128_0_0_2048_0
      = layerVal (m ((c.tc : Thread nD τ).loc main_arg0)) (m ((c.tc : Thread nD τ).loc main_arg8)) :=
  val_term_eq _ _ _

end Run

end Cert.ReferenceIdeal.RefSpec

end
-- ==== Proof.lean ====
/-
  One attention layer with grouped queries over a key/value cache, computed two ways, and the claim that the two ways
  agree on the extended reals.

  The kernel program runs three tiled regions with host operations between them: a fused projection (the hidden states
  against the query, key and value weights stacked into one matrix, one 512 x 512 block of the product per grid point),
  an attention region (per 128-row query tile and head: scores against all 4096 keys of the head's group, a row-wise
  softmax, and the weighted sum of the values), and an output projection (blocked like the first). The reference
  computes the three projections separately, repeats each key/value group for its two heads, and applies one softmax to
  the whole score array.

  Index by index both are the same function of the twelve argument arrays (Spec.lean): the stacked matrix product read at
  a column is the matching separate product; head h reading group h / 2 is the repeated group read at h; a block of a
  product is the product read at the block's indices, and the blocks tile each output. No sum is re-associated across an
  infinity and nothing is cancelled, so the agreement needs no finiteness of the inputs.

  Each program also runs to the end without a fault and leaves its arguments as they were: for the kernel programs by the
  launch theorem for a list of host stretches and regions (IdealRun.lean, BitsRun.lean), for the reference by its run.
  The idealized kernel is the kernel's own text read at the extended reals, so nothing is owed for that step.
-/
import proofs.«120073_j44152263803384_1_alg».proof.Defs
import proofs.«120073_j44152263803384_1_alg».proof.Proof.Gen.Kernel
import proofs.«120073_j44152263803384_1_alg».proof.Proof.Gen.KernelIdeal
import proofs.«120073_j44152263803384_1_alg».proof.Proof.Gen.ReferenceIdeal
import proofs.«120073_j44152263803384_1_alg».proof.Proof.Gen.Pre_finite_inputs
import proofs.«120073_j44152263803384_1_alg».proof.Proof.Gen.ReferenceIdeal.Run
import proofs.«120073_j44152263803384_1_alg».proof.Proof.Gen.ReferenceIdeal.Read
import proofs.«120073_j44152263803384_1_alg».proof.Proof.IdealRun
import proofs.«120073_j44152263803384_1_alg».proof.Proof.BitsRun
import proofs.«120073_j44152263803384_1_alg».proof.Proof.IdealValue
import proofs.«120073_j44152263803384_1_alg».proof.Proof.RefSpec
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Regions.frame (F := Bits) m ρ

/-- So does the kernel read at the extended reals. -/
theorem frame_ki : Cert.frame_KernelIdeal (hKernelIdeal := Cert.KernelIdeal.Gen.facts) (hPre_finite_inputs := Cert.Pre_finite_inputs.Gen.facts) :=
  fun m ρ _ => Cert.KernelIdeal.Regions.frame (F := Ideal) m ρ

/-- And the reference: its run, with what it says of the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Run from memories that agree on the arguments, the idealized kernel and the idealized reference both end with
    their three results at the layer's output, new keys and new values of Spec.lean, as functions of those arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.layerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.layerKey (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)),
    fun c => Cert.Spec.layerVal (m ((c.tc : Thread Cert.KernelIdeal.nD Cert.KernelIdeal.τ).loc Cert.KernelIdeal.main_arg0)) (m ((c.tc : Thread Cert.KernelIdeal.nD Cert.KernelIdeal.τ).loc Cert.KernelIdeal.main_arg8)), ?_, ?_⟩
  · exact (θ_run (Cert.KernelIdeal.defs (F := Ideal)) _ _).mono (fun r h c =>
      ⟨(h c _ (Cert.KernelIdeal.Regions.mem_uc Cert.KernelIdeal.main_v69 (by decide))).trans (Cert.KernelIdeal.Regions.res_out m ρ c),
       (h c _ (Cert.KernelIdeal.Regions.mem_uc Cert.KernelIdeal.main_v70 (by decide))).trans (Cert.KernelIdeal.Regions.res_key m ρ c),
       (h c _ (Cert.KernelIdeal.Regions.mem_uc Cert.KernelIdeal.main_v71 (by decide))).trans (Cert.KernelIdeal.Regions.res_val m ρ c),
       (h c _ (Cert.KernelIdeal.Regions.mem_uc Cert.KernelIdeal.main_arg0 (by decide))).trans (Cert.KernelIdeal.Regions.W7_main_arg0 m ρ c),
       (h c _ (Cert.KernelIdeal.Regions.mem_uc Cert.KernelIdeal.main_arg1 (by decide))).trans (Cert.KernelIdeal.Regions.W7_main_arg1 m ρ c),
       (h c _ (Cert.KernelIdeal.Regions.mem_uc Cert.KernelIdeal.main_arg2 (by decide))).trans (Cert.KernelIdeal.Regions.W7_main_arg2 m ρ c),
       (h c _ (Cert.KernelIdeal.Regions.mem_uc Cert.KernelIdeal.main_arg3 (by decide))).trans (Cert.KernelIdeal.Regions.W7_main_arg3 m ρ c),
       (h c _ (Cert.KernelIdeal.Regions.mem_uc Cert.KernelIdeal.main_arg4 (by decide))).trans (Cert.KernelIdeal.Regions.W7_main_arg4 m ρ c),
       (h c _ (Cert.KernelIdeal.Regions.mem_uc Cert.KernelIdeal.main_arg5 (by decide))).trans (Cert.KernelIdeal.Regions.W7_main_arg5 m ρ c),
       (h c _ (Cert.KernelIdeal.Regions.mem_uc Cert.KernelIdeal.main_arg6 (by decide))).trans (Cert.KernelIdeal.Regions.W7_main_arg6 m ρ c),
       (h c _ (Cert.KernelIdeal.Regions.mem_uc Cert.KernelIdeal.main_arg7 (by decide))).trans (Cert.KernelIdeal.Regions.W7_main_arg7 m ρ c),
       (h c _ (Cert.KernelIdeal.Regions.mem_uc Cert.KernelIdeal.main_arg8 (by decide))).trans (Cert.KernelIdeal.Regions.W7_main_arg8 m ρ c),
       (h c _ (Cert.KernelIdeal.Regions.mem_uc Cert.KernelIdeal.main_arg9 (by decide))).trans (Cert.KernelIdeal.Regions.W7_main_arg9 m ρ c),
       (h c _ (Cert.KernelIdeal.Regions.mem_uc Cert.KernelIdeal.main_arg10 (by decide))).trans (Cert.KernelIdeal.Regions.W7_main_arg10 m ρ c),
       (h c _ (Cert.KernelIdeal.Regions.mem_uc Cert.KernelIdeal.main_arg11 (by decide))).trans (Cert.KernelIdeal.Regions.W7_main_arg11 m ρ c)⟩)
      (Cert.KernelIdeal.Regions.run_all (F := Ideal) m ρ)
  · refine (θ_run (Cert.ReferenceIdeal.defs (F := Ideal)) _ _).mono (fun r h c => ?_) (Cert.ReferenceIdeal.Value.run (F := Ideal) m' ρ')
    obtain ⟨g0, g1, g2, g3, g4, g5, g6, g7, g8, g9, g10, g11⟩ := hagree c
    refine ⟨(h c).1.trans ?_, (h c).2.1.trans ?_, (h c).2.2.1.trans ?_, (h c).2.2.2⟩
    · rw [Cert.ReferenceIdeal.RefSpec.res_out0_eq m' c, g0, g1, g2, g3, g4, g5, g6, g7, g8, g9, g10, g11]
    · rw [Cert.ReferenceIdeal.RefSpec.res_out1_eq m' c, g0, g1, g2, g7, g11]
    · rw [Cert.ReferenceIdeal.RefSpec.res_out2_eq m' c, g0, g8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
